-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x64x56x56 : Shape := ⟨4, ![32, 64, 56, 56]⟩
abbrev S128x64x3x3 : Shape := ⟨4, ![128, 64, 3, 3]⟩
abbrev S128 : Shape := ⟨1, ![128]⟩
abbrev S128x128x3x3 : Shape := ⟨4, ![128, 128, 3, 3]⟩
abbrev S128x64x1x1 : Shape := ⟨4, ![128, 64, 1, 1]⟩
abbrev S_ : Shape := ⟨0, ![]⟩

class Facts : Prop where
  bcast_S_S32x64x56x56 : S_.BroadcastsInDim S32x64x56x56 (![] : Fin 0 → Fin S32x64x56x56.rank)
  reducesTo_S32x64x56x56_S_d0_1_2_3 : S32x64x56x56.ReducesTo [0, 1, 2, 3] S_
  h_S_ : 0 < S_.numel
  bcast_S_S128x64x3x3 : S_.BroadcastsInDim S128x64x3x3 (![] : Fin 0 → Fin S128x64x3x3.rank)
  reducesTo_S128x64x3x3_S_d0_1_2_3 : S128x64x3x3.ReducesTo [0, 1, 2, 3] S_
  bcast_S_S128 : S_.BroadcastsInDim S128 (![] : Fin 0 → Fin S128.rank)
  reducesTo_S128_S_d0 : S128.ReducesTo [0] S_
  bcast_S_S128x128x3x3 : S_.BroadcastsInDim S128x128x3x3 (![] : Fin 0 → Fin S128x128x3x3.rank)
  reducesTo_S128x128x3x3_S_d0_1_2_3 : S128x128x3x3.ReducesTo [0, 1, 2, 3] S_
  bcast_S_S128x64x1x1 : S_.BroadcastsInDim S128x64x1x1 (![] : Fin 0 → Fin S128x64x1x1.rank)
  reducesTo_S128x64x1x1_S_d0_1_2_3 : S128x64x1x1.ReducesTo [0, 1, 2, 3] S_

variable [Facts]

def fn_part4 {F : FTy → Type} [FloatOps F] (main_arg14 : FVec F S128 .f32) (main_arg15 : FVec F S128 .f32) (main_v63 : IVec S_ 1) (main_v67 : IVec S_ 1) : IVec S_ 1 :=
  let main_v68 : IVec S_ 1 := andi main_v63 main_v67
  let main_v69 : FVec F S128 .f32 := Host.absf main_arg14
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128 .f32 := Host.absf main_arg15
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  main_v78

def fn_part3 {F : FTy → Type} [FloatOps F] (main_arg11 : FVec F S128x64x1x1 .f32) (main_arg12 : FVec F S128 .f32) (main_arg13 : FVec F S128 .f32) (main_arg14 : FVec F S128 .f32) (main_arg15 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x64x1x1 .f32 := Host.absf main_arg11
  let main_cst_20 : FVec F S_ .f32 := constant S_ .f32 0x7F800000#32
  let main_v55 : FVec F S128x64x1x1 .f32 := broadcastInDim S128x64x1x1 ![] bcast_S_S128x64x1x1 main_cst_20
  let main_v56 : IVec S128x64x1x1 1 := cmpf .olt main_v54 main_v55
  let main_c_21 : IVec S_ 1 := constantI S_ 1 1#1
  let main_v57 : IVec S_ 1 := (fun x v => Host.reduce IntOp.andi x v reducesTo_S128x64x1x1_S_d0_1_2_3 h_S_) main_v56 main_c_21
  let main_v58 : IVec S_ 1 := andi main_v53 main_v57
  let main_v59 : FVec F S128 .f32 := Host.absf main_arg12
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg13
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg14 main_arg15 main_v63 main_v67

def fn_part2 {F : FTy → Type} [FloatOps F] (main_arg7 : FVec F S128 .f32) (main_arg8 : FVec F S128 .f32) (main_arg9 : FVec F S128 .f32) (main_arg10 : FVec F S128 .f32) (main_arg11 : FVec F S128x64x1x1 .f32) (main_arg12 : FVec F S128 .f32) (main_arg13 : FVec F S128 .f32) (main_arg14 : FVec F S128 .f32) (main_arg15 : FVec F S128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg10
  let main_cst_18 : FVec F S_ .f32 := constant S_ .f32 0x7F800000#32
  let main_v50 : FVec F S128 .f32 := broadcastInDim S128 ![] bcast_S_S128 main_cst_18
  fn_part3 (F := F) main_arg11 main_arg12 main_arg13 main_arg14 main_arg15 main_v48 main_v49 main_v50

def fn_part1 {F : FTy → Type} [FloatOps F] (main_arg4 : FVec F S128 .f32) (main_arg5 : FVec F S128 .f32) (main_arg6 : FVec F S128x128x3x3 .f32) (main_arg7 : FVec F S128 .f32) (main_arg8 : FVec F S128 .f32) (main_arg9 : FVec F S128 .f32) (main_arg10 : FVec F S128 .f32) (main_arg11 : FVec F S128x64x1x1 .f32) (main_arg12 : FVec F S128 .f32) (main_arg13 : FVec F S128 .f32) (main_arg14 : FVec F S128 .f32) (main_arg15 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128x3x3 .f32 := Host.absf main_arg6
  let main_cst_10 : FVec F S_ .f32 := constant S_ .f32 0x7F800000#32
  let main_v30 : FVec F S128x128x3x3 .f32 := broadcastInDim S128x128x3x3 ![] bcast_S_S128x128x3x3 main_cst_10
  let main_v31 : IVec S128x128x3x3 1 := cmpf .olt main_v29 main_v30
  let main_c_11 : IVec S_ 1 := constantI S_ 1 1#1
  let main_v32 : IVec S_ 1 := (fun x v => Host.reduce IntOp.andi x v reducesTo_S128x128x3x3_S_d0_1_2_3 h_S_) main_v31 main_c_11
  let main_v33 : IVec S_ 1 := andi main_v28 main_v32
  fn_part2 (F := F) main_arg7 main_arg8 main_arg9 main_arg10 main_arg11 main_arg12 main_arg13 main_arg14 main_arg15 main_v33

def fn {F : FTy → Type} [FloatOps F] (main_arg0 : FVec F S32x64x56x56 .f32) (main_arg1 : FVec F S128x64x3x3 .f32) (main_arg2 : FVec F S128 .f32) (main_arg3 : FVec F S128 .f32) (main_arg4 : FVec F S128 .f32) (main_arg5 : FVec F S128 .f32) (main_arg6 : FVec F S128x128x3x3 .f32) (main_arg7 : FVec F S128 .f32) (main_arg8 : FVec F S128 .f32) (main_arg9 : FVec F S128 .f32) (main_arg10 : FVec F S128 .f32) (main_arg11 : FVec F S128x64x1x1 .f32) (main_arg12 : FVec F S128 .f32) (main_arg13 : FVec F S128 .f32) (main_arg14 : FVec F S128 .f32) (main_arg15 : FVec F S128 .f32) : IVec S_ 1 :=
  let main_v0 : FVec F S32x64x56x56 .f32 := Host.absf main_arg0
  let main_cst : FVec F S_ .f32 := constant S_ .f32 0x7F800000#32
  let main_v1 : FVec F S32x64x56x56 .f32 := broadcastInDim S32x64x56x56 ![] bcast_S_S32x64x56x56 main_cst
  let main_v2 : IVec S32x64x56x56 1 := cmpf .olt main_v0 main_v1
  let main_c : IVec S_ 1 := constantI S_ 1 1#1
  let main_v3 : IVec S_ 1 := (fun x v => Host.reduce IntOp.andi x v reducesTo_S32x64x56x56_S_d0_1_2_3 h_S_) main_v2 main_c
  let main_v4 : FVec F S128x64x3x3 .f32 := Host.absf main_arg1
  let main_cst_0 : FVec F S_ .f32 := constant S_ .f32 0x7F800000#32
  let main_v5 : FVec F S128x64x3x3 .f32 := broadcastInDim S128x64x3x3 ![] bcast_S_S128x64x3x3 main_cst_0
  let main_v6 : IVec S128x64x3x3 1 := cmpf .olt main_v4 main_v5
  let main_c_1 : IVec S_ 1 := constantI S_ 1 1#1
  let main_v7 : IVec S_ 1 := (fun x v => Host.reduce IntOp.andi x v reducesTo_S128x64x3x3_S_d0_1_2_3 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_arg10 main_arg11 main_arg12 main_arg13 main_arg14 main_arg15 main_v13 main_v16
-- ==== Kernel.lean ====
abbrev S32x64x56x56 : Shape := ⟨4, ![32, 64, 56, 56]⟩
abbrev S128x64x3x3 : Shape := ⟨4, ![128, 64, 3, 3]⟩
abbrev S128 : Shape := ⟨1, ![128]⟩
abbrev S128x128x3x3 : Shape := ⟨4, ![128, 128, 3, 3]⟩
abbrev S128x64x1x1 : Shape := ⟨4, ![128, 64, 1, 1]⟩
abbrev S32x56x56x64 : Shape := ⟨4, ![32, 56, 56, 64]⟩
abbrev S_ : Shape := ⟨0, ![]⟩
abbrev S32x58x58x64 : Shape := ⟨4, ![32, 58, 58, 64]⟩
abbrev S32x29x2x29x2x64 : Shape := ⟨6, ![32, 29, 2, 29, 2, 64]⟩
abbrev S32x2x2x29x29x64 : Shape := ⟨6, ![32, 2, 2, 29, 29, 64]⟩
abbrev S32x116x29x64 : Shape := ⟨4, ![32, 116, 29, 64]⟩
abbrev S3x3x64x128 : Shape := ⟨4, ![3, 3, 64, 128]⟩
abbrev S576x128 : Shape := ⟨2, ![576, 128]⟩
abbrev S128x64 : Shape := ⟨2, ![128, 64]⟩
abbrev S64x128 : Shape := ⟨2, ![64, 128]⟩
abbrev S3x3x128x128 : Shape := ⟨4, ![3, 3, 128, 128]⟩
abbrev S1152x128 : Shape := ⟨2, ![1152, 128]⟩
abbrev S576x256 : Shape := ⟨2, ![576, 256]⟩
abbrev S1 : Shape := ⟨1, ![1]⟩
abbrev S2 : Shape := ⟨1, ![2]⟩
abbrev S256 : Shape := ⟨1, ![256]⟩
abbrev S1x256 : Shape := ⟨2, ![1, 256]⟩
abbrev S1x128 : Shape := ⟨2, ![1, 128]⟩
abbrev S32x28x28x128 : Shape := ⟨4, ![32, 28, 28, 128]⟩
abbrev S1x116x29x64 : Shape := ⟨4, ![1, 116, 29, 64]⟩
abbrev S1x28x28x128 : Shape := ⟨4, ![1, 28, 28, 128]⟩
abbrev S784x576 : Shape := ⟨2, ![784, 576]⟩
abbrev S30x30x128 : Shape := ⟨3, ![30, 30, 128]⟩
abbrev S784x1152 : Shape := ⟨2, ![784, 1152]⟩
abbrev S1x28x28x64 : Shape := ⟨4, ![1, 28, 28, 64]⟩
abbrev S28x28x64 : Shape := ⟨3, ![28, 28, 64]⟩
abbrev S784x64 : Shape := ⟨2, ![784, 64]⟩
abbrev S784x256 : Shape := ⟨2, ![784, 256]⟩
abbrev S784x128 : Shape := ⟨2, ![784, 128]⟩
abbrev S28x28x128 : Shape := ⟨3, ![28, 28, 128]⟩
abbrev S28x30x128 : Shape := ⟨3, ![28, 30, 128]⟩
abbrev S32x128x28x28 : Shape := ⟨4, ![32, 128, 28, 28]⟩

abbrev nBuf : Space → Nat
  | .hbm => 72
  | .vmem => 13
  | .smem => 0
  | _ => 0

abbrev bufTy : (tb : Table) → Fin (tcTables nBuf tb) → BufTy
  | .hbm, ⟨0, _⟩ => ⟨S32x64x56x56, .f32⟩
  | .hbm, ⟨1, _⟩ => ⟨S128x64x3x3, .f32⟩
  | .hbm, ⟨2, _⟩ => ⟨S128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128x128x3x3, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S128x64x1x1, .f32⟩
  | .hbm, ⟨12, _⟩ => ⟨S128, .f32⟩
  | .hbm, ⟨13, _⟩ => ⟨S128, .f32⟩
  | .hbm, ⟨14, _⟩ => ⟨S128, .f32⟩
  | .hbm, ⟨15, _⟩ => ⟨S128, .f32⟩
  | .hbm, ⟨16, _⟩ => ⟨S32x56x56x64, .f32⟩
  | .hbm, ⟨17, _⟩ => ⟨S_, .i32⟩
  | .hbm, ⟨18, _⟩ => ⟨S_, .f32⟩
  | .hbm, ⟨19, _⟩ => ⟨S32x58x58x64, .f32⟩
  | .hbm, ⟨20, _⟩ => ⟨S32x58x58x64, .bf16⟩
  | .hbm, ⟨21, _⟩ => ⟨S32x29x2x29x2x64, .bf16⟩
  | .hbm, ⟨22, _⟩ => ⟨S32x2x2x29x29x64, .bf16⟩
  | .hbm, ⟨23, _⟩ => ⟨S32x116x29x64, .bf16⟩
  | .hbm, ⟨24, _⟩ => ⟨S3x3x64x128, .f32⟩
  | .hbm, ⟨25, _⟩ => ⟨S576x128, .f32⟩
  | .hbm, ⟨26, _⟩ => ⟨S_, .f32⟩
  | .hbm, ⟨27, _⟩ => ⟨S128, .f32⟩
  | .hbm, ⟨28, _⟩ => ⟨S128, .f32⟩
  | .hbm, ⟨29, _⟩ => ⟨S128, .f32⟩
  | .hbm, ⟨30, _⟩ => ⟨S128, .f32⟩
  | .hbm, ⟨31, _⟩ => ⟨S128, .f32⟩
  | .hbm, ⟨32, _⟩ => ⟨S128, .f32⟩
  | .hbm, ⟨33, _⟩ => ⟨S128x64, .f32⟩
  | .hbm, ⟨34, _⟩ => ⟨S64x128, .f32⟩
  | .hbm, ⟨35, _⟩ => ⟨S_, .f32⟩
  | .hbm, ⟨36, _⟩ => ⟨S128, .f32⟩
  | .hbm, ⟨37, _⟩ => ⟨S128, .f32⟩
  | .hbm, ⟨38, _⟩ => ⟨S128, .f32⟩
  | .hbm, ⟨39, _⟩ => ⟨S128, .f32⟩
  | .hbm, ⟨40, _⟩ => ⟨S128, .f32⟩
  | .hbm, ⟨41, _⟩ => ⟨S128, .f32⟩
  | .hbm, ⟨42, _⟩ => ⟨S3x3x128x128, .f32⟩
  | .hbm, ⟨43, _⟩ => ⟨S1152x128, .f32⟩
  | .hbm, ⟨44, _⟩ => ⟨S_, .f32⟩
  | .hbm, ⟨45, _⟩ => ⟨S128, .f32⟩
  | .hbm, ⟨46, _⟩ => ⟨S128, .f32⟩
  | .hbm, ⟨47, _⟩ => ⟨S128, .f32⟩
  | .hbm, ⟨48, _⟩ => ⟨S128, .f32⟩
  | .hbm, ⟨49, _⟩ => ⟨S128, .f32⟩
  | .hbm, ⟨50, _⟩ => ⟨S128, .f32⟩
  | .hbm, ⟨51, _⟩ => ⟨S_, .f32⟩
  | .hbm, ⟨52, _⟩ => ⟨S576x256, .f32⟩
  | .hbm, ⟨53, _⟩ => ⟨S_, .i32⟩
  | .hbm, ⟨54, _⟩ => ⟨S1, .i32⟩
  | .hbm, ⟨55, _⟩ => ⟨S576x256, .f32⟩
  | .hbm, ⟨56, _⟩ => ⟨S_, .i32⟩
  | .hbm, ⟨57, _⟩ => ⟨S1, .i32⟩
  | .hbm, ⟨58, _⟩ => ⟨S_, .i32⟩
  | .hbm, ⟨59, _⟩ => ⟨S1, .i32⟩
  | .hbm, ⟨60, _⟩ => ⟨S2, .i32⟩
  | .hbm, ⟨61, _⟩ => ⟨S576x256, .f32⟩
  | .hbm, ⟨62, _⟩ => ⟨S576x256, .bf16⟩
  | .hbm, ⟨63, _⟩ => ⟨S1152x128, .bf16⟩
  | .hbm, ⟨64, _⟩ => ⟨S256, .f32⟩
  | .hbm, ⟨65, _⟩ => ⟨S1x256, .f32⟩
  | .hbm, ⟨66, _⟩ => ⟨S256, .f32⟩
  | .hbm, ⟨67, _⟩ => ⟨S1x256, .f32⟩
  | .hbm, ⟨68, _⟩ => ⟨S1x128, .f32⟩
  | .hbm, ⟨69, _⟩ => ⟨S1x128, .f32⟩
  | .hbm, ⟨70, _⟩ => ⟨S32x28x28x128, .f32⟩
  | .hbm, ⟨71, _⟩ => ⟨S32x128x28x28, .f32⟩
  | .local _ .vmem, ⟨0, _⟩ => ⟨S1x116x29x64, .bf16⟩
  | .local _ .vmem, ⟨1, _⟩ => ⟨S1x116x29x64, .bf16⟩
  | .local _ .vmem, ⟨2, _⟩ => ⟨S576x256, .bf16⟩
  | .local _ .vmem, ⟨3, _⟩ => ⟨S1x256, .f32⟩
  | .local _ .vmem, ⟨4, _⟩ => ⟨S1x256, .f32⟩
  | .local _ .vmem, ⟨5, _⟩ => ⟨S1152x128, .bf16⟩
  | .local _ .vmem, ⟨6, _⟩ => ⟨S1x128, .f32⟩
  | .local _ .vmem, ⟨7, _⟩ => ⟨S1x128, .f32⟩
  | .local _ .vmem, ⟨8, _⟩ => ⟨S1x28x28x128, .f32⟩
  | .local _ .vmem, ⟨9, _⟩ => ⟨S1x28x28x128, .f32⟩
  | .local _ .vmem, ⟨10, _⟩ => ⟨S784x576, .bf16⟩
  | .local _ .vmem, ⟨11, _⟩ => ⟨S30x30x128, .bf16⟩
  | .local _ .vmem, ⟨12, _⟩ => ⟨S784x1152, .bf16⟩
  | _, _ => ⟨S32x64x56x56, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_c : Ref sig .tc := ⟨.hbm, 17, rfl⟩
abbrev main_call0_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_cst : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_cst_0 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_cst_1 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_cst_2 : Ref sig .tc := ⟨.hbm, 51, rfl⟩
abbrev main_v30 : Ref sig .tc := ⟨.hbm, 52, rfl⟩
abbrev main_c_3 : Ref sig .tc := ⟨.hbm, 53, rfl⟩
abbrev main_v31 : Ref sig .tc := ⟨.hbm, 54, rfl⟩
abbrev main_v32 : Ref sig .tc := ⟨.hbm, 55, rfl⟩
abbrev main_c_4 : Ref sig .tc := ⟨.hbm, 56, rfl⟩
abbrev main_v33 : Ref sig .tc := ⟨.hbm, 57, rfl⟩
abbrev main_c_5 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x116x29x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S576x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1152x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x28x28x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  transposes_S32x64x56x56_S32x56x56x64_0_2_3_1 : S32x64x56x56.Transposes [0, 2, 3, 1] S32x56x56x64
  pads_S32x56x56x64_S32x58x58x64_000_110_110_000 : S32x56x56x64.Pads (![0, 1, 1, 0] : Fin 4 → Nat) ![0, 1, 1, 0] ![0, 0, 0, 0] S32x58x58x64
  h_S_ : 0 < S_.numel
  bitsLt_bf16_f32 : FTy.bits .bf16 < FTy.bits .f32
  shapeCasts_S32x58x58x64_S32x29x2x29x2x64 : S32x58x58x64.ShapeCasts S32x29x2x29x2x64
  transposes_S32x29x2x29x2x64_S32x2x2x29x29x64_0_2_4_1_3_5 : S32x29x2x29x2x64.Transposes [0, 2, 4, 1, 3, 5] S32x2x2x29x29x64
  shapeCasts_S32x2x2x29x29x64_S32x116x29x64 : S32x2x2x29x29x64.ShapeCasts S32x116x29x64
  transposes_S128x64x3x3_S3x3x64x128_2_3_1_0 : S128x64x3x3.Transposes [2, 3, 1, 0] S3x3x64x128
  shapeCasts_S3x3x64x128_S576x128 : S3x3x64x128.ShapeCasts S576x128
  bcast_S_S128 : S_.BroadcastsInDim S128 (![] : Fin 0 → Fin S128.rank)
  shapeCasts_S128x64x1x1_S128x64 : S128x64x1x1.ShapeCasts S128x64
  transposes_S128x64_S64x128_1_0 : S128x64.Transposes [1, 0] S64x128
  transposes_S128x128x3x3_S3x3x128x128_2_3_1_0 : S128x128x3x3.Transposes [2, 3, 1, 0] S3x3x128x128
  shapeCasts_S3x3x128x128_S1152x128 : S3x3x128x128.ShapeCasts S1152x128
  bcast_S_S576x256 : S_.BroadcastsInDim S576x256 (![] : Fin 0 → Fin S576x256.rank)
  bcast_S_S1 : S_.BroadcastsInDim S1 (![] : Fin 0 → Fin S1.rank)
  concatenates_S1_S1_S2_d0 : Shape.Concatenates [S1, S1] S2 0
  concatenates_S128_S128_S256_d0 : Shape.Concatenates [S128, S128] S256 0
  bcast_S256_S1x256_1 : S256.BroadcastsInDim S1x256 (![1] : Fin 1 → Fin S1x256.rank)
  bcast_S128_S1x128_1 : S128.BroadcastsInDim S1x128 (![1] : Fin 1 → Fin S1x128.rank)
  inb_S1x116x29x64_S1x28x28x64_0_0_0_0 : ∀ a, (![0, 0, 0, 0] : Fin 4 → Nat) a + S1x28x28x64.size a ≤ S1x116x29x64.size a
  h_S1x28x28x64 : 0 < S1x28x28x64.numel
  shapeCasts_S1x28x28x64_S28x28x64 : S1x28x28x64.ShapeCasts S28x28x64
  shapeCasts_S28x28x64_S784x64 : S28x28x64.ShapeCasts S784x64
  inb_S784x576_S784x64_0_0 : ∀ a, (![0, 0] : Fin 2 → Nat) a + S784x64.size a ≤ S784x576.size a
  h_S784x64 : 0 < S784x64.numel
  shapeCasts_S784x64_S784x64 : S784x64.ShapeCasts S784x64
  packedbf16_S784x576_S784x64_0_0 : (Rect.unit (s := S784x576) ![0, 0] S784x64.size inb_S784x576_S784x64_0_0).PackedRows (EltTy.packing .bf16)
  inb_S1x116x29x64_S1x28x28x64_0_29_0_0 : ∀ a, (![0, 29, 0, 0] : Fin 4 → Nat) a + S1x28x28x64.size a ≤ S1x116x29x64.size a
  inb_S784x576_S784x64_0_64 : ∀ a, (![0, 64] : Fin 2 → Nat) a + S784x64.size a ≤ S784x576.size a
  packedbf16_S784x576_S784x64_0_64 : (Rect.unit (s := S784x576) ![0, 64] S784x64.size inb_S784x576_S784x64_0_64).PackedRows (EltTy.packing .bf16)
  inb_S1x116x29x64_S1x28x28x64_0_0_1_0 : ∀ a, (![0, 0, 1, 0] : Fin 4 → Nat) a + S1x28x28x64.size a ≤ S1x116x29x64.size a
  inb_S784x576_S784x64_0_128 : ∀ a, (![0, 128] : Fin 2 → Nat) a + S784x64.size a ≤ S784x576.size a
  packedbf16_S784x576_S784x64_0_128 : (Rect.unit (s := S784x576) ![0, 128] S784x64.size inb_S784x576_S784x64_0_128).PackedRows (EltTy.packing .bf16)
  inb_S1x116x29x64_S1x28x28x64_0_58_0_0 : ∀ a, (![0, 58, 0, 0] : Fin 4 → Nat) a + S1x28x28x64.size a ≤ S1x116x29x64.size a
  inb_S784x576_S784x64_0_192 : ∀ a, (![0, 192] : Fin 2 → Nat) a + S784x64.size a ≤ S784x576.size a
  packedbf16_S784x576_S784x64_0_192 : (Rect.unit (s := S784x576) ![0, 192] S784x64.size inb_S784x576_S784x64_0_192).PackedRows (EltTy.packing .bf16)
  inb_S1x116x29x64_S1x28x28x64_0_87_0_0 : ∀ a, (![0, 87, 0, 0] : Fin 4 → Nat) a + S1x28x28x64.size a ≤ S1x116x29x64.size a
  inb_S784x576_S784x64_0_256 : ∀ a, (![0, 256] : Fin 2 → Nat) a + S784x64.size a ≤ S784x576.size a
  packedbf16_S784x576_S784x64_0_256 : (Rect.unit (s := S784x576) ![0, 256] S784x64.size inb_S784x576_S784x64_0_256).PackedRows (EltTy.packing .bf16)
  inb_S1x116x29x64_S1x28x28x64_0_58_1_0 : ∀ a, (![0, 58, 1, 0] : Fin 4 → Nat) a + S1x28x28x64.size a ≤ S1x116x29x64.size a
  inb_S784x576_S784x64_0_320 : ∀ a, (![0, 320] : Fin 2 → Nat) a + S784x64.size a ≤ S784x576.size a
  packedbf16_S784x576_S784x64_0_320 : (Rect.unit (s := S784x576) ![0, 320] S784x64.size inb_S784x576_S784x64_0_320).PackedRows (EltTy.packing .bf16)
  inb_S1x116x29x64_S1x28x28x64_0_1_0_0 : ∀ a, (![0, 1, 0, 0] : Fin 4 → Nat) a + S1x28x28x64.size a ≤ S1x116x29x64.size a
  inb_S784x576_S784x64_0_384 : ∀ a, (![0, 384] : Fin 2 → Nat) a + S784x64.size a ≤ S784x576.size a
  packedbf16_S784x576_S784x64_0_384 : (Rect.unit (s := S784x576) ![0, 384] S784x64.size inb_S784x576_S784x64_0_384).PackedRows (EltTy.packing .bf16)
  inb_S1x116x29x64_S1x28x28x64_0_30_0_0 : ∀ a, (![0, 30, 0, 0] : Fin 4 → Nat) a + S1x28x28x64.size a ≤ S1x116x29x64.size a
  inb_S784x576_S784x64_0_448 : ∀ a, (![0, 448] : Fin 2 → Nat) a + S784x64.size a ≤ S784x576.size a
  packedbf16_S784x576_S784x64_0_448 : (Rect.unit (s := S784x576) ![0, 448] S784x64.size inb_S784x576_S784x64_0_448).PackedRows (EltTy.packing .bf16)
  inb_S1x116x29x64_S1x28x28x64_0_1_1_0 : ∀ a, (![0, 1, 1, 0] : Fin 4 → Nat) a + S1x28x28x64.size a ≤ S1x116x29x64.size a
  inb_S784x576_S784x64_0_512 : ∀ a, (![0, 512] : Fin 2 → Nat) a + S784x64.size a ≤ S784x576.size a
  packedbf16_S784x576_S784x64_0_512 : (Rect.unit (s := S784x576) ![0, 512] S784x64.size inb_S784x576_S784x64_0_512).PackedRows (EltTy.packing .bf16)
  inb_S784x576_S784x576_0_0 : ∀ a, (![0, 0] : Fin 2 → Nat) a + S784x576.size a ≤ S784x576.size a
  h_S784x576 : 0 < S784x576.numel
  inb_S576x256_S576x256_0_0 : ∀ a, (![0, 0] : Fin 2 → Nat) a + S576x256.size a ≤ S576x256.size a
  h_S576x256 : 0 < S576x256.numel
  shapeCasts_S576x256_S576x256 : S576x256.ShapeCasts S576x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S784x256 : S1x256.Broadcasts S784x256
  slices_S784x256_o0_128_S784x128 : S784x256.Slices ![0, 128] S784x128
  slices_S784x256_o0_0_S784x128 : S784x256.Slices ![0, 0] S784x128
  inb_S30x30x128_S30x30x128_0_0_0 : ∀ a, (![0, 0, 0] : Fin 3 → Nat) a + S30x30x128.size a ≤ S30x30x128.size a
  h_S30x30x128 : 0 < S30x30x128.numel
  shapeCasts_S30x30x128_S30x30x128 : S30x30x128.ShapeCasts S30x30x128
  packedbf16_S30x30x128_S30x30x128_0_0_0 : (Rect.unit (s := S30x30x128) ![0, 0, 0] S30x30x128.size inb_S30x30x128_S30x30x128_0_0_0).PackedRows (EltTy.packing .bf16)
  shapeCasts_S784x128_S28x28x128 : S784x128.ShapeCasts S28x28x128
  inb_S30x30x128_S28x28x128_1_1_0 : ∀ a, (![1, 1, 0] : Fin 3 → Nat) a + S28x28x128.size a ≤ S30x30x128.size a
  h_S28x28x128 : 0 < S28x28x128.numel
  shapeCasts_S28x28x128_S28x28x128 : S28x28x128.ShapeCasts S28x28x128
  inb_S30x30x128_S28x30x128_1_0_0 : ∀ a, (![1, 0, 0] : Fin 3 → Nat) a + S28x30x128.size a ≤ S30x30x128.size a
  h_S28x30x128 : 0 < S28x30x128.numel
  slices_S28x30x128_S28x28x128_0_1_0 : S28x30x128.Slices ![0, 1, 0] S28x28x128
  packedbf16_S30x30x128_S28x30x128_1_0_0 : (Rect.unit (s := S30x30x128) ![1, 0, 0] S28x30x128.size inb_S30x30x128_S28x30x128_1_0_0).PackedRows (EltTy.packing .bf16)
  inb_S30x30x128_S28x28x128_0_0_0 : ∀ a, (![0, 0, 0] : Fin 3 → Nat) a + S28x28x128.size a ≤ S30x30x128.size a
  shapeCasts_S28x28x128_S784x128 : S28x28x128.ShapeCasts S784x128
  inb_S784x1152_S784x128_0_0 : ∀ a, (![0, 0] : Fin 2 → Nat) a + S784x128.size a ≤ S784x1152.size a
  h_S784x128 : 0 < S784x128.numel
  shapeCasts_S784x128_S784x128 : S784x128.ShapeCasts S784x128
  packedbf16_S784x1152_S784x128_0_0 : (Rect.unit (s := S784x1152) ![0, 0] S784x128.size inb_S784x1152_S784x128_0_0).PackedRows (EltTy.packing .bf16)
  inb_S30x30x128_S28x28x128_0_1_0 : ∀ a, (![0, 1, 0] : Fin 3 → Nat) a + S28x28x128.size a ≤ S30x30x128.size a
  inb_S784x1152_S784x128_0_128 : ∀ a, (![0, 128] : Fin 2 → Nat) a + S784x128.size a ≤ S784x1152.size a
  packedbf16_S784x1152_S784x128_0_128 : (Rect.unit (s := S784x1152) ![0, 128] S784x128.size inb_S784x1152_S784x128_0_128).PackedRows (EltTy.packing .bf16)
  inb_S30x30x128_S28x28x128_0_2_0 : ∀ a, (![0, 2, 0] : Fin 3 → Nat) a + S28x28x128.size a ≤ S30x30x128.size a
  inb_S784x1152_S784x128_0_256 : ∀ a, (![0, 256] : Fin 2 → Nat) a + S784x128.size a ≤ S784x1152.size a
  packedbf16_S784x1152_S784x128_0_256 : (Rect.unit (s := S784x1152) ![0, 256] S784x128.size inb_S784x1152_S784x128_0_256).PackedRows (EltTy.packing .bf16)
  inb_S30x30x128_S28x28x128_1_0_0 : ∀ a, (![1, 0, 0] : Fin 3 → Nat) a + S28x28x128.size a ≤ S30x30x128.size a
  inb_S784x1152_S784x128_0_384 : ∀ a, (![0, 384] : Fin 2 → Nat) a + S784x128.size a ≤ S784x1152.size a
  packedbf16_S784x1152_S784x128_0_384 : (Rect.unit (s := S784x1152) ![0, 384] S784x128.size inb_S784x1152_S784x128_0_384).PackedRows (EltTy.packing .bf16)
  inb_S784x1152_S784x128_0_512 : ∀ a, (![0, 512] : Fin 2 → Nat) a + S784x128.size a ≤ S784x1152.size a
  packedbf16_S784x1152_S784x128_0_512 : (Rect.unit (s := S784x1152) ![0, 512] S784x128.size inb_S784x1152_S784x128_0_512).PackedRows (EltTy.packing .bf16)
  inb_S30x30x128_S28x28x128_1_2_0 : ∀ a, (![1, 2, 0] : Fin 3 → Nat) a + S28x28x128.size a ≤ S30x30x128.size a
  inb_S784x1152_S784x128_0_640 : ∀ a, (![0, 640] : Fin 2 → Nat) a + S784x128.size a ≤ S784x1152.size a
  packedbf16_S784x1152_S784x128_0_640 : (Rect.unit (s := S784x1152) ![0, 640] S784x128.size inb_S784x1152_S784x128_0_640).PackedRows (EltTy.packing .bf16)
  inb_S30x30x128_S28x28x128_2_0_0 : ∀ a, (![2, 0, 0] : Fin 3 → Nat) a + S28x28x128.size a ≤ S30x30x128.size a
  inb_S784x1152_S784x128_0_768 : ∀ a, (![0, 768] : Fin 2 → Nat) a + S784x128.size a ≤ S784x1152.size a
  packedbf16_S784x1152_S784x128_0_768 : (Rect.unit (s := S784x1152) ![0, 768] S784x128.size inb_S784x1152_S784x128_0_768).PackedRows (EltTy.packing .bf16)
  inb_S30x30x128_S28x28x128_2_1_0 : ∀ a, (![2, 1, 0] : Fin 3 → Nat) a + S28x28x128.size a ≤ S30x30x128.size a
  inb_S784x1152_S784x128_0_896 : ∀ a, (![0, 896] : Fin 2 → Nat) a + S784x128.size a ≤ S784x1152.size a
  packedbf16_S784x1152_S784x128_0_896 : (Rect.unit (s := S784x1152) ![0, 896] S784x128.size inb_S784x1152_S784x128_0_896).PackedRows (EltTy.packing .bf16)
  inb_S30x30x128_S28x28x128_2_2_0 : ∀ a, (![2, 2, 0] : Fin 3 → Nat) a + S28x28x128.size a ≤ S30x30x128.size a
  inb_S784x1152_S784x128_0_1024 : ∀ a, (![0, 1024] : Fin 2 → Nat) a + S784x128.size a ≤ S784x1152.size a
  packedbf16_S784x1152_S784x128_0_1024 : (Rect.unit (s := S784x1152) ![0, 1024] S784x128.size inb_S784x1152_S784x128_0_1024).PackedRows (EltTy.packing .bf16)
  inb_S784x1152_S784x1152_0_0 : ∀ a, (![0, 0] : Fin 2 → Nat) a + S784x1152.size a ≤ S784x1152.size a
  h_S784x1152 : 0 < S784x1152.numel
  inb_S1152x128_S1152x128_0_0 : ∀ a, (![0, 0] : Fin 2 → Nat) a + S1152x128.size a ≤ S1152x128.size a
  h_S1152x128 : 0 < S1152x128.numel
  shapeCasts_S1152x128_S1152x128 : S1152x128.ShapeCasts S1152x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S784x128 : S1x128.Broadcasts S784x128
  inb_S1x28x28x128_S1x28x28x128_0_0_0_0 : ∀ a, (![0, 0, 0, 0] : Fin 4 → Nat) a + S1x28x28x128.size a ≤ S1x28x28x128.size a
  h_S1x28x28x128 : 0 < S1x28x28x128.numel
  shapeCasts_S1x28x28x128_S28x28x128 : S1x28x28x128.ShapeCasts S28x28x128
  shapeCasts_S28x28x128_S1x28x28x128 : S28x28x128.ShapeCasts S1x28x28x128
  transposes_S32x28x28x128_S32x128x28x28_0_3_1_2 : S32x28x28x128.Transposes [0, 3, 1, 2] S32x128x28x28
  scatter_S576x256_S1_S576x128_01_n_1_0_wf : ScatterDims.WF S576x256 S1 S576x128 [0, 1] [] [1] 0
  scatter_S576x256_S2_S64x128_01_n_01_0_wf : ScatterDims.WF S576x256 S2 S64x128 [0, 1] [] [0, 1] 0
  dot_S784x576_S576x256_S784x256_1_0_0_1_n_n_wf : DotDims.WF S784x576 S576x256 S784x256 [1] [0] [0] [1] [] []
  dot_S784x1152_S1152x128_S784x128_1_0_0_1_n_n_wf : DotDims.WF S784x1152 S1152x128 S784x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x116x29x64.size a ≤ S32x116x29x64.size a
  hwx0_0 : ∀ i : grid0.Coords, EltTy.bits .bf16 = 32 ∨ (Rect.block (s := S32x116x29x64) S1x116x29x64.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S576x256.size a ≤ S576x256.size a
  hwx0_1 : ∀ i : grid0.Coords, EltTy.bits .bf16 = 32 ∨ (Rect.block (s := S576x256) S576x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1152x128.size a ≤ S1152x128.size a
  hwx0_4 : ∀ i : grid0.Coords, EltTy.bits .bf16 = 32 ∨ (Rect.block (s := S1152x128) S1152x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x28x28x128.size a ≤ S32x28x28x128.size a
  hwx0_7 : ∀ i : grid0.Coords, EltTy.bits .f32 = 32 ∨ (Rect.block (s := S32x28x28x128) S1x28x28x128.size (cc0_transform_7 i) (hinb0_7 i)).WholeWords (EltTy.packing .f32)

variable [Facts₀]

def scatter_S576x256_S1_S576x128_01_n_1_0 : ScatterDims S576x256 S1 S576x128 where
  updateWindowDims := [0, 1]
  insertedWindowDims := []
  scatterDimsToOperandDims := [1]
  indexVectorDim := 0
  wf := scatter_S576x256_S1_S576x128_01_n_1_0_wf
def scatter_S576x256_S2_S64x128_01_n_01_0 : ScatterDims S576x256 S2 S64x128 where
  updateWindowDims := [0, 1]
  insertedWindowDims := []
  scatterDimsToOperandDims := [0, 1]
  indexVectorDim := 0
  wf := scatter_S576x256_S2_S64x128_01_n_01_0_wf
def dot_S784x576_S576x256_S784x256_1_0_0_1_n_n : DotDims S784x576 S576x256 S784x256 where
  lhsContracting := [1]
  rhsContracting := [0]
  lhsNonContracting := [0]
  rhsNonContracting := [1]
  lhsBatch := []
  rhsBatch := []
  wf := dot_S784x576_S576x256_S784x256_1_0_0_1_n_n_wf
def dot_S784x1152_S1152x128_S784x128_1_0_0_1_n_n : DotDims S784x1152 S1152x128 S784x128 where
  lhsContracting := [1]
  rhsContracting := [0]
  lhsNonContracting := [0]
  rhsNonContracting := [1]
  lhsBatch := []
  rhsBatch := []
  wf := dot_S784x1152_S1152x128_S784x128_1_0_0_1_n_n_wf

abbrev win0_0 : Pipeline.Window sig grid0 :=
  Pipeline.Window.ofSpec (Memref.whole main_v5) S1x116x29x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v37) S576x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v40) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v42) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v38) S1152x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v43) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v44) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v45) S1x28x28x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S32x64x56x56 : Shape := ⟨4, ![32, 64, 56, 56]⟩
abbrev S128x64x3x3 : Shape := ⟨4, ![128, 64, 3, 3]⟩
abbrev S128 : Shape := ⟨1, ![128]⟩
abbrev S128x128x3x3 : Shape := ⟨4, ![128, 128, 3, 3]⟩
abbrev S128x64x1x1 : Shape := ⟨4, ![128, 64, 1, 1]⟩
abbrev S32x56x56x64 : Shape := ⟨4, ![32, 56, 56, 64]⟩
abbrev S3x3x64x128 : Shape := ⟨4, ![3, 3, 64, 128]⟩
abbrev S_ : Shape := ⟨0, ![]⟩
abbrev S1x128 : Shape := ⟨2, ![1, 128]⟩
abbrev S3x3x128x128 : Shape := ⟨4, ![3, 3, 128, 128]⟩
abbrev S128x64 : Shape := ⟨2, ![128, 64]⟩
abbrev S64x128 : Shape := ⟨2, ![64, 128]⟩
abbrev S32x58x58x64 : Shape := ⟨4, ![32, 58, 58, 64]⟩
abbrev S32x29x2x29x2x64 : Shape := ⟨6, ![32, 29, 2, 29, 2, 64]⟩
abbrev S32x2x2x29x29x64 : Shape := ⟨6, ![32, 2, 2, 29, 29, 64]⟩
abbrev S32x116x29x64 : Shape := ⟨4, ![32, 116, 29, 64]⟩
abbrev S576x128 : Shape := ⟨2, ![576, 128]⟩
abbrev S32x28x28x128 : Shape := ⟨4, ![32, 28, 28, 128]⟩
abbrev S1x116x29x64 : Shape := ⟨4, ![1, 116, 29, 64]⟩
abbrev S1x7x28x128 : Shape := ⟨4, ![1, 7, 28, 128]⟩
abbrev S196x576 : Shape := ⟨2, ![196, 576]⟩
abbrev S1x7x28x64 : Shape := ⟨4, ![1, 7, 28, 64]⟩
abbrev S7x28x64 : Shape := ⟨3, ![7, 28, 64]⟩
abbrev S196x64 : Shape := ⟨2, ![196, 64]⟩
abbrev S196x128 : Shape := ⟨2, ![196, 128]⟩
abbrev S7x28x128 : Shape := ⟨3, ![7, 28, 128]⟩
abbrev S32x30x30x128 : Shape := ⟨4, ![32, 30, 30, 128]⟩
abbrev S1152x128 : Shape := ⟨2, ![1152, 128]⟩
abbrev S1x30x30x128 : Shape := ⟨4, ![1, 30, 30, 128]⟩
abbrev S196x1152 : Shape := ⟨2, ![196, 1152]⟩
abbrev S32x128x28x28 : Shape := ⟨4, ![32, 128, 28, 28]⟩

abbrev nBuf : Space → Nat
  | .hbm => 63
  | .vmem => 23
  | .smem => 0
  | _ => 0

abbrev bufTy : (tb : Table) → Fin (tcTables nBuf tb) → BufTy
  | .hbm, ⟨0, _⟩ => ⟨S32x64x56x56, .f32⟩
  | .hbm, ⟨1, _⟩ => ⟨S128x64x3x3, .f32⟩
  | .hbm, ⟨2, _⟩ => ⟨S128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128x128x3x3, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S128x64x1x1, .f32⟩
  | .hbm, ⟨12, _⟩ => ⟨S128, .f32⟩
  | .hbm, ⟨13, _⟩ => ⟨S128, .f32⟩
  | .hbm, ⟨14, _⟩ => ⟨S128, .f32⟩
  | .hbm, ⟨15, _⟩ => ⟨S128, .f32⟩
  | .hbm, ⟨16, _⟩ => ⟨S32x56x56x64, .f32⟩
  | .hbm, ⟨17, _⟩ => ⟨S3x3x64x128, .f32⟩
  | .hbm, ⟨18, _⟩ => ⟨S_, .f32⟩
  | .hbm, ⟨19, _⟩ => ⟨S128, .f32⟩
  | .hbm, ⟨20, _⟩ => ⟨S128, .f32⟩
  | .hbm, ⟨21, _⟩ => ⟨S128, .f32⟩
  | .hbm, ⟨22, _⟩ => ⟨S128, .f32⟩
  | .hbm, ⟨23, _⟩ => ⟨S128, .f32⟩
  | .hbm, ⟨24, _⟩ => ⟨S128, .f32⟩
  | .hbm, ⟨25, _⟩ => ⟨S1x128, .f32⟩
  | .hbm, ⟨26, _⟩ => ⟨S1x128, .f32⟩
  | .hbm, ⟨27, _⟩ => ⟨S3x3x128x128, .f32⟩
  | .hbm, ⟨28, _⟩ => ⟨S_, .f32⟩
  | .hbm, ⟨29, _⟩ => ⟨S128, .f32⟩
  | .hbm, ⟨30, _⟩ => ⟨S128, .f32⟩
  | .hbm, ⟨31, _⟩ => ⟨S128, .f32⟩
  | .hbm, ⟨32, _⟩ => ⟨S128, .f32⟩
  | .hbm, ⟨33, _⟩ => ⟨S128, .f32⟩
  | .hbm, ⟨34, _⟩ => ⟨S128, .f32⟩
  | .hbm, ⟨35, _⟩ => ⟨S1x128, .f32⟩
  | .hbm, ⟨36, _⟩ => ⟨S1x128, .f32⟩
  | .hbm, ⟨37, _⟩ => ⟨S128x64, .f32⟩
  | .hbm, ⟨38, _⟩ => ⟨S64x128, .f32⟩
  | .hbm, ⟨39, _⟩ => ⟨S_, .f32⟩
  | .hbm, ⟨40, _⟩ => ⟨S128, .f32⟩
  | .hbm, ⟨41, _⟩ => ⟨S128, .f32⟩
  | .hbm, ⟨42, _⟩ => ⟨S128, .f32⟩
  | .hbm, ⟨43, _⟩ => ⟨S128, .f32⟩
  | .hbm, ⟨44, _⟩ => ⟨S128, .f32⟩
  | .hbm, ⟨45, _⟩ => ⟨S128, .f32⟩
  | .hbm, ⟨46, _⟩ => ⟨S1x128, .f32⟩
  | .hbm, ⟨47, _⟩ => ⟨S1x128, .f32⟩
  | .hbm, ⟨48, _⟩ => ⟨S_, .i32⟩
  | .hbm, ⟨49, _⟩ => ⟨S_, .f32⟩
  | .hbm, ⟨50, _⟩ => ⟨S32x58x58x64, .f32⟩
  | .hbm, ⟨51, _⟩ => ⟨S32x29x2x29x2x64, .f32⟩
  | .hbm, ⟨52, _⟩ => ⟨S32x2x2x29x29x64, .f32⟩
  | .hbm, ⟨53, _⟩ => ⟨S32x116x29x64, .f32⟩
  | .hbm, ⟨54, _⟩ => ⟨S576x128, .f32⟩
  | .hbm, ⟨55, _⟩ => ⟨S32x28x28x128, .f32⟩
  | .hbm, ⟨56, _⟩ => ⟨S32x28x28x128, .f32⟩
  | .hbm, ⟨57, _⟩ => ⟨S_, .i32⟩
  | .hbm, ⟨58, _⟩ => ⟨S_, .f32⟩
  | .hbm, ⟨59, _⟩ => ⟨S32x30x30x128, .f32⟩
  | .hbm, ⟨60, _⟩ => ⟨S1152x128, .f32⟩
  | .hbm, ⟨61, _⟩ => ⟨S32x28x28x128, .f32⟩
  | .hbm, ⟨62, _⟩ => ⟨S32x128x28x28, .f32⟩
  | .local _ .vmem, ⟨0, _⟩ => ⟨S1x116x29x64, .f32⟩
  | .local _ .vmem, ⟨1, _⟩ => ⟨S1x116x29x64, .f32⟩
  | .local _ .vmem, ⟨2, _⟩ => ⟨S576x128, .f32⟩
  | .local _ .vmem, ⟨3, _⟩ => ⟨S1x128, .f32⟩
  | .local _ .vmem, ⟨4, _⟩ => ⟨S1x128, .f32⟩
  | .local _ .vmem, ⟨5, _⟩ => ⟨S64x128, .f32⟩
  | .local _ .vmem, ⟨6, _⟩ => ⟨S1x128, .f32⟩
  | .local _ .vmem, ⟨7, _⟩ => ⟨S1x128, .f32⟩
  | .local _ .vmem, ⟨8, _⟩ => ⟨S1x7x28x128, .f32⟩
  | .local _ .vmem, ⟨9, _⟩ => ⟨S1x7x28x128, .f32⟩
  | .local _ .vmem, ⟨10, _⟩ => ⟨S1x7x28x128, .f32⟩
  | .local _ .vmem, ⟨11, _⟩ => ⟨S1x7x28x128, .f32⟩
  | .local _ .vmem, ⟨12, _⟩ => ⟨S196x576, .f32⟩
  | .local _ .vmem, ⟨13, _⟩ => ⟨S1x30x30x128, .f32⟩
  | .local _ .vmem, ⟨14, _⟩ => ⟨S1x30x30x128, .f32⟩
  | .local _ .vmem, ⟨15, _⟩ => ⟨S1152x128, .f32⟩
  | .local _ .vmem, ⟨16, _⟩ => ⟨S1x128, .f32⟩
  | .local _ .vmem, ⟨17, _⟩ => ⟨S1x128, .f32⟩
  | .local _ .vmem, ⟨18, _⟩ => ⟨S1x7x28x128, .f32⟩
  | .local _ .vmem, ⟨19, _⟩ => ⟨S1x7x28x128, .f32⟩
  | .local _ .vmem, ⟨20, _⟩ => ⟨S1x7x28x128, .f32⟩
  | .local _ .vmem, ⟨21, _⟩ => ⟨S1x7x28x128, .f32⟩
  | .local _ .vmem, ⟨22, _⟩ => ⟨S196x1152, .f32⟩
  | _, _ => ⟨S32x64x56x56, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_cst : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst_0 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_cst_1 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_c : Ref sig .tc := ⟨.hbm, 48, rfl⟩
abbrev main_call0_v0 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34_0 : Ref sig .tc := ⟨.hbm, 55, rfl⟩
abbrev main_v34_1 : Ref sig .tc := ⟨.hbm, 56, rfl⟩
abbrev main_c_2 : Ref sig .tc := ⟨.hbm, 57, rfl⟩
abbrev main_call1_v0 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_scratch0 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg5_1 : Ref sig .tc := ⟨.vmem, 21, rfl⟩
abbrev cc1_scratch0 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem3_0 : DmaSem sig := 16
abbrev cc1_sem4_0 : DmaSem sig := 17
abbrev cc1_sem4_1 : DmaSem sig := 18
abbrev cc1_sem5_0 : DmaSem sig := 19
abbrev cc1_sem5_1 : DmaSem sig := 20

abbrev nD : Nat := 1
abbrev τ : Topo := Topo.v7x

variable {F : FTy → Type} [FloatOps F]

abbrev grid0 : Pipeline.Grid := ⟨2, ![32, 4], ![false, false]⟩

def k0_mult1 (i : grid0.Coords) : BitVec 32 :=
  let arg1 : BitVec 32 := BitVec.ofNat 32 (i 1).val
  let c7_i32 : BitVec 32 := 7#32
  let v0 : BitVec 32 := Scalar.muli arg1 c7_i32
  v0
def k0_off1 (i : grid0.Coords) (c0_i32 : BitVec 32) (c0_i32_0 : BitVec 32) : Fin 4 → Nat :=
  let c0 : Index := 0#32
  let arg1 : BitVec 32 := BitVec.ofNat 32 (i 1).val
  let c7_i32 : BitVec 32 := 7#32
  let v0 : BitVec 32 := Scalar.muli arg1 c7_i32
  let v1 : BitVec 32 := v0
  let v2 : BitVec 32 := Scalar.addi c0_i32 v1
  let v3 : BitVec 32 := Scalar.addi v2 c0_i32_0
  let v4 : Index := Scalar.indexCast v3
  let c0_1 : Index := 0#32
  let c0_2 : Index := 0#32
  ![0, v4.toNat, 0, 0]
def k0_off1_at (r : Fin 6) : BitVec 32 × BitVec 32 :=
  if r.val < 3 then
    if r.val < 1 then
      (0#32, 0#32)
    else
      if r.val < 2 then
        (29#32, 0#32)
      else
        (58#32, 0#32)
  else
    if r.val < 4 then
      (87#32, 0#32)
    else
      if r.val < 5 then
        (0#32, 1#32)
      else
        (29#32, 1#32)
def k0_off2 (i : grid0.Coords) (c0_i32_10 : BitVec 32) (c0_i32_11 : BitVec 32) : Fin 4 → Nat :=
  let c0_12 : Index := 0#32
  let arg1 : BitVec 32 := BitVec.ofNat 32 (i 1).val
  let c7_i32 : BitVec 32 := 7#32
  let v0 : BitVec 32 := Scalar.muli arg1 c7_i32
  let v1 : BitVec 32 := v0
  let v20 : BitVec 32 := Scalar.addi c0_i32_10 v1
  let v21 : BitVec 32 := Scalar.addi v20 c0_i32_11
  let v22 : Index := Scalar.indexCast v21
  let c1 : Index := 1#32
  let c0_13 : Index := 0#32
  ![0, v22.toNat, 1, 0]
def k0_off2_at (r : Fin 3) : BitVec 32 × BitVec 32 :=
  if r.val < 1 then
    (0#32, 0#32)
  else
    if r.val < 2 then
      (58#32, 0#32)
    else
      (0#32, 1#32)
def k0_off3 (i : grid0.Coords) : Fin 4 → Nat :=
  let c0_62 : Index := 0#32
  let c87_i32_61 : BitVec 32 := 87#32
  let arg1 : BitVec 32 := BitVec.ofNat 32 (i 1).val
  let c7_i32 : BitVec 32 := 7#32
  let v0 : BitVec 32 := Scalar.muli arg1 c7_i32
  let v1 : BitVec 32 := v0
  let v101 : BitVec 32 := Scalar.addi c87_i32_61 v1
  let v102 : Index := Scalar.indexCast v101
  let c0_63 : Index := 0#32
  let c0_64 : Index := 0#32
  ![0, v102.toNat, 0, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x116x29x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S576x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S64x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x7x28x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x7x28x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev grid1 : Pipeline.Grid := ⟨2, ![32, 4], ![false, false]⟩

def k1_mult1 (i : grid1.Coords) : BitVec 32 :=
  let arg1 : BitVec 32 := BitVec.ofNat 32 (i 1).val
  let c7_i32 : BitVec 32 := 7#32
  let v0 : BitVec 32 := Scalar.muli arg1 c7_i32
  v0
def k1_off1 (i : grid1.Coords) (c0_i32 : BitVec 32) : Fin 4 → Nat :=
  let c0 : Index := 0#32
  let arg1 : BitVec 32 := BitVec.ofNat 32 (i 1).val
  let c7_i32 : BitVec 32 := 7#32
  let v0 : BitVec 32 := Scalar.muli arg1 c7_i32
  let v1 : BitVec 32 := v0
  let v2 : BitVec 32 := Scalar.addi v1 c0_i32
  let v3 : Index := Scalar.indexCast v2
  let c0_0 : Index := 0#32
  let c0_1 : Index := 0#32
  ![0, v3.toNat, 0, 0]
def k1_off2 (i : grid1.Coords) (c0_i32_4 : BitVec 32) : Fin 4 → Nat :=
  let c0_5 : Index := 0#32
  let arg1 : BitVec 32 := BitVec.ofNat 32 (i 1).val
  let c7_i32 : BitVec 32 := 7#32
  let v0 : BitVec 32 := Scalar.muli arg1 c7_i32
  let v1 : BitVec 32 := v0
  let v10 : BitVec 32 := Scalar.addi v1 c0_i32_4
  let v11 : Index := Scalar.indexCast v10
  let c1 : Index := 1#32
  let c0_6 : Index := 0#32
  ![0, v11.toNat, 1, 0]
def k1_off3 (i : grid1.Coords) (c0_i32_8 : BitVec 32) : Fin 4 → Nat :=
  let c0_9 : Index := 0#32
  let arg1 : BitVec 32 := BitVec.ofNat 32 (i 1).val
  let c7_i32 : BitVec 32 := 7#32
  let v0 : BitVec 32 := Scalar.muli arg1 c7_i32
  let v1 : BitVec 32 := v0
  let v18 : BitVec 32 := Scalar.addi v1 c0_i32_8
  let v19 : Index := Scalar.indexCast v18
  let c2 : Index := 2#32
  let c0_10 : Index := 0#32
  ![0, v19.toNat, 2, 0]
def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_5 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage1_0 : Fin 2 → Memref sig .tc .vmem S1x30x30x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 1 → Memref sig .tc .vmem S1152x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S1x7x28x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x7x28x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

class Facts₀ : Prop where
  transposes_S32x64x56x56_S32x56x56x64_0_2_3_1 : S32x64x56x56.Transposes [0, 2, 3, 1] S32x56x56x64
  transposes_S128x64x3x3_S3x3x64x128_2_3_1_0 : S128x64x3x3.Transposes [2, 3, 1, 0] S3x3x64x128
  bcast_S_S128 : S_.BroadcastsInDim S128 (![] : Fin 0 → Fin S128.rank)
  bcast_S128_S1x128_1 : S128.BroadcastsInDim S1x128 (![1] : Fin 1 → Fin S1x128.rank)
  transposes_S128x128x3x3_S3x3x128x128_2_3_1_0 : S128x128x3x3.Transposes [2, 3, 1, 0] S3x3x128x128
  shapeCasts_S128x64x1x1_S128x64 : S128x64x1x1.ShapeCasts S128x64
  transposes_S128x64_S64x128_1_0 : S128x64.Transposes [1, 0] S64x128
  pads_S32x56x56x64_S32x58x58x64_000_110_110_000 : S32x56x56x64.Pads (![0, 1, 1, 0] : Fin 4 → Nat) ![0, 1, 1, 0] ![0, 0, 0, 0] S32x58x58x64
  h_S_ : 0 < S_.numel
  shapeCasts_S32x58x58x64_S32x29x2x29x2x64 : S32x58x58x64.ShapeCasts S32x29x2x29x2x64
  transposes_S32x29x2x29x2x64_S32x2x2x29x29x64_0_2_4_1_3_5 : S32x29x2x29x2x64.Transposes [0, 2, 4, 1, 3, 5] S32x2x2x29x29x64
  shapeCasts_S32x2x2x29x29x64_S32x116x29x64 : S32x2x2x29x29x64.ShapeCasts S32x116x29x64
  shapeCasts_S3x3x64x128_S576x128 : S3x3x64x128.ShapeCasts S576x128
  h_S1x7x28x64 : 0 < S1x7x28x64.numel
  shapeCasts_S1x7x28x64_S7x28x64 : S1x7x28x64.ShapeCasts S7x28x64
  shapeCasts_S7x28x64_S196x64 : S7x28x64.ShapeCasts S196x64
  inb_S196x576_S196x64_0_0 : ∀ a, (![0, 0] : Fin 2 → Nat) a + S196x64.size a ≤ S196x576.size a
  h_S196x64 : 0 < S196x64.numel
  shapeCasts_S196x64_S196x64 : S196x64.ShapeCasts S196x64
  inb_S196x576_S196x64_0_64 : ∀ a, (![0, 64] : Fin 2 → Nat) a + S196x64.size a ≤ S196x576.size a
  inb_S196x576_S196x64_0_128 : ∀ a, (![0, 128] : Fin 2 → Nat) a + S196x64.size a ≤ S196x576.size a
  inb_S196x576_S196x64_0_192 : ∀ a, (![0, 192] : Fin 2 → Nat) a + S196x64.size a ≤ S196x576.size a
  inb_S196x576_S196x64_0_256 : ∀ a, (![0, 256] : Fin 2 → Nat) a + S196x64.size a ≤ S196x576.size a
  inb_S196x576_S196x64_0_320 : ∀ a, (![0, 320] : Fin 2 → Nat) a + S196x64.size a ≤ S196x576.size a
  inb_S196x576_S196x64_0_384 : ∀ a, (![0, 384] : Fin 2 → Nat) a + S196x64.size a ≤ S196x576.size a
  inb_S196x576_S196x64_0_448 : ∀ a, (![0, 448] : Fin 2 → Nat) a + S196x64.size a ≤ S196x576.size a
  inb_S196x576_S196x64_0_512 : ∀ a, (![0, 512] : Fin 2 → Nat) a + S196x64.size a ≤ S196x576.size a
  inb_S196x576_S196x576_0_0 : ∀ a, (![0, 0] : Fin 2 → Nat) a + S196x576.size a ≤ S196x576.size a
  h_S196x576 : 0 < S196x576.numel
  inb_S576x128_S576x128_0_0 : ∀ a, (![0, 0] : Fin 2 → Nat) a + S576x128.size a ≤ S576x128.size a
  h_S576x128 : 0 < S576x128.numel
  shapeCasts_S576x128_S576x128 : S576x128.ShapeCasts S576x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S196x128 : S1x128.Broadcasts S196x128
  shapeCasts_S196x128_S7x28x128 : S196x128.ShapeCasts S7x28x128
  inb_S1x7x28x128_S1x7x28x128_0_0_0_0 : ∀ a, (![0, 0, 0, 0] : Fin 4 → Nat) a + S1x7x28x128.size a ≤ S1x7x28x128.size a
  h_S1x7x28x128 : 0 < S1x7x28x128.numel
  shapeCasts_S1x7x28x128_S7x28x128 : S1x7x28x128.ShapeCasts S7x28x128
  shapeCasts_S7x28x128_S1x7x28x128 : S7x28x128.ShapeCasts S1x7x28x128
  inb_S64x128_S64x128_0_0 : ∀ a, (![0, 0] : Fin 2 → Nat) a + S64x128.size a ≤ S64x128.size a
  h_S64x128 : 0 < S64x128.numel
  shapeCasts_S64x128_S64x128 : S64x128.ShapeCasts S64x128
  pads_S32x28x28x128_S32x30x30x128_000_110_110_000 : S32x28x28x128.Pads (![0, 1, 1, 0] : Fin 4 → Nat) ![0, 1, 1, 0] ![0, 0, 0, 0] S32x30x30x128
  shapeCasts_S3x3x128x128_S1152x128 : S3x3x128x128.ShapeCasts S1152x128
  shapeCasts_S7x28x128_S196x128 : S7x28x128.ShapeCasts S196x128
  inb_S196x1152_S196x128_0_0 : ∀ a, (![0, 0] : Fin 2 → Nat) a + S196x128.size a ≤ S196x1152.size a
  h_S196x128 : 0 < S196x128.numel
  shapeCasts_S196x128_S196x128 : S196x128.ShapeCasts S196x128
  inb_S196x1152_S196x128_0_128 : ∀ a, (![0, 128] : Fin 2 → Nat) a + S196x128.size a ≤ S196x1152.size a
  inb_S196x1152_S196x128_0_256 : ∀ a, (![0, 256] : Fin 2 → Nat) a + S196x128.size a ≤ S196x1152.size a
  inb_S196x1152_S196x128_0_384 : ∀ a, (![0, 384] : Fin 2 → Nat) a + S196x128.size a ≤ S196x1152.size a
  inb_S196x1152_S196x128_0_512 : ∀ a, (![0, 512] : Fin 2 → Nat) a + S196x128.size a ≤ S196x1152.size a
  inb_S196x1152_S196x128_0_640 : ∀ a, (![0, 640] : Fin 2 → Nat) a + S196x128.size a ≤ S196x1152.size a
  inb_S196x1152_S196x128_0_768 : ∀ a, (![0, 768] : Fin 2 → Nat) a + S196x128.size a ≤ S196x1152.size a
  inb_S196x1152_S196x128_0_896 : ∀ a, (![0, 896] : Fin 2 → Nat) a + S196x128.size a ≤ S196x1152.size a
  inb_S196x1152_S196x128_0_1024 : ∀ a, (![0, 1024] : Fin 2 → Nat) a + S196x128.size a ≤ S196x1152.size a
  inb_S196x1152_S196x1152_0_0 : ∀ a, (![0, 0] : Fin 2 → Nat) a + S196x1152.size a ≤ S196x1152.size a
  h_S196x1152 : 0 < S196x1152.numel
  inb_S1152x128_S1152x128_0_0 : ∀ a, (![0, 0] : Fin 2 → Nat) a + S1152x128.size a ≤ S1152x128.size a
  h_S1152x128 : 0 < S1152x128.numel
  shapeCasts_S1152x128_S1152x128 : S1152x128.ShapeCasts S1152x128
  transposes_S32x28x28x128_S32x128x28x28_0_3_1_2 : S32x28x28x128.Transposes [0, 3, 1, 2] S32x128x28x28
  dot_S196x576_S576x128_S196x128_1_0_0_1_n_n_wf : DotDims.WF S196x576 S576x128 S196x128 [1] [0] [0] [1] [] []
  dot_S196x64_S64x128_S196x128_1_0_0_1_n_n_wf : DotDims.WF S196x64 S64x128 S196x128 [1] [0] [0] [1] [] []
  dot_S196x1152_S1152x128_S196x128_1_0_0_1_n_n_wf : DotDims.WF S196x1152 S1152x128 S196x128 [1] [0] [0] [1] [] []
  hrank0 : 0 < grid0.rank
  k0_mult1_dvd : ∀ i : grid0.Coords, 7 ∣ (k0_mult1 i).toNat
  k0_off1_inb : ∀ i : grid0.Coords, ∀ (r : Fin 6), ∀ a, (k0_off1 i (k0_off1_at r).1 (k0_off1_at r).2) a + S1x7x28x64.size a ≤ S1x116x29x64.size a
  k0_off2_inb : ∀ i : grid0.Coords, ∀ (r : Fin 3), ∀ a, (k0_off2 i (k0_off2_at r).1 (k0_off2_at r).2) a + S1x7x28x64.size a ≤ S1x116x29x64.size a
  k0_off3_inb : ∀ i : grid0.Coords, ∀ a, (k0_off3 i) a + S1x7x28x64.size a ≤ S1x116x29x64.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x116x29x64.size a ≤ S32x116x29x64.size a
  hwx0_0 : ∀ i : grid0.Coords, EltTy.bits .f32 = 32 ∨ (Rect.block (s := S32x116x29x64) S1x116x29x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S576x128.size a ≤ S576x128.size a
  hwx0_1 : ∀ i : grid0.Coords, EltTy.bits .f32 = 32 ∨ (Rect.block (s := S576x128) S576x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x128.size a ≤ S64x128.size a
  hwx0_4 : ∀ i : grid0.Coords, EltTy.bits .f32 = 32 ∨ (Rect.block (s := S64x128) S64x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x7x28x128.size a ≤ S32x28x28x128.size a
  hwx0_7 : ∀ i : grid0.Coords, EltTy.bits .f32 = 32 ∨ (Rect.block (s := S32x28x28x128) S1x7x28x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x7x28x128.size a ≤ S32x28x28x128.size a
  hwx0_8 : ∀ i : grid0.Coords, EltTy.bits .f32 = 32 ∨ (Rect.block (s := S32x28x28x128) S1x7x28x128.size (cc0_transform_8 i) (hinb0_8 i)).WholeWords (EltTy.packing .f32)
  hrank1 : 0 < grid1.rank
  k1_mult1_dvd : ∀ i : grid1.Coords, 7 ∣ (k1_mult1 i).toNat
  k1_off1_inb : ∀ i : grid1.Coords, ∀ (r : Fin 3), ∀ a, (k1_off1 i (BitVec.ofNat 32 r.val)) a + S1x7x28x128.size a ≤ S1x30x30x128.size a
  k1_off2_inb : ∀ i : grid1.Coords, ∀ (r : Fin 3), ∀ a, (k1_off2 i (BitVec.ofNat 32 r.val)) a + S1x7x28x128.size a ≤ S1x30x30x128.size a
  k1_off3_inb : ∀ i : grid1.Coords, ∀ (r : Fin 3), ∀ a, (k1_off3 i (BitVec.ofNat 32 r.val)) a + S1x7x28x128.size a ≤ S1x30x30x128.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x30x30x128.size a ≤ S32x30x30x128.size a
  hwx1_0 : ∀ i : grid1.Coords, EltTy.bits .f32 = 32 ∨ (Rect.block (s := S32x30x30x128) S1x30x30x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1152x128.size a ≤ S1152x128.size a
  hwx1_1 : ∀ i : grid1.Coords, EltTy.bits .f32 = 32 ∨ (Rect.block (s := S1152x128) S1152x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x7x28x128.size a ≤ S32x28x28x128.size a
  hwx1_4 : ∀ i : grid1.Coords, EltTy.bits .f32 = 32 ∨ (Rect.block (s := S32x28x28x128) S1x7x28x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x7x28x128.size a ≤ S32x28x28x128.size a
  hwx1_5 : ∀ i : grid1.Coords, EltTy.bits .f32 = 32 ∨ (Rect.block (s := S32x28x28x128) S1x7x28x128.size (cc1_transform_5 i) (hinb1_5 i)).WholeWords (EltTy.packing .f32)

variable [Facts₀]

def dot_S196x576_S576x128_S196x128_1_0_0_1_n_n : DotDims S196x576 S576x128 S196x128 where
  lhsContracting := [1]
  rhsContracting := [0]
  lhsNonContracting := [0]
  rhsNonContracting := [1]
  lhsBatch := []
  rhsBatch := []
  wf := dot_S196x576_S576x128_S196x128_1_0_0_1_n_n_wf
def dot_S196x64_S64x128_S196x128_1_0_0_1_n_n : DotDims S196x64 S64x128 S196x128 where
  lhsContracting := [1]
  rhsContracting := [0]
  lhsNonContracting := [0]
  rhsNonContracting := [1]
  lhsBatch := []
  rhsBatch := []
  wf := dot_S196x64_S64x128_S196x128_1_0_0_1_n_n_wf
def dot_S196x1152_S1152x128_S196x128_1_0_0_1_n_n : DotDims S196x1152 S1152x128 S196x128 where
  lhsContracting := [1]
  rhsContracting := [0]
  lhsNonContracting := [0]
  rhsNonContracting := [1]
  lhsBatch := []
  rhsBatch := []
  wf := dot_S196x1152_S1152x128_S196x128_1_0_0_1_n_n_wf

abbrev win0_0 : Pipeline.Window sig grid0 :=
  Pipeline.Window.ofSpec (Memref.whole main_v32) S1x116x29x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v33) S576x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v20) S64x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v27) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v28) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v34_0) S1x7x28x128.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v34_1) S1x7x28x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v35) S1x30x30x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v36) S1152x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v17) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v18) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v34_1) S1x7x28x128.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v37) S1x7x28x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== Proof.KernelRun.lean ====
/-
  One grid point of the fused residual block, on any whole staging buffers.

  The point's body gathers the nine stride-two taps of the padded image (read from its four row/column
  parity phases) into the columns of a 784 x 576 patch matrix, multiplies it by the 576 x 256 weight matrix
  whose left half is the 3 x 3 convolution and whose right half is the 1 x 1 projection placed on the centre
  tap's rows, scales and shifts each column, keeps the right half as the shortcut, rectifies the left half
  into the interior of a zeroed 30 x 30 x 128 border buffer, gathers that buffer's nine unit-stride taps into
  a 784 x 1152 patch matrix, multiplies by the second 1152 x 128 weight matrix, scales, shifts, adds the
  shortcut and rectifies. The body's effect on the result's buffer is a list of stored rectangles, each a
  rectangle of the block with the values stored there.
-/
import proofs.«109431_g2000702696857771_pallasbulk_1005_2_alg».proof.Proof.Gen.Kernel.Frame
import proofs.«109431_g2000702696857771_pallasbulk_1005_2_alg».proof.Proof.Gen.Kernel.Skeleton
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body on any whole buffers -/

set_option maxHeartbeats 4000000 in
/-- The rectangles the body stores into the result's buffer, with the fact that from the seven input buffers
    at `x0 … x6`, the result's buffer and the three work buffers at anything, the body runs to a state
    holding the inputs as they were, the work buffers at something, and the result's buffer with exactly
    those rectangles written. -/
noncomputable def kernelRun (c : Dev nD) (i : grid0.Coords) (arg1 : Memref sig .tc .vmem S1x116x29x64 .bf16) (harg1 : arg1.IsWhole) (arg2 : Memref sig .tc .vmem S576x256 .bf16) (harg2 : arg2.IsWhole) (arg3 : Memref sig .tc .vmem S1x256 .f32) (harg3 : arg3.IsWhole) (arg4 : Memref sig .tc .vmem S1x256 .f32) (harg4 : arg4.IsWhole) (arg5 : Memref sig .tc .vmem S1152x128 .bf16) (harg5 : arg5.IsWhole) (arg6 : Memref sig .tc .vmem S1x128 .f32) (harg6 : arg6.IsWhole) (arg7 : Memref sig .tc .vmem S1x128 .f32) (harg7 : arg7.IsWhole) (arg8 : Memref sig .tc .vmem S1x28x28x128 .f32) (harg8 : arg8.IsWhole) (arg9 : Memref sig .tc .vmem S784x576 .bf16) (harg9 : arg9.IsWhole) (arg10 : Memref sig .tc .vmem S30x30x128 .bf16) (harg10 : arg10.IsWhole) (arg11 : Memref sig .tc .vmem S784x1152 .bf16) (harg11 : arg11.IsWhole)
    (x0 : Vec F S1x116x29x64 .bf16) (x1 : Vec F S576x256 .bf16) (x2 : Vec F S1x256 .f32) (x3 : Vec F S1x256 .f32) (x4 : Vec F S1152x128 .bf16) (x5 : Vec F S1x128 .f32) (x6 : Vec F S1x128 .f32) :
    { L7 : List (View.Piece (Elt F) S1x28x28x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ (∃ d, owns (c : Thread nD τ) arg9 fullShare d) ∗ (∃ d, owns (c : Thread nD τ) arg10 fullShare d) ∗ (∃ d, owns (c : Thread nD τ) arg11 fullShare d)) -∗ K ⟨⟩))
          ⊢ wp frame (wpE (defs₀ (F := F)) Variants.none c none) E (cc0__fused_block_kernel i arg1 harg1 arg2 harg2 arg3 harg3 arg4 harg4 arg5 harg5 arg6 harg6 arg7 harg7 arg8 harg8 arg9 harg9 arg10 harg10 arg11 harg11) K } := by
  refine ⟨?_, fun E K => ?run⟩
  case run =>
    simp only [cc0__fused_block_kernel_eq_skeleton]; unfold cc0__fused_block_kernel_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%ds0, %fs0, -, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

end Cert.Kernel.Body

end
-- ==== Proof.KernelFrame.lean ====
/-
  The fused residual block's grid of thirty-two points (one per image) around its host operations.

  At every point each of the seven input windows is found at its block of the array the region was entered
  with; the body leaves the inputs as they were and the result's block at what its stored rectangles read
  back to, and those rectangles tile the block. The three work buffers carry nothing from one point to the
  next. From this the whole program runs to a state in which every array of the pipeline is what the blocks
  written back make it, and the argument arrays are unchanged.
-/
import proofs.«109431_g2000702696857771_pallasbulk_1005_2_alg».proof.Proof.KernelRun

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev 𝒱₀ : Variants := Variants.none

/-! ## The stored rectangles tile the result's block -/

/-- Every index of the result's block lies in one of the rectangles the body stored. -/
theorem cover7 (c : Dev nD) (i : grid0.Coords) (arg1 : Memref sig .tc .vmem S1x116x29x64 .bf16) (harg1 : arg1.IsWhole) (arg2 : Memref sig .tc .vmem S576x256 .bf16) (harg2 : arg2.IsWhole) (arg3 : Memref sig .tc .vmem S1x256 .f32) (harg3 : arg3.IsWhole) (arg4 : Memref sig .tc .vmem S1x256 .f32) (harg4 : arg4.IsWhole) (arg5 : Memref sig .tc .vmem S1152x128 .bf16) (harg5 : arg5.IsWhole) (arg6 : Memref sig .tc .vmem S1x128 .f32) (harg6 : arg6.IsWhole) (arg7 : Memref sig .tc .vmem S1x128 .f32) (harg7 : arg7.IsWhole) (arg8 : Memref sig .tc .vmem S1x28x28x128 .f32) (harg8 : arg8.IsWhole) (arg9 : Memref sig .tc .vmem S784x576 .bf16) (harg9 : arg9.IsWhole) (arg10 : Memref sig .tc .vmem S30x30x128 .bf16) (harg10 : arg10.IsWhole) (arg11 : Memref sig .tc .vmem S784x1152 .bf16) (harg11 : arg11.IsWhole)
    (x0 : Vec F S1x116x29x64 .bf16) (x1 : Vec F S576x256 .bf16) (x2 : Vec F S1x256 .f32) (x3 : Vec F S1x256 .f32) (x4 : Vec F S1152x128 .bf16) (x5 : Vec F S1x128 .f32) (x6 : Vec F S1x128 .f32) (y : S1x28x28x128.Idx) :
    ∃ pc ∈ (kernelRun c i arg1 harg1 arg2 harg2 arg3 harg3 arg4 harg4 arg5 harg5 arg6 harg6 arg7 harg7 arg8 harg8 arg9 harg9 arg10 harg10 arg11 harg11 x0 x1 x2 x3 x4 x5 x6).1, y ∈ pc.1.set :=
  View.cover_of_tiledL (kernelRun c i arg1 harg1 arg2 harg2 arg3 harg3 arg4 harg4 arg5 harg5 arg6 harg6 arg7 harg7 arg8 harg8 arg9 harg9 arg10 harg10 arg11 harg11 x0 x1 x2 x3 x4 x5 x6).1 S1x28x28x128.size (by sl_kernel_rfl) y

/-- The result's staging buffer as a view, for reading the stored rectangles back. -/
abbrev VO7 : View sig .tc .vmem S1x28x28x128 .f32 := (Memref.whole cc0_stg7_0 : Memref sig .tc .vmem S1x28x28x128 .f32).view

/-- What the body leaves in the result's block: its stored rectangles read back. -/
def out7 (c : Dev nD) (i : grid0.Coords) (arg1 : Memref sig .tc .vmem S1x116x29x64 .bf16) (harg1 : arg1.IsWhole) (arg2 : Memref sig .tc .vmem S576x256 .bf16) (harg2 : arg2.IsWhole) (arg3 : Memref sig .tc .vmem S1x256 .f32) (harg3 : arg3.IsWhole) (arg4 : Memref sig .tc .vmem S1x256 .f32) (harg4 : arg4.IsWhole) (arg5 : Memref sig .tc .vmem S1152x128 .bf16) (harg5 : arg5.IsWhole) (arg6 : Memref sig .tc .vmem S1x128 .f32) (harg6 : arg6.IsWhole) (arg7 : Memref sig .tc .vmem S1x128 .f32) (harg7 : arg7.IsWhole) (arg8 : Memref sig .tc .vmem S1x28x28x128 .f32) (harg8 : arg8.IsWhole) (arg9 : Memref sig .tc .vmem S784x576 .bf16) (harg9 : arg9.IsWhole) (arg10 : Memref sig .tc .vmem S30x30x128 .bf16) (harg10 : arg10.IsWhole) (arg11 : Memref sig .tc .vmem S784x1152 .bf16) (harg11 : arg11.IsWhole)
    (x0 : Vec F S1x116x29x64 .bf16) (x1 : Vec F S576x256 .bf16) (x2 : Vec F S1x256 .f32) (x3 : Vec F S1x256 .f32) (x4 : Vec F S1152x128 .bf16) (x5 : Vec F S1x128 .f32) (x6 : Vec F S1x128 .f32) : Vec F S1x28x28x128 .f32 :=
  VO7.read (Elt F) (VO7.writes (Elt F) VO7.junk (kernelRun c i arg1 harg1 arg2 harg2 arg3 harg3 arg4 harg4 arg5 harg5 arg6 harg6 arg7 harg7 arg8 harg8 arg9 harg9 arg10 harg10 arg11 harg11 x0 x1 x2 x3 x4 x5 x6).1)

/-! ## The buffers at a point -/

abbrev ms0 (t : Fin cfg0.N) : Memref sig .tc .vmem S1x116x29x64 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S576x256 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x256 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x256 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1152x128 .bf16 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x128 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x128 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S1x28x28x128 .f32 := win0_7.stage (cfg0.slots t 7)
abbrev hs7 (t : Fin cfg0.N) : (ms7 t).IsWhole := hstage0_7 ((cfg0.slots t 7).cast nbuf0_7)

/-- The three work buffers: the first patch matrix, the bordered activation, the second patch matrix. -/
abbrev scM0 : Memref sig .tc .vmem S784x576 .bf16 := Memref.whole cc0_scratch0
abbrev scM1 : Memref sig .tc .vmem S30x30x128 .bf16 := Memref.whole cc0_scratch1
abbrev scM2 : Memref sig .tc .vmem S784x1152 .bf16 := Memref.whole cc0_scratch2

/-- What is held between points: the three work buffers at some contents and the generator register. -/
theorem PhiA_eq (c : Dev nD) :
    (Pipeline.ΦA spec0 c : sProp 𝕄)
      = iprop(iprop((∃ d, owns (c : Thread nD τ) scM0 fullShare d) ∗ (∃ d, owns (c : Thread nD τ) scM1 fullShare d) ∗ (∃ d, owns (c : Thread nD τ) scM2 fullShare d)) ∗ (∃ r, prngReg c r)) := by
  unfold Pipeline.ΦA; rw [scopedRest0_eq]; simp only [scM0, scM1, scM2, owns_whole]; try rfl

variable (m : (ℓ : Loc nD τ sig) → Buf (Elt F) ℓ) (ρ : Dev nD → PrngReg)

/-- The result's block after the body at point `t`: the read-back at the point's buffers and input blocks. -/
def outAt (c : Dev nD) (t : Fin cfg0.N) : Vec F S1x28x28x128 .f32 :=
  out7 c (grid0.coords t) (ms0 t) (hs0 t) (ms1 t) (hs1 t) (ms2 t) (hs2 t) (ms3 t) (hs3 t) (ms4 t) (hs4 t) (ms5 t) (hs5 t) (ms6 t) (hs6 t) (ms7 t) (hs7 t) scM0 (Memref.isWhole_whole _) scM1 (Memref.isWhole_whole _) scM2 (Memref.isWhole_whole _) (iblk m c 0 t) (iblk m c 1 t) (iblk m c 2 t) (iblk m c 3 t) (iblk m c 4 t) (iblk m c 5 t) (iblk m c 6 t)

/-! ## The proof data -/

/-- The arrays as the region finds them; after the body each input window at its block and the result's at
    `outAt`; between points the work buffers at anything; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outAt m c t
  Φ _ := Pipeline.ΦA spec0 c
  q _ := fullShare
  owed _ := 0

theorem A_eq (c : Dev nD) (w : Fin cfg0.W) : (dats m 0 c).A w = V m c (Pipeline.arrRef spec0 w) := by
  dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = outAt m c t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d

/-! ## The body at a point -/

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d)))

/-- What it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t))

set_option maxHeartbeats 1600000 in
/-- At any point the input buffers hold their blocks, so the body's run applies; the work buffers are handed
    over at some contents and taken back at some contents; the result's buffer ends at the read-back because
    the stored rectangles cover it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6]
  rw [show (dats m 0 c).Φ t.succ = (dats m 0 c).Φ t.castSucc from rfl,
    show (dats m 0 c).owesAt () t.succ = (dats m 0 c).owesAt () t.castSucc from rfl,
    after0, after1, after2, after3, after4, after5, after6, after7]
  rw [show (dats m 0 c).Φ t.castSucc = Pipeline.ΦA spec0 c from rfl, PhiA_eq]
  unfold outAt
  unfold out7; (try dsimp only)
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((kernelRun c (grid0.coords t) _ _ _ _ _ _ _ _ _ _ _ _ _ _ _ _ _ _ _ _ _ _ (iblk m c 0 t) (iblk m c 1 t) (iblk m c 2 t) (iblk m c 3 t) (iblk m c 4 t) (iblk m c 5 t) (iblk m c 6 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [HS0]; · iexact HS0
  isplitl [HS1]; · iexact HS1
  isplitl [HS2]; · iexact HS2
  iintro ⟨H0, H1, H2, H3, H4, H5, H6, ⟨%e7, H7⟩, HS0, HS1, HS2⟩
  isplitl [HS0 HS1 HS2 Hg]
  · isplitl [HS0 HS1 HS2]
    · isplitl [HS0]
      · iexact HS0
      isplitl [HS1]
      · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  unfold owns; iexists _; isplitr
  swap; · iexact H7
  ipureintro; exact View.read_writes_of_cover _ _ _ _ _ (cover7 c _ _ _ _ _ _ _ _ _ _ _ _ _ _ _ _ _ _ _ _ _ _ _ _ _ _ _ _ _ _)

/-- The body obligation at every point. -/
theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- From any memory with zero counters every weakly fair execution of the program terminates, nothing
    faulting, with every array of the pipeline at what its written-back blocks make it and every other
    buffer at what the host operations after the region compute from those. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ 𝒱₀ m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m 𝒱₀) (hA := fun _ _ => rfl) (hΦ := fun _ _ => rfl)

end Cert.Kernel.Body

end
-- ==== Proof.KernelIdealRun.lean ====
/-
  One grid point of the fused residual block, on any whole staging buffers.

  The point's body gathers the nine stride-two taps of the padded image (read from its four row/column
  parity phases) into the columns of a 784 x 576 patch matrix, multiplies it by the 576 x 256 weight matrix
  whose left half is the 3 x 3 convolution and whose right half is the 1 x 1 projection placed on the centre
  tap's rows, scales and shifts each column, keeps the right half as the shortcut, rectifies the left half
  into the interior of a zeroed 30 x 30 x 128 border buffer, gathers that buffer's nine unit-stride taps into
  a 784 x 1152 patch matrix, multiplies by the second 1152 x 128 weight matrix, scales, shifts, adds the
  shortcut and rectifies. The body's effect on the result's buffer is a list of stored rectangles, each a
  rectangle of the block with the values stored there.
-/
import proofs.«109431_g2000702696857771_pallasbulk_1005_2_alg».proof.Proof.Gen.KernelIdeal.Frame
import proofs.«109431_g2000702696857771_pallasbulk_1005_2_alg».proof.Proof.Gen.KernelIdeal.Skeleton
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body on any whole buffers -/

set_option maxHeartbeats 4000000 in
/-- The rectangles the body stores into the result's buffer, with the fact that from the seven input buffers
    at `x0 … x6`, the result's buffer and the three work buffers at anything, the body runs to a state
    holding the inputs as they were, the work buffers at something, and the result's buffer with exactly
    those rectangles written. -/
noncomputable def kernelRun (c : Dev nD) (i : grid0.Coords) (arg1 : Memref sig .tc .vmem S1x116x29x64 .bf16) (harg1 : arg1.IsWhole) (arg2 : Memref sig .tc .vmem S576x256 .bf16) (harg2 : arg2.IsWhole) (arg3 : Memref sig .tc .vmem S1x256 .f32) (harg3 : arg3.IsWhole) (arg4 : Memref sig .tc .vmem S1x256 .f32) (harg4 : arg4.IsWhole) (arg5 : Memref sig .tc .vmem S1152x128 .bf16) (harg5 : arg5.IsWhole) (arg6 : Memref sig .tc .vmem S1x128 .f32) (harg6 : arg6.IsWhole) (arg7 : Memref sig .tc .vmem S1x128 .f32) (harg7 : arg7.IsWhole) (arg8 : Memref sig .tc .vmem S1x28x28x128 .f32) (harg8 : arg8.IsWhole) (arg9 : Memref sig .tc .vmem S784x576 .bf16) (harg9 : arg9.IsWhole) (arg10 : Memref sig .tc .vmem S30x30x128 .bf16) (harg10 : arg10.IsWhole) (arg11 : Memref sig .tc .vmem S784x1152 .bf16) (harg11 : arg11.IsWhole)
    (x0 : Vec F S1x116x29x64 .bf16) (x1 : Vec F S576x256 .bf16) (x2 : Vec F S1x256 .f32) (x3 : Vec F S1x256 .f32) (x4 : Vec F S1152x128 .bf16) (x5 : Vec F S1x128 .f32) (x6 : Vec F S1x128 .f32) :
    { L7 : List (View.Piece (Elt F) S1x28x28x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ (∃ d, owns (c : Thread nD τ) arg9 fullShare d) ∗ (∃ d, owns (c : Thread nD τ) arg10 fullShare d) ∗ (∃ d, owns (c : Thread nD τ) arg11 fullShare d)) -∗ K ⟨⟩))
          ⊢ wp frame (wpE (defs₀ (F := F)) Variants.none c none) E (cc0__fused_block_kernel i arg1 harg1 arg2 harg2 arg3 harg3 arg4 harg4 arg5 harg5 arg6 harg6 arg7 harg7 arg8 harg8 arg9 harg9 arg10 harg10 arg11 harg11) K } := by
  refine ⟨?_, fun E K => ?run⟩
  case run =>
    simp only [cc0__fused_block_kernel_eq_skeleton]; unfold cc0__fused_block_kernel_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%ds0, %fs0, -, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

end Cert.KernelIdeal.Body

end
-- ==== Proof.KernelIdealFrame.lean ====
/-
  The fused residual block's grid of thirty-two points (one per image) around its host operations.

  At every point each of the seven input windows is found at its block of the array the region was entered
  with; the body leaves the inputs as they were and the result's block at what its stored rectangles read
  back to, and those rectangles tile the block. The three work buffers carry nothing from one point to the
  next. From this the whole program runs to a state in which every array of the pipeline is what the blocks
  written back make it, and the argument arrays are unchanged.
-/
import proofs.«109431_g2000702696857771_pallasbulk_1005_2_alg».proof.Proof.KernelIdealRun

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev 𝒱₀ : Variants := Variants.none

/-! ## The stored rectangles tile the result's block -/

/-- Every index of the result's block lies in one of the rectangles the body stored. -/
theorem cover7 (c : Dev nD) (i : grid0.Coords) (arg1 : Memref sig .tc .vmem S1x116x29x64 .bf16) (harg1 : arg1.IsWhole) (arg2 : Memref sig .tc .vmem S576x256 .bf16) (harg2 : arg2.IsWhole) (arg3 : Memref sig .tc .vmem S1x256 .f32) (harg3 : arg3.IsWhole) (arg4 : Memref sig .tc .vmem S1x256 .f32) (harg4 : arg4.IsWhole) (arg5 : Memref sig .tc .vmem S1152x128 .bf16) (harg5 : arg5.IsWhole) (arg6 : Memref sig .tc .vmem S1x128 .f32) (harg6 : arg6.IsWhole) (arg7 : Memref sig .tc .vmem S1x128 .f32) (harg7 : arg7.IsWhole) (arg8 : Memref sig .tc .vmem S1x28x28x128 .f32) (harg8 : arg8.IsWhole) (arg9 : Memref sig .tc .vmem S784x576 .bf16) (harg9 : arg9.IsWhole) (arg10 : Memref sig .tc .vmem S30x30x128 .bf16) (harg10 : arg10.IsWhole) (arg11 : Memref sig .tc .vmem S784x1152 .bf16) (harg11 : arg11.IsWhole)
    (x0 : Vec F S1x116x29x64 .bf16) (x1 : Vec F S576x256 .bf16) (x2 : Vec F S1x256 .f32) (x3 : Vec F S1x256 .f32) (x4 : Vec F S1152x128 .bf16) (x5 : Vec F S1x128 .f32) (x6 : Vec F S1x128 .f32) (y : S1x28x28x128.Idx) :
    ∃ pc ∈ (kernelRun c i arg1 harg1 arg2 harg2 arg3 harg3 arg4 harg4 arg5 harg5 arg6 harg6 arg7 harg7 arg8 harg8 arg9 harg9 arg10 harg10 arg11 harg11 x0 x1 x2 x3 x4 x5 x6).1, y ∈ pc.1.set :=
  View.cover_of_tiledL (kernelRun c i arg1 harg1 arg2 harg2 arg3 harg3 arg4 harg4 arg5 harg5 arg6 harg6 arg7 harg7 arg8 harg8 arg9 harg9 arg10 harg10 arg11 harg11 x0 x1 x2 x3 x4 x5 x6).1 S1x28x28x128.size (by sl_kernel_rfl) y

/-- The result's staging buffer as a view, for reading the stored rectangles back. -/
abbrev VO7 : View sig .tc .vmem S1x28x28x128 .f32 := (Memref.whole cc0_stg7_0 : Memref sig .tc .vmem S1x28x28x128 .f32).view

/-- What the body leaves in the result's block: its stored rectangles read back. -/
def out7 (c : Dev nD) (i : grid0.Coords) (arg1 : Memref sig .tc .vmem S1x116x29x64 .bf16) (harg1 : arg1.IsWhole) (arg2 : Memref sig .tc .vmem S576x256 .bf16) (harg2 : arg2.IsWhole) (arg3 : Memref sig .tc .vmem S1x256 .f32) (harg3 : arg3.IsWhole) (arg4 : Memref sig .tc .vmem S1x256 .f32) (harg4 : arg4.IsWhole) (arg5 : Memref sig .tc .vmem S1152x128 .bf16) (harg5 : arg5.IsWhole) (arg6 : Memref sig .tc .vmem S1x128 .f32) (harg6 : arg6.IsWhole) (arg7 : Memref sig .tc .vmem S1x128 .f32) (harg7 : arg7.IsWhole) (arg8 : Memref sig .tc .vmem S1x28x28x128 .f32) (harg8 : arg8.IsWhole) (arg9 : Memref sig .tc .vmem S784x576 .bf16) (harg9 : arg9.IsWhole) (arg10 : Memref sig .tc .vmem S30x30x128 .bf16) (harg10 : arg10.IsWhole) (arg11 : Memref sig .tc .vmem S784x1152 .bf16) (harg11 : arg11.IsWhole)
    (x0 : Vec F S1x116x29x64 .bf16) (x1 : Vec F S576x256 .bf16) (x2 : Vec F S1x256 .f32) (x3 : Vec F S1x256 .f32) (x4 : Vec F S1152x128 .bf16) (x5 : Vec F S1x128 .f32) (x6 : Vec F S1x128 .f32) : Vec F S1x28x28x128 .f32 :=
  VO7.read (Elt F) (VO7.writes (Elt F) VO7.junk (kernelRun c i arg1 harg1 arg2 harg2 arg3 harg3 arg4 harg4 arg5 harg5 arg6 harg6 arg7 harg7 arg8 harg8 arg9 harg9 arg10 harg10 arg11 harg11 x0 x1 x2 x3 x4 x5 x6).1)

/-! ## The buffers at a point -/

abbrev ms0 (t : Fin cfg0.N) : Memref sig .tc .vmem S1x116x29x64 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S576x256 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x256 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x256 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1152x128 .bf16 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x128 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x128 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S1x28x28x128 .f32 := win0_7.stage (cfg0.slots t 7)
abbrev hs7 (t : Fin cfg0.N) : (ms7 t).IsWhole := hstage0_7 ((cfg0.slots t 7).cast nbuf0_7)

/-- The three work buffers: the first patch matrix, the bordered activation, the second patch matrix. -/
abbrev scM0 : Memref sig .tc .vmem S784x576 .bf16 := Memref.whole cc0_scratch0
abbrev scM1 : Memref sig .tc .vmem S30x30x128 .bf16 := Memref.whole cc0_scratch1
abbrev scM2 : Memref sig .tc .vmem S784x1152 .bf16 := Memref.whole cc0_scratch2

/-- What is held between points: the three work buffers at some contents and the generator register. -/
theorem PhiA_eq (c : Dev nD) :
    (Pipeline.ΦA spec0 c : sProp 𝕄)
      = iprop(iprop((∃ d, owns (c : Thread nD τ) scM0 fullShare d) ∗ (∃ d, owns (c : Thread nD τ) scM1 fullShare d) ∗ (∃ d, owns (c : Thread nD τ) scM2 fullShare d)) ∗ (∃ r, prngReg c r)) := by
  unfold Pipeline.ΦA; rw [scopedRest0_eq]; simp only [scM0, scM1, scM2, owns_whole]; try rfl

variable (m : (ℓ : Loc nD τ sig) → Buf (Elt F) ℓ) (ρ : Dev nD → PrngReg)

/-- The result's block after the body at point `t`: the read-back at the point's buffers and input blocks. -/
def outAt (c : Dev nD) (t : Fin cfg0.N) : Vec F S1x28x28x128 .f32 :=
  out7 c (grid0.coords t) (ms0 t) (hs0 t) (ms1 t) (hs1 t) (ms2 t) (hs2 t) (ms3 t) (hs3 t) (ms4 t) (hs4 t) (ms5 t) (hs5 t) (ms6 t) (hs6 t) (ms7 t) (hs7 t) scM0 (Memref.isWhole_whole _) scM1 (Memref.isWhole_whole _) scM2 (Memref.isWhole_whole _) (iblk m c 0 t) (iblk m c 1 t) (iblk m c 2 t) (iblk m c 3 t) (iblk m c 4 t) (iblk m c 5 t) (iblk m c 6 t)

/-! ## The proof data -/

/-- The arrays as the region finds them; after the body each input window at its block and the result's at
    `outAt`; between points the work buffers at anything; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outAt m c t
  Φ _ := Pipeline.ΦA spec0 c
  q _ := fullShare
  owed _ := 0

theorem A_eq (c : Dev nD) (w : Fin cfg0.W) : (dats m 0 c).A w = V m c (Pipeline.arrRef spec0 w) := by
  dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = outAt m c t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d

/-! ## The body at a point -/

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d)))

/-- What it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t))

set_option maxHeartbeats 1600000 in
/-- At any point the input buffers hold their blocks, so the body's run applies; the work buffers are handed
    over at some contents and taken back at some contents; the result's buffer ends at the read-back because
    the stored rectangles cover it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6]
  rw [show (dats m 0 c).Φ t.succ = (dats m 0 c).Φ t.castSucc from rfl,
    show (dats m 0 c).owesAt () t.succ = (dats m 0 c).owesAt () t.castSucc from rfl,
    after0, after1, after2, after3, after4, after5, after6, after7]
  rw [show (dats m 0 c).Φ t.castSucc = Pipeline.ΦA spec0 c from rfl, PhiA_eq]
  unfold outAt
  unfold out7; (try dsimp only)
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((kernelRun c (grid0.coords t) _ _ _ _ _ _ _ _ _ _ _ _ _ _ _ _ _ _ _ _ _ _ (iblk m c 0 t) (iblk m c 1 t) (iblk m c 2 t) (iblk m c 3 t) (iblk m c 4 t) (iblk m c 5 t) (iblk m c 6 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [HS0]; · iexact HS0
  isplitl [HS1]; · iexact HS1
  isplitl [HS2]; · iexact HS2
  iintro ⟨H0, H1, H2, H3, H4, H5, H6, ⟨%e7, H7⟩, HS0, HS1, HS2⟩
  isplitl [HS0 HS1 HS2 Hg]
  · isplitl [HS0 HS1 HS2]
    · isplitl [HS0]
      · iexact HS0
      isplitl [HS1]
      · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  unfold owns; iexists _; isplitr
  swap; · iexact H7
  ipureintro; exact View.read_writes_of_cover _ _ _ _ _ (cover7 c _ _ _ _ _ _ _ _ _ _ _ _ _ _ _ _ _ _ _ _ _ _ _ _ _ _ _ _ _ _)

/-- The body obligation at every point. -/
theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- From any memory with zero counters every weakly fair execution of the program terminates, nothing
    faulting, with every array of the pipeline at what its written-back blocks make it and every other
    buffer at what the host operations after the region compute from those. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ 𝒱₀ m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m 𝒱₀) (hA := fun _ _ => rfl) (hΦ := fun _ _ => rfl)

end Cert.KernelIdeal.Body

end
-- ==== Proof.Spec.lean ====
/-
  The residual block of one image, as functions of natural-number coordinates on the extended reals.

  An image enters as its four row/column parity phases stacked along the rows: entry (a, b, ci) of the stack
  `X` is the zero-padded image at row 2 (a mod 29) + (row parity of a / 29), column 2 b + (column parity), so
  that tap (kh, kw) of a stride-two 3 x 3 window at output position (oh, ow) is the stack's entry
  (tapRow + oh, tapCol + ow) for one row offset and one column offset per tap. Output positions are numbered
  r = 28 oh + ow, weight rows k = 64 tap + ci (first convolution) and k = 128 tap + c (second).
-/
import Idealize.ShloMosaic.PureOps.Ideal
import Idealize.ShloMosaic.Lib.ValueIdx

noncomputable section

namespace Cert.Spec

open Idealize.ShloMosaic Idealize.ShloMosaic.ValueIdx

/-! ## Arrays read at natural-number coordinates (zero outside their extents) -/

/-- A rank-2 array at natural-number coordinates. -/
def at2 {n0 n1 : Nat} (x : (⟨2, ![n0, n1]⟩ : Shape).Idx → EReal) (a b : ℕ) : EReal :=
  if h : a < n0 ∧ b < n1 then x (ix2 ⟨a, h.1⟩ ⟨b, h.2⟩) else 0

/-- A rank-3 array at natural-number coordinates. -/
def at3 {n0 n1 n2 : Nat} (x : (⟨3, ![n0, n1, n2]⟩ : Shape).Idx → EReal) (a b c : ℕ) : EReal :=
  if h : a < n0 ∧ b < n1 ∧ c < n2 then x (ix3 ⟨a, h.1⟩ ⟨b, h.2.1⟩ ⟨c, h.2.2⟩) else 0

/-- A rank-4 array at natural-number coordinates. -/
def at4 {n0 n1 n2 n3 : Nat} (x : (⟨4, ![n0, n1, n2, n3]⟩ : Shape).Idx → EReal) (a b c d : ℕ) : EReal :=
  if h : a < n0 ∧ b < n1 ∧ c < n2 ∧ d < n3 then x (ix4 ⟨a, h.1⟩ ⟨b, h.2.1⟩ ⟨c, h.2.2.1⟩ ⟨d, h.2.2.2⟩) else 0

theorem at2_ix {n0 n1 : Nat} (x : (⟨2, ![n0, n1]⟩ : Shape).Idx → EReal) (a : Fin n0) (b : Fin n1) :
    at2 x a.val b.val = x (ix2 a b) := by
  unfold at2; rw [dif_pos ⟨a.isLt, b.isLt⟩]

theorem at3_ix {n0 n1 n2 : Nat} (x : (⟨3, ![n0, n1, n2]⟩ : Shape).Idx → EReal) (a : Fin n0) (b : Fin n1) (c : Fin n2) :
    at3 x a.val b.val c.val = x (ix3 a b c) := by
  unfold at3; rw [dif_pos ⟨a.isLt, b.isLt, c.isLt⟩]

theorem at4_ix {n0 n1 n2 n3 : Nat} (x : (⟨4, ![n0, n1, n2, n3]⟩ : Shape).Idx → EReal)
    (a : Fin n0) (b : Fin n1) (c : Fin n2) (d : Fin n3) :
    at4 x a.val b.val c.val d.val = x (ix4 a b c d) := by
  unfold at4; rw [dif_pos ⟨a.isLt, b.isLt, c.isLt, d.isLt⟩]

/-! ## The taps -/

/-- Row offset of tap `t = 3 kh + kw` in the phase stack: 29 (2 (kh mod 2) + kw mod 2) + kh / 2. -/
def tapRow (t : ℕ) : ℕ := 29 * (2 * ((t / 3) % 2) + (t % 3) % 2) + (t / 3) / 2

/-- Column offset of tap `t = 3 kh + kw` in the phase stack: kw / 2. -/
def tapCol (t : ℕ) : ℕ := (t % 3) / 2

/-! ## The block of one image

`X a b ci` is the image's phase stack (116 x 29 x 64); `W1 k co` the first convolution's 576 x 128 weights,
`WD ci co` the projection's 64 x 128, `W2 k co` the second convolution's 1152 x 128; `S1 B1 SD BD S2 B2` the folded
scales and shifts per channel. -/

section Block

variable (X : ℕ → ℕ → ℕ → EReal) (W1 : ℕ → ℕ → EReal) (S1 B1 : ℕ → EReal) (WD : ℕ → ℕ → EReal) (SD BD : ℕ → EReal)
  (W2 : ℕ → ℕ → EReal) (S2 B2 : ℕ → EReal)

/-- Entry (r, k) of the first patch matrix: tap k / 64, input channel k mod 64, at output position r. -/
def patch1 (r k : ℕ) : EReal := X (tapRow (k / 64) + r / 28) (tapCol (k / 64) + r % 28) (k % 64)

/-- The first convolution, scaled and shifted, before the rectifier. -/
def pre1 (r co : ℕ) : EReal := (∑ k : Fin 576, patch1 X r k.val * W1 k.val co) * S1 co + B1 co

/-- The main branch after the first rectifier. -/
def mainAct (r co : ℕ) : EReal := max (pre1 X W1 S1 B1 r co) 0

/-- The shortcut: the 1 x 1 stride-two projection (the centre tap's window), scaled and shifted. -/
def shortcut (r co : ℕ) : EReal := (∑ ci : Fin 64, X (87 + r / 28) (r % 28) ci.val * WD ci.val co) * SD co + BD co

/-- The main branch with a border of zeros: a 30 x 30 x 128 array, its interior the 28 x 28 activation. -/
def bordered (i j c : ℕ) : EReal :=
  if 1 ≤ i ∧ i ≤ 28 ∧ 1 ≤ j ∧ j ≤ 28 then mainAct X W1 S1 B1 (28 * (i - 1) + (j - 1)) c else 0

/-- The second stage over ANY bordered 30 x 30 x 128 input `P` and residual `R`: entry (r, k) of the second
    patch matrix is tap k / 128 = 3 kh + kw, channel k mod 128, of the window of `P` at output position r; the
    product with the weights is scaled, shifted, added to the residual and rectified. -/
def out2 (P : ℕ → ℕ → ℕ → EReal) (R : ℕ → ℕ → EReal) (r co : ℕ) : EReal :=
  max ((∑ k : Fin 1152, P ((k.val / 128) / 3 + r / 28) ((k.val / 128) % 3 + r % 28) (k.val % 128) * W2 k.val co) * S2 co + B2 co
    + R r co) 0

/-- The block's output at position r, channel co. -/
def out (r co : ℕ) : EReal :=
  out2 W2 S2 B2 (bordered X W1 S1 B1) (shortcut X WD SD BD) r co

end Block

end Cert.Spec

end
-- ==== Proof.SpecRead.lean ====
/-
  Reading arrays and windows at natural-number coordinates.

  An array of a literal shape at an index is the array at that index's coordinates; a unit-stride window of an
  array, read at a local index, is the array at offset plus local coordinate on every axis.
-/
import proofs.«109431_g2000702696857771_pallasbulk_1005_2_alg».proof.Proof.Spec
import Idealize.ShloMosaic.Lib.Pipeline.Value
import Idealize.ShloMosaic.Lib.Pipeline.FrameBody
import Idealize.ShloMosaic.Lib.ValueIdx

noncomputable section

namespace Cert.Spec

open Idealize.ShloMosaic Idealize.ShloMosaic.ValueIdx

theorem at2_eq {n0 n1 : Nat} (x : (⟨2, ![n0, n1]⟩ : Shape).Idx → EReal) (j : (⟨2, ![n0, n1]⟩ : Shape).Idx) :
    x j = at2 x (j 0).val (j 1).val :=
  (congrArg x (eq_ix2 j)).trans (at2_ix x (j 0) (j 1)).symm

theorem at3_eq {n0 n1 n2 : Nat} (x : (⟨3, ![n0, n1, n2]⟩ : Shape).Idx → EReal) (j : (⟨3, ![n0, n1, n2]⟩ : Shape).Idx) :
    x j = at3 x (j 0).val (j 1).val (j 2).val :=
  (congrArg x (eq_ix3 j)).trans (at3_ix x (j 0) (j 1) (j 2)).symm

theorem at4_eq {n0 n1 n2 n3 : Nat} (x : (⟨4, ![n0, n1, n2, n3]⟩ : Shape).Idx → EReal)
    (j : (⟨4, ![n0, n1, n2, n3]⟩ : Shape).Idx) :
    x j = at4 x (j 0).val (j 1).val (j 2).val (j 3).val :=
  (congrArg x (eq_ix4 j)).trans (at4_ix x (j 0) (j 1) (j 2) (j 3)).symm

/-- Two arrays of one shape are equal when they agree at all natural-number coordinates within the extents. -/
theorem ext4 {n0 n1 n2 n3 : Nat} (x y : (⟨4, ![n0, n1, n2, n3]⟩ : Shape).Idx → EReal)
    (h : ∀ a b c d, a < n0 → b < n1 → c < n2 → d < n3 → at4 x a b c d = at4 y a b c d) : x = y := by
  funext j
  rw [at4_eq x j, at4_eq y j]
  exact h _ _ _ _ (j 0).isLt (j 1).isLt (j 2).isLt (j 3).isLt

theorem at2_of_lt {n0 n1 : Nat} (x : (⟨2, ![n0, n1]⟩ : Shape).Idx → EReal) {a b : ℕ} (ha : a < n0) (hb : b < n1) :
    at2 x a b = x (ix2 ⟨a, ha⟩ ⟨b, hb⟩) := at2_ix x ⟨a, ha⟩ ⟨b, hb⟩

theorem at3_of_lt {n0 n1 n2 : Nat} (x : (⟨3, ![n0, n1, n2]⟩ : Shape).Idx → EReal) {a b c : ℕ}
    (ha : a < n0) (hb : b < n1) (hc : c < n2) : at3 x a b c = x (ix3 ⟨a, ha⟩ ⟨b, hb⟩ ⟨c, hc⟩) :=
  at3_ix x ⟨a, ha⟩ ⟨b, hb⟩ ⟨c, hc⟩

theorem at4_of_lt {n0 n1 n2 n3 : Nat} (x : (⟨4, ![n0, n1, n2, n3]⟩ : Shape).Idx → EReal) {a b c d : ℕ}
    (ha : a < n0) (hb : b < n1) (hc : c < n2) (hd : d < n3) :
    at4 x a b c d = x (ix4 ⟨a, ha⟩ ⟨b, hb⟩ ⟨c, hc⟩ ⟨d, hd⟩) := at4_ix x ⟨a, ha⟩ ⟨b, hb⟩ ⟨c, hc⟩ ⟨d, hd⟩

end Cert.Spec

end
-- ==== Proof.LibPlainDot.lean ====
/-
  A plain matrix product read at an index, on the extended reals.

  For the dimension numbers `<[1], [0], [0], [1]>` with no batch axis (`DotDims.plain M K N`, or any record equal to
  it: an `M×K` left operand, a `K×N` right operand, the left's second axis contracted with the right's first) the
  entry `(a, b)` of the product is `∑ k, l[a,k] · r[k,b]`. Two operations compute it at the exact instance: a
  `tpu.matmul` into a zero accumulator and the host's `dot_general`. Both are stated here as equalities of whole
  arrays with one function, `rowsByCols l r`, so that a product computed block of rows by block of rows and the same
  product computed at once are compared through one name.
-/
import Idealize.ShloMosaic.Lib.ValueIdx
import Idealize.ShloMosaic.PureOps.Ideal.Laws

noncomputable section

namespace Cert.Lib.PlainDot

open Idealize.ShloMosaic Idealize.ShloMosaic.ValueIdx

/-- The product of an `M×K` array by a `K×N` array, index by index: entry `(a, b)` is `∑ k, l[a,k] · r[k,b]`. -/
def rowsByCols {M K N : ℕ} (l : (⟨2, ![M, K]⟩ : Shape).Idx → EReal) (r : (⟨2, ![K, N]⟩ : Shape).Idx → EReal) :
    (⟨2, ![M, N]⟩ : Shape).Idx → EReal :=
  fun j => ∑ k : Fin K, l (ix2 (j 0) k) * r (ix2 k (j 1))

theorem rowsByCols_apply {M K N : ℕ} (l : (⟨2, ![M, K]⟩ : Shape).Idx → EReal) (r : (⟨2, ![K, N]⟩ : Shape).Idx → EReal)
    (j : (⟨2, ![M, N]⟩ : Shape).Idx) : rowsByCols l r j = ∑ k : Fin K, l (ix2 (j 0) k) * r (ix2 k (j 1)) := rfl

/-- The left operand's index at result index `j` and contraction position `q`: row `j 0` … -/
theorem lhsIdx_row {M K N : ℕ} (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl
/-- … and column the contraction position's one coordinate. -/
theorem lhsIdx_col {M K N : ℕ} (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q
/-- The right operand's index: row the contraction position's one coordinate … -/
theorem rhsIdx_row {M K N : ℕ} (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q
/-- … and column `j 1`. -/
theorem rhsIdx_col {M K N : ℕ} (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the record's one-axis contraction shape, with the operands read at the record's operand indices, is
    the sum over `k < K` of `l[a,k] · r[k,b]`: the contraction index is its one coordinate, the left index at `(j, k)`
    is `(j 0, k)` and the right index is `(k, j 1)`. -/
theorem contr_sum {M K N : ℕ} (d : DotDims ⟨2, ![M, K]⟩ ⟨2, ![K, N]⟩ ⟨2, ![M, N]⟩) (hd : d = DotDims.plain M K N)
    (l : (⟨2, ![M, K]⟩ : Shape).Idx → EReal) (r : (⟨2, ![K, N]⟩ : Shape).Idx → EReal) (j : (⟨2, ![M, N]⟩ : Shape).Idx) :
    ∑ q : d.contr.Idx, l (d.lhsIdx j q) * r (d.rhsIdx j q) = rowsByCols l r j := by
  subst hd
  unfold rowsByCols
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhsIdx_row j _
      | ⟨1, _⟩ => exact (lhsIdx_col j _).trans hk)
  have er : (DotDims.plain M K N).rhsIdx j ((contrEquiv1 (DotDims.plain M K N) K rfl rfl).symm k) = ix2 k (j 1) :=
    funext fun a => Fin.ext (by
      match a with
      | ⟨0, _⟩ => exact (rhsIdx_row j _).trans hk
      | ⟨1, _⟩ => exact rhsIdx_col j _)
  exact congrArg₂ (· * ·) (congrArg l el) (congrArg r er)

/-- A `tpu.matmul` with plain dimension numbers into the zero accumulator is the product, whatever the operands'
    float formats and the precision attribute. -/
theorem matmul_zero_eq {M K N : ℕ} {φ₁ φ₂ : FTy} (d : DotDims ⟨2, ![M, K]⟩ ⟨2, ![K, N]⟩ ⟨2, ![M, N]⟩)
    (hd : d = DotDims.plain M K N) (prec : Option ContractPrecision)
    (l : FVec Ideal ⟨2, ![M, K]⟩ φ₁) (r : FVec Ideal ⟨2, ![K, N]⟩ φ₂) :
    FloatOps.matmul d prec l r (constant (F := Ideal) ⟨2, ![M, N]⟩ .f32 0x00000000#32) = rowsByCols l r :=
  funext fun j => (Ideal.matmul_constant_zero_apply d prec l r j).trans (contr_sum d hd l r j)

/-- The host's `dot_general` with plain dimension numbers is the product, whatever the precision and the schedule. -/
theorem dotGeneral_eq {M K N : ℕ} {φ₁ φ₂ : FTy} (d : DotDims ⟨2, ![M, K]⟩ ⟨2, ![K, N]⟩ ⟨2, ![M, N]⟩)
    (hd : d = DotDims.plain M K N) (prec : Option ContractPrecision) (sched : HostSchedule)
    (l : FVec Ideal ⟨2, ![M, K]⟩ φ₁) (r : FVec Ideal ⟨2, ![K, N]⟩ φ₂) :
    FloatOps.dotGeneral d prec sched l r = rowsByCols l r :=
  funext fun j => (Ideal.dotGeneral_apply d prec sched l r j).trans (contr_sum d hd l r j)

/-- Two products agree at two indices when their operands agree along the row and the column read there: if
    `l'[j' 0, k] = l[j 0, k]` and `r'[k, j' 1] = r[k, j 1]` for every `k`, then `(l' · r')[j'] = (l · r)[j]`. In
    particular rows of a product are the product of the rows: with `l'` a block of rows of `l` and `r' = r`, the
    block's product at `(p, b)` is the whole product at `(o + p, b)`. -/
theorem rowsByCols_congr {M M' K N N' : ℕ} (l : (⟨2, ![M, K]⟩ : Shape).Idx → EReal) (r : (⟨2, ![K, N]⟩ : Shape).Idx → EReal)
    (l' : (⟨2, ![M', K]⟩ : Shape).Idx → EReal) (r' : (⟨2, ![K, N']⟩ : Shape).Idx → EReal)
    (j' : (⟨2, ![M', N']⟩ : Shape).Idx) (j : (⟨2, ![M, N]⟩ : Shape).Idx)
    (hl : ∀ k : Fin K, l' (ix2 (j' 0) k) = l (ix2 (j 0) k)) (hr : ∀ k : Fin K, r' (ix2 k (j' 1)) = r (ix2 k (j 1))) :
    rowsByCols l' r' j' = rowsByCols l r j := by
  unfold rowsByCols
  exact Finset.sum_congr rfl fun k _ => by rw [hl k, hr k]

end Cert.Lib.PlainDot

end
-- ==== Proof.KernelIdealValue.lean ====
/-
  What one grid point of the fused block computes, entry by entry, on the extended reals.

  The first patch matrix holds at (r, 64 t + ci) the phase stack's entry (tapRow t + r / 28, tapCol t + r mod 28, ci);
  the bordered buffer holds the rectified left half of the first product inside a frame of zeros; the second
  patch matrix holds at (r, 128 t + c) the bordered buffer's entry (t / 3 + r / 28, t mod 3 + r mod 28, c).
-/
import proofs.«109431_g2000702696857771_pallasbulk_1005_2_alg».proof.Proof.KernelIdealRun
import proofs.«109431_g2000702696857771_pallasbulk_1005_2_alg».proof.Proof.SpecRead
import proofs.«109431_g2000702696857771_pallasbulk_1005_2_alg».proof.Proof.LibPlainDot
import Idealize.ShloMosaic.Lib.Pipeline.Value
import Idealize.ShloMosaic.Lib.Pipeline.FrameBody
import Idealize.ShloMosaic.Lib.ValueIdx
import Idealize.ShloMosaic.Lib.ValueLayout
import Idealize.ShloMosaic.PureOps.Ideal.Laws

set_option maxRecDepth 16384

noncomputable section

namespace Cert.KernelIdeal.BodyValue

open Cert.KernelIdeal Cert.KernelIdeal.Gen Cert.KernelIdeal.Body Cert.Spec
open Idealize.ShloMosaic Idealize.ShloMosaic.TcCoe Idealize.ShloMosaic.ValueIdx Idealize.ShloMosaic.Tactic

/-! ## Windows of the phase stack, flattened -/

/-- A 1 x 28 x 28 x 64 window flattened to 784 x 64: row r is window position (r / 28, r mod 28). -/
theorem flat64_apply (v : Vec Ideal S1x28x28x64 .bf16) (r : Fin 784) (ci : Fin 64) :
    shapeCast S784x64 (shapeCast S28x28x64 v shapeCasts_S1x28x28x64_S28x28x64) shapeCasts_S28x28x64_S784x64 (ix2 r ci)
      = at4 v 0 (r.val / 28) (r.val % 28) ci.val := by
  have h1 : r.val / 28 < 28 := by have := r.isLt; omega
  have h2 : r.val % 28 < 28 := Nat.mod_lt _ (by norm_num)
  rw [at4_of_lt v (by norm_num : 0 < 1) h1 h2 ci.isLt]
  refine (shapeCast_apply _ _ (ix2 r ci) (ix3 ⟨r.val / 28, h1⟩ ⟨r.val % 28, h2⟩ ci) ?_).trans ?_
  · rw [Shape.rowMajor_val_three, Shape.rowMajor_val_two]
    show ((r.val / 28) * 28 + r.val % 28) * 64 + ci.val = r.val * 64 + ci.val
    rw [Nat.div_add_mod' r.val 28]
  refine (shapeCast_apply _ _ _ (ix4 ⟨0, by norm_num⟩ ⟨r.val / 28, h1⟩ ⟨r.val % 28, h2⟩ ci) ?_).trans rfl
  rw [Shape.rowMajor_val_four, Shape.rowMajor_val_three]
  show ((0 * 28 + r.val / 28) * 28 + r.val % 28) * 64 + ci.val = (r.val / 28 * 28 + r.val % 28) * 64 + ci.val
  rw [Nat.zero_mul, Nat.zero_add]

/-- A unit-stride 1 x 28 x 28 x 64 window of the phase stack at rows R.., columns C.., read through a whole buffer. -/
theorem readWin (arg1 : Memref sig .tc .vmem S1x116x29x64 .bf16) (harg1 : arg1.IsWhole) (x0 : Vec Ideal S1x116x29x64 .bf16)
    (R C : ℕ) (inb : ∀ a, (![0, R, C, 0] : Fin 4 → ℕ) a + S1x28x28x64.size a ≤ S1x116x29x64.size a)
    (p q ci : ℕ) (hp : p < 28) (hq : q < 28) (hci : ci < 64) :
    at4 (View.readAt (Elt Ideal) arg1.view (Rect.unit (s := S1x116x29x64) ![0, R, C, 0] S1x28x28x64.size inb).toLoadRect (harg1.unread x0) : S1x28x28x64.Idx → EReal) 0 p q ci
      = at4 x0 0 (R + p) (C + q) ci := by
  have hR : R + p < 116 := by
    have := inb 1
    have e : (![0, R, C, 0] : Fin 4 → ℕ) 1 + S1x28x28x64.size 1 = R + 28 := rfl
    have e' : S1x116x29x64.size 1 = 116 := rfl
    rw [e, e'] at this; omega
  have hC : C + q < 29 := by
    have := inb 2
    have e : (![0, R, C, 0] : Fin 4 → ℕ) 2 + S1x28x28x64.size 2 = C + 28 := rfl
    have e' : S1x116x29x64.size 2 = 29 := rfl
    rw [e, e'] at this; omega
  rw [View.readAt_eq_ld, harg1.read_unread]
  rw [at4_of_lt _ (by norm_num : 0 < 1) hp hq hci, at4_of_lt x0 (by norm_num : 0 < 1) hR hC hci]
  show x0 ((Rect.unit (s := S1x116x29x64) ![0, R, C, 0] S1x28x28x64.size inb).emb (ix4 ⟨0, by norm_num⟩ ⟨p, hp⟩ ⟨q, hq⟩ ⟨ci, hci⟩)) = _
  refine congrArg x0 (funext fun a => Fin.ext ?_)
  rw [Rect.emb_apply]
  match a with
  | ⟨0, _⟩ => rfl
  | ⟨1, _⟩ => show R + 1 * p = R + p; rw [Nat.one_mul]
  | ⟨2, _⟩ => show C + 1 * q = C + q; rw [Nat.one_mul]
  | ⟨3, _⟩ => show 0 + 1 * ci = ci; rw [Nat.one_mul, Nat.zero_add]

/-! ## The first patch matrix -/

/-- Slab t of the first patch matrix (columns 64 t .. 64 t + 63, a flattened window of the phase stack at
    rows tapRow t .., columns tapCol t ..) is those columns of `patch1`. -/
theorem slab1 (arg1 : Memref sig .tc .vmem S1x116x29x64 .bf16) (harg1 : arg1.IsWhole) (x0 : Vec Ideal S1x116x29x64 .bf16)
    (t R C : ℕ) (hR : tapRow t = R) (hC : tapCol t = C)
    (inbW : ∀ a, (![0, R, C, 0] : Fin 4 → ℕ) a + S1x28x28x64.size a ≤ S1x116x29x64.size a)
    (inbS : ∀ a, (![0, 64 * t] : Fin 2 → ℕ) a + S784x64.size a ≤ S784x576.size a)
    (x : S784x64.Idx) :
    shapeCast S784x64 (shapeCast S784x64 (shapeCast S28x28x64
        (View.readAt (Elt Ideal) arg1.view (Rect.unit (s := S1x116x29x64) ![0, R, C, 0] S1x28x28x64.size inbW).toLoadRect (harg1.unread x0))
        shapeCasts_S1x28x28x64_S28x28x64) shapeCasts_S28x28x64_S784x64) shapeCasts_S784x64_S784x64 x
      = patch1 (fun p q ci => at4 x0 0 p q ci)
          (((Rect.unit (s := S784x576) ![0, 64 * t] S784x64.size inbS).emb x) 0).val
          (((Rect.unit (s := S784x576) ![0, 64 * t] S784x64.size inbS).emb x) 1).val := by
  rw [shapeCast_self]
  obtain ⟨r, ci, rfl⟩ : ∃ (r : Fin 784) (ci : Fin 64), x = ix2 r ci := ⟨x 0, x 1, eq_ix2 x⟩
  have h1 : r.val / 28 < 28 := by have := r.isLt; omega
  have h2 : r.val % 28 < 28 := Nat.mod_lt _ (by norm_num)
  rw [flat64_apply, readWin arg1 harg1 x0 R C inbW _ _ _ h1 h2 ci.isLt]
  have e0 : (((Rect.unit (s := S784x576) ![0, 64 * t] S784x64.size inbS).emb (ix2 r ci)) 0).val = r.val := by
    rw [Rect.emb_apply]; show 0 + 1 * r.val = r.val; rw [Nat.one_mul, Nat.zero_add]
  have e1 : (((Rect.unit (s := S784x576) ![0, 64 * t] S784x64.size inbS).emb (ix2 r ci)) 1).val = 64 * t + ci.val := by
    rw [Rect.emb_apply]; show 64 * t + 1 * ci.val = 64 * t + ci.val; rw [Nat.one_mul]
  rw [e0, e1]
  unfold patch1
  have hk : (64 * t + ci.val) / 64 = t := by have := ci.isLt; omega
  have hm : (64 * t + ci.val) % 64 = ci.val := by have := ci.isLt; omega
  rw [hk, hm, hR, hC]

/-- The loaded first patch matrix is `patch1` of the phase stack. -/
theorem v54_apply (c : Dev nD) (arg1 : Memref sig .tc .vmem S1x116x29x64 .bf16) (harg1 : arg1.IsWhole)
    (arg9 : Memref sig .tc .vmem S784x576 .bf16) (x0 : Vec Ideal S1x116x29x64 .bf16) (r : Fin 784) (k : Fin 576) :
    kernelRun.sl.v54 (F := Ideal) c arg1 harg1 arg9 x0 (ix2 r k) = patch1 (fun p q ci => at4 x0 0 p q ci) r.val k.val := by
  unfold kernelRun.sl.v54
  rw [View.readCov_eq_canon']
  have hidx : (Rect.unit (s := S784x576) ![0, 0] S784x576.size inb_S784x576_S784x576_0_0).toLoadRect.idx (ix2 r k) = ix2 r k := by
    funext a; apply Fin.ext
    match a with
    | ⟨0, _⟩ => show 0 + 1 * r.val = r.val; rw [Nat.one_mul, Nat.zero_add]
    | ⟨1, _⟩ => show 0 + 1 * k.val = k.val; rw [Nat.one_mul, Nat.zero_add]
  show View.canon (kernelRun.sl.HS0_9 c arg1 harg1 x0)
    ((Rect.unit (s := S784x576) ![0, 0] S784x576.size inb_S784x576_S784x576_0_0).toLoadRect.idx (ix2 r k)) = _
  rw [hidx]
  refine (View.canon_apply_of_pieces
    (fun j : S784x576.Idx => patch1 (fun p q ci => at4 x0 0 p q ci) (j 0).val (j 1).val) _ ?_ (ix2 r k) ?_).trans rfl
  · intro p hp x
    unfold kernelRun.sl.HS0_9 at hp
    simp only [List.mem_cons, List.mem_nil_iff, or_false] at hp
    rcases hp with rfl | rfl | rfl | rfl | rfl | rfl | rfl | rfl | rfl
    · exact slab1 arg1 harg1 x0 8 1 1 rfl rfl inb_S1x116x29x64_S1x28x28x64_0_1_1_0 inb_S784x576_S784x64_0_512 x
    · exact slab1 arg1 harg1 x0 7 30 0 rfl rfl inb_S1x116x29x64_S1x28x28x64_0_30_0_0 inb_S784x576_S784x64_0_448 x
    · exact slab1 arg1 harg1 x0 6 1 0 rfl rfl inb_S1x116x29x64_S1x28x28x64_0_1_0_0 inb_S784x576_S784x64_0_384 x
    · exact slab1 arg1 harg1 x0 5 58 1 rfl rfl inb_S1x116x29x64_S1x28x28x64_0_58_1_0 inb_S784x576_S784x64_0_320 x
    · exact slab1 arg1 harg1 x0 4 87 0 rfl rfl inb_S1x116x29x64_S1x28x28x64_0_87_0_0 inb_S784x576_S784x64_0_256 x
    · exact slab1 arg1 harg1 x0 3 58 0 rfl rfl inb_S1x116x29x64_S1x28x28x64_0_58_0_0 inb_S784x576_S784x64_0_192 x
    · exact slab1 arg1 harg1 x0 2 0 1 rfl rfl inb_S1x116x29x64_S1x28x28x64_0_0_1_0 inb_S784x576_S784x64_0_128 x
    · exact slab1 arg1 harg1 x0 1 29 0 rfl rfl inb_S1x116x29x64_S1x28x28x64_0_29_0_0 inb_S784x576_S784x64_0_64 x
    · exact slab1 arg1 harg1 x0 0 0 0 rfl rfl inb_S1x116x29x64_S1x28x28x64_0_0_0_0 inb_S784x576_S784x64_0_0 x
  · exact View.cover_of_tiledL (kernelRun.sl.HS0_9 (F := Ideal) c arg1 harg1 x0) S784x64.size (by sl_kernel_rfl) (ix2 r k)

/-! ## The first product, scaled and shifted -/

/-- The fused first product at (r, n): the row of the patch matrix against column n of the weights, times the
    column's scale, plus its shift. -/
theorem pay14_apply (v54 : Vec Ideal S784x576 .bf16) (v55 : Vec Ideal S576x256 .bf16) (v58 v62 : Vec Ideal S1x256 .f32)
    (r : Fin 784) (n : Fin 256) :
    k0_pay14 v54 v55 v58 v62 (ix2 r n)
      = (∑ k : Fin 576, v54 (ix2 r k) * v55 (ix2 k n)) * v58 (ix2 0 n) + v62 (ix2 0 n) := by
  unfold k0_pay14
  simp only [shapeCast_self]
  rw [addf_apply, mulf_apply]
  rw [show (matmul dot_S784x576_S576x256_S784x256_1_0_0_1_n_n none v54 v55 (constant S784x256 .f32 0x00000000#32)
        : FVec Ideal S784x256 .f32) = Cert.Lib.PlainDot.rowsByCols v54 v55
      from Cert.Lib.PlainDot.matmul_zero_eq dot_S784x576_S576x256_S784x256_1_0_0_1_n_n rfl none v54 v55]
  rw [Cert.Lib.PlainDot.rowsByCols_apply]
  have hb : ∀ (x : Vec Ideal S1x256 .f32), broadcastTo S784x256 x broadcasts_S1x256_S784x256 (ix2 r n) = x (ix2 0 n) := fun x =>
    broadcastTo_apply x broadcasts_S1x256_S784x256 (ix2 r n) (ix2 0 n) (fun a => by
      match a with
      | ⟨0, _⟩ => rfl
      | ⟨1, _⟩ => rfl)
  rw [hb, hb]

/-! ## The two halves of the first product -/

theorem zero_f32 : (Scalar.ofBits (F := Ideal) .f32 0x00000000#32 : EReal) = 0 := by
  simp [Scalar.ofBits, Ideal.ofBits, Ideal.ieee]

theorem zero_bf16 : (Scalar.ofBits (F := Ideal) .bf16 0x0000#16 : EReal) = 0 := by
  simp [Scalar.ofBits, Ideal.ofBits, Ideal.ieee]

/-- The left half, rectified, laid out as 28 x 28 x 128: position (p, q) is row 28 p + q. -/
theorem pay17_apply (v54 : Vec Ideal S784x576 .bf16) (v55 : Vec Ideal S576x256 .bf16) (v58 v62 : Vec Ideal S1x256 .f32)
    (p q : Fin 28) (c : Fin 128) (hr : 28 * p.val + q.val < 784) (hc : c.val < 256) :
    k0_pay17 v54 v55 v58 v62 (ix3 p q c) = max (k0_pay14 v54 v55 v58 v62 (ix2 ⟨28 * p.val + q.val, hr⟩ ⟨c.val, hc⟩)) 0 := by
  unfold k0_pay17
  simp only [shapeCast_self]
  refine (shapeCast_apply _ _ (ix3 p q c) (ix2 ⟨28 * p.val + q.val, hr⟩ c) ?_).trans ?_
  · rw [Shape.rowMajor_val_two, Shape.rowMajor_val_three]
    show (28 * p.val + q.val) * 128 + c.val = (p.val * 28 + q.val) * 128 + c.val
    rw [Nat.mul_comm 28 p.val]
  show max (extractStridedSlice S784x128 ![0, 0] (k0_pay14 v54 v55 v58 v62) slices_S784x256_o0_0_S784x128 (ix2 ⟨28 * p.val + q.val, hr⟩ c))
      (Scalar.ofBits (F := Ideal) .f32 0x00000000#32) = _
  rw [zero_f32, extractStridedSlice_apply ![0, 0] (k0_pay14 v54 v55 v58 v62) slices_S784x256_o0_0_S784x128
    (ix2 ⟨28 * p.val + q.val, hr⟩ c) (ix2 ⟨28 * p.val + q.val, hr⟩ ⟨c.val, hc⟩) (fun a => by
      match a with
      | ⟨0, _⟩ => show 28 * p.val + q.val = 0 + (28 * p.val + q.val); rw [Nat.zero_add]
      | ⟨1, _⟩ => show c.val = 0 + c.val; rw [Nat.zero_add])]

/-- The right half: column 128 + co of the first product. -/
theorem pay15_apply (v54 : Vec Ideal S784x576 .bf16) (v55 : Vec Ideal S576x256 .bf16) (v58 v62 : Vec Ideal S1x256 .f32)
    (r : Fin 784) (co : Fin 128) (hc : 128 + co.val < 256) :
    k0_pay15 v54 v55 v58 v62 (ix2 r co) = k0_pay14 v54 v55 v58 v62 (ix2 r ⟨128 + co.val, hc⟩) := by
  unfold k0_pay15
  exact extractStridedSlice_apply ![0, 128] (k0_pay14 v54 v55 v58 v62) slices_S784x256_o0_128_S784x128
    (ix2 r co) (ix2 r ⟨128 + co.val, hc⟩) (fun a => by
      match a with
      | ⟨0, _⟩ => show r.val = 0 + r.val; rw [Nat.zero_add]
      | ⟨1, _⟩ => rfl)

end Cert.KernelIdeal.BodyValue

end
-- ==== Proof.KernelIdealValue2.lean ====
/-
  One grid point of the fused block, continued: the bordered buffer, the second patch matrix, the result.
-/
import proofs.«109431_g2000702696857771_pallasbulk_1005_2_alg».proof.Proof.KernelIdealValue

set_option maxRecDepth 16384

noncomputable section

namespace Cert.KernelIdeal.BodyValue

open Cert.KernelIdeal Cert.KernelIdeal.Gen Cert.KernelIdeal.Body Cert.Spec
open Idealize.ShloMosaic Idealize.ShloMosaic.TcCoe Idealize.ShloMosaic.ValueIdx Idealize.ShloMosaic.Tactic

/-! ## Whole buffers read whole -/

/-- A whole rank-2 buffer read through its whole rectangle is its contents. -/
theorem readWhole2 {n0 n1 : Nat} {e : EltTy} (arg : Memref sig .tc .vmem ⟨2, ![n0, n1]⟩ e) (harg : arg.IsWhole)
    (x : (⟨2, ![n0, n1]⟩ : Shape).Idx → Elt Ideal e)
    (inb : ∀ a, (![0, 0] : Fin 2 → ℕ) a + (⟨2, ![n0, n1]⟩ : Shape).size a ≤ (⟨2, ![n0, n1]⟩ : Shape).size a) :
    View.readAt (Elt Ideal) arg.view (Rect.unit (s := ⟨2, ![n0, n1]⟩) ![0, 0] (⟨2, ![n0, n1]⟩ : Shape).size inb).toLoadRect (harg.unread x) = x := by
  rw [View.readAt_eq_ld, harg.read_unread]
  exact View.ld_unit_zero (funext fun a => by match a with | ⟨0, _⟩ => rfl | ⟨1, _⟩ => rfl) inb x

/-! ## The first product is the specification's -/

/-- The first product at (r, n), over the phase stack `x0`, the fused weights `x1`, scales `x2`, shifts `x3`. -/
theorem pre_apply (c : Dev nD) (arg1 : Memref sig .tc .vmem S1x116x29x64 .bf16) (harg1 : arg1.IsWhole) (arg2 : Memref sig .tc .vmem S576x256 .bf16) (harg2 : arg2.IsWhole) (arg3 : Memref sig .tc .vmem S1x256 .f32) (harg3 : arg3.IsWhole) (arg4 : Memref sig .tc .vmem S1x256 .f32) (harg4 : arg4.IsWhole) (arg9 : Memref sig .tc .vmem S784x576 .bf16) (x0 : Vec Ideal S1x116x29x64 .bf16) (x1 : Vec Ideal S576x256 .bf16) (x2 x3 : Vec Ideal S1x256 .f32) (r : Fin 784) (n : Fin 256) :
    k0_pay14 (kernelRun.sl.v54 (F := Ideal) c arg1 harg1 arg9 x0) (View.readAt (Elt Ideal) arg2.view (Rect.unit (s := S576x256) ![0, 0] S576x256.size inb_S576x256_S576x256_0_0).toLoadRect (harg2.unread x1)) (View.readAt (Elt Ideal) arg3.view (Rect.unit (s := S1x256) ![0, 0] S1x256.size inb_S1x256_S1x256_0_0).toLoadRect (harg3.unread x2)) (View.readAt (Elt Ideal) arg4.view (Rect.unit (s := S1x256) ![0, 0] S1x256.size inb_S1x256_S1x256_0_0).toLoadRect (harg4.unread x3)) (ix2 r n)
      = pre1 (fun p q ci => at4 x0 0 p q ci) (at2 x1) (at2 x2 0) (at2 x3 0) r.val n.val := by
  rw [readWhole2 arg2 harg2 x1, readWhole2 arg3 harg3 x2, readWhole2 arg4 harg4 x3, pay14_apply]
  unfold pre1
  rw [at2_of_lt x2 (by norm_num : 0 < 1) n.isLt, at2_of_lt x3 (by norm_num : 0 < 1) n.isLt]
  refine congrArg₂ (· + ·) (congrArg₂ (· * ·) (Finset.sum_congr rfl fun k _ => ?_) rfl) rfl
  rw [v54_apply, at2_of_lt x1 k.isLt n.isLt]

/-! ## The bordered buffer -/

theorem pay16_apply (y : S30x30x128.Idx) : k0_pay16 (F := Ideal) y = 0 := by
  unfold k0_pay16
  simp only [shapeCast_self]
  exact zero_bf16

/-- The rows read back before the blend hold the zeros just stored. -/
theorem old_zero (c : Dev nD) (arg10 : Memref sig .tc .vmem S30x30x128 .bf16) (x : S28x30x128.Idx) :
    kernelRun.sl.old (F := Ideal) c arg10 x = 0 := by
  unfold kernelRun.sl.old kernelRun.sl.HS1_1
  rw [View.readCov_eq_canon']
  show View.canon [(⟨Rect.unit (s := S30x30x128) ![0, 0, 0] S30x30x128.size inb_S30x30x128_S30x30x128_0_0_0, k0_pay16 (F := Ideal)⟩ : View.Piece (Elt Ideal) S30x30x128 .bf16)] _ = 0
  rw [View.canon_cons_unit_zero (funext fun a => by match a with | ⟨0, _⟩ => rfl | ⟨1, _⟩ => rfl | ⟨2, _⟩ => rfl)]
  exact pay16_apply _

/-- The rectified first product at a position of the 28 x 28 x 128 layout. -/
theorem main_apply (c : Dev nD) (arg1 : Memref sig .tc .vmem S1x116x29x64 .bf16) (harg1 : arg1.IsWhole) (arg2 : Memref sig .tc .vmem S576x256 .bf16) (harg2 : arg2.IsWhole) (arg3 : Memref sig .tc .vmem S1x256 .f32) (harg3 : arg3.IsWhole) (arg4 : Memref sig .tc .vmem S1x256 .f32) (harg4 : arg4.IsWhole) (arg9 : Memref sig .tc .vmem S784x576 .bf16) (x0 : Vec Ideal S1x116x29x64 .bf16) (x1 : Vec Ideal S576x256 .bf16) (x2 x3 : Vec Ideal S1x256 .f32)
    (idx : S28x28x128.Idx) (a b ch : ℕ) (h0 : (idx 0).val = a) (h1 : (idx 1).val = b) (h2 : (idx 2).val = ch) :
    k0_pay17 (kernelRun.sl.v54 (F := Ideal) c arg1 harg1 arg9 x0) (View.readAt (Elt Ideal) arg2.view (Rect.unit (s := S576x256) ![0, 0] S576x256.size inb_S576x256_S576x256_0_0).toLoadRect (harg2.unread x1)) (View.readAt (Elt Ideal) arg3.view (Rect.unit (s := S1x256) ![0, 0] S1x256.size inb_S1x256_S1x256_0_0).toLoadRect (harg3.unread x2)) (View.readAt (Elt Ideal) arg4.view (Rect.unit (s := S1x256) ![0, 0] S1x256.size inb_S1x256_S1x256_0_0).toLoadRect (harg4.unread x3)) idx
      = mainAct (fun p q ci => at4 x0 0 p q ci) (at2 x1) (at2 x2 0) (at2 x3 0) (28 * a + b) ch := by
  obtain ⟨p, q, c', rfl⟩ : ∃ (p q : Fin 28) (c' : Fin 128), idx = ix3 p q c' := ⟨idx 0, idx 1, idx 2, eq_ix3 idx⟩
  have hr : 28 * p.val + q.val < 784 := by have := p.isLt; have := q.isLt; omega
  have hc : c'.val < 256 := by have := c'.isLt; omega
  rw [pay17_apply _ _ _ _ p q c' hr hc, pre_apply c arg1 harg1 arg2 harg2 arg3 harg3 arg4 harg4 arg9 x0 x1 x2 x3 ⟨28 * p.val + q.val, hr⟩ ⟨c'.val, hc⟩]
  unfold mainAct
  have e0 : p.val = a := h0
  have e1 : q.val = b := h1
  have e2 : c'.val = ch := h2
  show max (pre1 (fun p q ci => at4 x0 0 p q ci) (at2 x1) (at2 x2 0) (at2 x3 0) (28 * p.val + q.val) c'.val) 0 = _
  rw [e0, e1, e2]

/-- Off rows 1..28 a store into those rows leaves the earlier contents. -/
theorem canon_rows_miss (W : S28x30x128.Idx → Elt Ideal .bf16) (L : List (View.Piece (Elt Ideal) S30x30x128 .bf16))
    (i j : Fin 30) (ch : Fin 128) (hi : ¬ (1 ≤ i.val ∧ i.val ≤ 28)) :
    View.canon ((⟨Rect.unit (s := S30x30x128) ![1, 0, 0] S28x30x128.size inb_S30x30x128_S28x30x128_1_0_0, W⟩ : View.Piece (Elt Ideal) S30x30x128 .bf16) :: L) (ix3 i j ch)
      = View.canon L (ix3 i j ch) := by
  refine View.canon_cons_of_not_mem (⟨Rect.unit (s := S30x30x128) ![1, 0, 0] S28x30x128.size inb_S30x30x128_S28x30x128_1_0_0, W⟩ : View.Piece (Elt Ideal) S30x30x128 .bf16) L ?_
  show ix3 i j ch ∉ (Rect.unit (s := S30x30x128) ![1, 0, 0] S28x30x128.size inb_S30x30x128_S28x30x128_1_0_0).set
  rw [Rect.mem_set_unit]
  intro h
  have h0 := h ⟨0, by norm_num⟩
  have h0' : 1 ≤ i.val ∧ i.val < 1 + 28 := h0
  exact hi ⟨h0'.1, by omega⟩

/-- The bordered buffer after its two stores is the specification's: the rectified first product inside, zeros on
    the border. -/
theorem yp_apply (c : Dev nD) (arg1 : Memref sig .tc .vmem S1x116x29x64 .bf16) (harg1 : arg1.IsWhole) (arg2 : Memref sig .tc .vmem S576x256 .bf16) (harg2 : arg2.IsWhole) (arg3 : Memref sig .tc .vmem S1x256 .f32) (harg3 : arg3.IsWhole) (arg4 : Memref sig .tc .vmem S1x256 .f32) (harg4 : arg4.IsWhole) (arg9 : Memref sig .tc .vmem S784x576 .bf16) (arg10 : Memref sig .tc .vmem S30x30x128 .bf16) (x0 : Vec Ideal S1x116x29x64 .bf16) (x1 : Vec Ideal S576x256 .bf16) (x2 x3 : Vec Ideal S1x256 .f32) (i j : Fin 30) (ch : Fin 128) :
    View.canon (kernelRun.sl.HS1_2 (F := Ideal) c arg1 harg1 arg2 harg2 arg3 harg3 arg4 harg4 arg9 arg10 x0 x1 x2 x3) (ix3 i j ch)
      = bordered (fun p q ci => at4 x0 0 p q ci) (at2 x1) (at2 x2 0) (at2 x3 0) i.val j.val ch.val := by
  unfold kernelRun.sl.HS1_2
  by_cases hi : 1 ≤ i.val ∧ i.val ≤ 28
  · have hi' : i.val - 1 < 28 := by omega
    have hy : ix3 i j ch = (Rect.unit (s := S30x30x128) ![1, 0, 0] S28x30x128.size inb_S30x30x128_S28x30x128_1_0_0).emb (ix3 ⟨i.val - 1, hi'⟩ j ch) := by
      funext a; apply Fin.ext
      rw [Rect.emb_apply]
      match a with
      | ⟨0, _⟩ => show i.val = 1 + 1 * (i.val - 1); omega
      | ⟨1, _⟩ => show j.val = 0 + 1 * j.val; omega
      | ⟨2, _⟩ => show ch.val = 0 + 1 * ch.val; omega
    rw [hy, View.canon_cons_emb]
    dsimp only
    unfold updateSlice
    by_cases hj : 1 ≤ j.val ∧ j.val ≤ 28
    · split
      · rename_i hin
        rw [main_apply c arg1 harg1 arg2 harg2 arg3 harg3 arg4 harg4 arg9 x0 x1 x2 x3 _ (i.val - 1) (j.val - 1) ch.val rfl rfl rfl]
        unfold bordered
        rw [if_pos ⟨hi.1, hi.2, hj.1, hj.2⟩]
      · rename_i hin
        exact absurd (fun a => by
          match a with
          | ⟨0, _⟩ => exact ⟨Nat.zero_le _, by show i.val - 1 < 0 + 28; omega⟩
          | ⟨1, _⟩ => exact ⟨by show 1 ≤ j.val; exact hj.1, by show j.val < 1 + 28; omega⟩
          | ⟨2, _⟩ => exact ⟨Nat.zero_le _, by show ch.val < 0 + 128; have := ch.isLt; omega⟩) hin
    · split
      · rename_i hin
        have := hin ⟨1, by norm_num⟩
        have h1 : 1 ≤ j.val ∧ j.val < 1 + 28 := this
        exact absurd ⟨h1.1, by omega⟩ hj
      · rw [old_zero]
        unfold bordered
        rw [if_neg (fun h => hj ⟨h.2.2.1, h.2.2.2⟩)]
  · rw [canon_rows_miss _ _ i j ch hi]
    unfold kernelRun.sl.HS1_1
    rw [View.canon_cons_unit_zero (funext fun a => by match a with | ⟨0, _⟩ => rfl | ⟨1, _⟩ => rfl | ⟨2, _⟩ => rfl), pay16_apply]
    unfold bordered
    rw [if_neg (fun h => hi ⟨h.1, h.2.1⟩)]

/-! ## The second patch matrix -/

/-- A 28 x 28 x 128 window of the bordered buffer at rows kh.., columns kw... -/
theorem win2 (c : Dev nD) (arg1 : Memref sig .tc .vmem S1x116x29x64 .bf16) (harg1 : arg1.IsWhole) (arg2 : Memref sig .tc .vmem S576x256 .bf16) (harg2 : arg2.IsWhole) (arg3 : Memref sig .tc .vmem S1x256 .f32) (harg3 : arg3.IsWhole) (arg4 : Memref sig .tc .vmem S1x256 .f32) (harg4 : arg4.IsWhole) (arg9 : Memref sig .tc .vmem S784x576 .bf16) (arg10 : Memref sig .tc .vmem S30x30x128 .bf16) (x0 : Vec Ideal S1x116x29x64 .bf16) (x1 : Vec Ideal S576x256 .bf16) (x2 x3 : Vec Ideal S1x256 .f32) (kh kw : ℕ)
    (inb : ∀ a, (![kh, kw, 0] : Fin 3 → ℕ) a + S28x28x128.size a ≤ S30x30x128.size a) (p q : Fin 28) (ch : Fin 128) :
    arg10.view.readCov (kernelRun.sl.HS1_2 (F := Ideal) c arg1 harg1 arg2 harg2 arg3 harg3 arg4 harg4 arg9 arg10 x0 x1 x2 x3) (Rect.unit (s := S30x30x128) ![kh, kw, 0] S28x28x128.size inb).toLoadRect (ix3 p q ch)
      = bordered (fun p q ci => at4 x0 0 p q ci) (at2 x1) (at2 x2 0) (at2 x3 0) (kh + p.val) (kw + q.val) ch.val := by
  have hkh : kh + p.val < 30 := by
    have := inb 0
    have e : (![kh, kw, 0] : Fin 3 → ℕ) 0 + S28x28x128.size 0 = kh + 28 := rfl
    have e' : S30x30x128.size 0 = 30 := rfl
    rw [e, e'] at this; have := p.isLt; omega
  have hkw : kw + q.val < 30 := by
    have := inb 1
    have e : (![kh, kw, 0] : Fin 3 → ℕ) 1 + S28x28x128.size 1 = kw + 28 := rfl
    have e' : S30x30x128.size 1 = 30 := rfl
    rw [e, e'] at this; have := q.isLt; omega
  rw [View.readCov_eq_canon']
  have hidx : (Rect.unit (s := S30x30x128) ![kh, kw, 0] S28x28x128.size inb).toLoadRect.idx (ix3 p q ch)
      = ix3 ⟨kh + p.val, hkh⟩ ⟨kw + q.val, hkw⟩ ch := by
    funext a; apply Fin.ext
    match a with
    | ⟨0, _⟩ => show kh + 1 * p.val = kh + p.val; rw [Nat.one_mul]
    | ⟨1, _⟩ => show kw + 1 * q.val = kw + q.val; rw [Nat.one_mul]
    | ⟨2, _⟩ => show 0 + 1 * ch.val = ch.val; rw [Nat.one_mul, Nat.zero_add]
  show View.canon (kernelRun.sl.HS1_2 (F := Ideal) c arg1 harg1 arg2 harg2 arg3 harg3 arg4 harg4 arg9 arg10 x0 x1 x2 x3) ((Rect.unit (s := S30x30x128) ![kh, kw, 0] S28x28x128.size inb).toLoadRect.idx (ix3 p q ch)) = _
  rw [hidx, yp_apply]

/-- A 28 x 28 x 128 array flattened to 784 x 128: row r is position (r / 28, r mod 28). -/
theorem flat128_apply (v : Vec Ideal S28x28x128 .bf16) (r : Fin 784) (ch : Fin 128) (h1 : r.val / 28 < 28) (h2 : r.val % 28 < 28) :
    shapeCast S784x128 v shapeCasts_S28x28x128_S784x128 (ix2 r ch) = v (ix3 ⟨r.val / 28, h1⟩ ⟨r.val % 28, h2⟩ ch) := by
  refine shapeCast_apply _ _ (ix2 r ch) (ix3 ⟨r.val / 28, h1⟩ ⟨r.val % 28, h2⟩ ch) ?_
  rw [Shape.rowMajor_val_three, Shape.rowMajor_val_two]
  show ((r.val / 28) * 28 + r.val % 28) * 128 + ch.val = r.val * 128 + ch.val
  rw [Nat.div_add_mod' r.val 28]

/-- Slab t = 3 kh + kw of the second patch matrix (columns 128 t .. 128 t + 127, the flattened window of the
    bordered buffer at rows kh.., columns kw..) is those columns of the specification's second patch matrix. -/
theorem slab2 (c : Dev nD) (arg1 : Memref sig .tc .vmem S1x116x29x64 .bf16) (harg1 : arg1.IsWhole) (arg2 : Memref sig .tc .vmem S576x256 .bf16) (harg2 : arg2.IsWhole) (arg3 : Memref sig .tc .vmem S1x256 .f32) (harg3 : arg3.IsWhole) (arg4 : Memref sig .tc .vmem S1x256 .f32) (harg4 : arg4.IsWhole) (arg9 : Memref sig .tc .vmem S784x576 .bf16) (arg10 : Memref sig .tc .vmem S30x30x128 .bf16) (x0 : Vec Ideal S1x116x29x64 .bf16) (x1 : Vec Ideal S576x256 .bf16) (x2 x3 : Vec Ideal S1x256 .f32) (t kh kw : ℕ) (hkh : t / 3 = kh) (hkw : t % 3 = kw)
    (inbW : ∀ a, (![kh, kw, 0] : Fin 3 → ℕ) a + S28x28x128.size a ≤ S30x30x128.size a)
    (inbS : ∀ a, (![0, 128 * t] : Fin 2 → ℕ) a + S784x128.size a ≤ S784x1152.size a)
    (x : S784x128.Idx) :
    shapeCast S784x128 (shapeCast S784x128
        (arg10.view.readCov (kernelRun.sl.HS1_2 (F := Ideal) c arg1 harg1 arg2 harg2 arg3 harg3 arg4 harg4 arg9 arg10 x0 x1 x2 x3) (Rect.unit (s := S30x30x128) ![kh, kw, 0] S28x28x128.size inbW).toLoadRect)
        shapeCasts_S28x28x128_S784x128) shapeCasts_S784x128_S784x128 x
      = (fun j : S784x1152.Idx => bordered (fun p q ci => at4 x0 0 p q ci) (at2 x1) (at2 x2 0) (at2 x3 0) (((j 1).val / 128) / 3 + (j 0).val / 28) (((j 1).val / 128) % 3 + (j 0).val % 28) ((j 1).val % 128)) ((Rect.unit (s := S784x1152) ![0, 128 * t] S784x128.size inbS).emb x) := by
  rw [shapeCast_self]
  obtain ⟨r, ch, rfl⟩ : ∃ (r : Fin 784) (ch : Fin 128), x = ix2 r ch := ⟨x 0, x 1, eq_ix2 x⟩
  have h1 : r.val / 28 < 28 := by have := r.isLt; omega
  have h2 : r.val % 28 < 28 := Nat.mod_lt _ (by norm_num)
  rw [flat128_apply _ r ch h1 h2, win2 c arg1 harg1 arg2 harg2 arg3 harg3 arg4 harg4 arg9 arg10 x0 x1 x2 x3 kh kw inbW ⟨r.val / 28, h1⟩ ⟨r.val % 28, h2⟩ ch]
  have e0 : (((Rect.unit (s := S784x1152) ![0, 128 * t] S784x128.size inbS).emb (ix2 r ch)) 0).val = r.val := by
    rw [Rect.emb_apply]; show 0 + 1 * r.val = r.val; rw [Nat.one_mul, Nat.zero_add]
  have e1 : (((Rect.unit (s := S784x1152) ![0, 128 * t] S784x128.size inbS).emb (ix2 r ch)) 1).val = 128 * t + ch.val := by
    rw [Rect.emb_apply]; show 128 * t + 1 * ch.val = 128 * t + ch.val; rw [Nat.one_mul]
  show _ = bordered (fun p q ci => at4 x0 0 p q ci) (at2 x1) (at2 x2 0) (at2 x3 0)
    (((((Rect.unit (s := S784x1152) ![0, 128 * t] S784x128.size inbS).emb (ix2 r ch)) 1).val / 128) / 3 + (((Rect.unit (s := S784x1152) ![0, 128 * t] S784x128.size inbS).emb (ix2 r ch)) 0).val / 28)
    (((((Rect.unit (s := S784x1152) ![0, 128 * t] S784x128.size inbS).emb (ix2 r ch)) 1).val / 128) % 3 + (((Rect.unit (s := S784x1152) ![0, 128 * t] S784x128.size inbS).emb (ix2 r ch)) 0).val % 28)
    ((((Rect.unit (s := S784x1152) ![0, 128 * t] S784x128.size inbS).emb (ix2 r ch)) 1).val % 128)
  rw [e0, e1]
  have hk : (128 * t + ch.val) / 128 = t := by have := ch.isLt; omega
  have hm : (128 * t + ch.val) % 128 = ch.val := by have := ch.isLt; omega
  rw [hk, hm, hkh, hkw]

/-- The loaded second patch matrix is the specification's, over the bordered buffer. -/
theorem v124_apply (c : Dev nD) (arg1 : Memref sig .tc .vmem S1x116x29x64 .bf16) (harg1 : arg1.IsWhole) (arg2 : Memref sig .tc .vmem S576x256 .bf16) (harg2 : arg2.IsWhole) (arg3 : Memref sig .tc .vmem S1x256 .f32) (harg3 : arg3.IsWhole) (arg4 : Memref sig .tc .vmem S1x256 .f32) (harg4 : arg4.IsWhole) (arg9 : Memref sig .tc .vmem S784x576 .bf16) (arg10 : Memref sig .tc .vmem S30x30x128 .bf16) (arg11 : Memref sig .tc .vmem S784x1152 .bf16) (x0 : Vec Ideal S1x116x29x64 .bf16) (x1 : Vec Ideal S576x256 .bf16) (x2 x3 : Vec Ideal S1x256 .f32) (r : Fin 784) (k : Fin 1152) :
    kernelRun.sl.v124 (F := Ideal) c arg1 harg1 arg2 harg2 arg3 harg3 arg4 harg4 arg9 arg10 arg11 x0 x1 x2 x3 (ix2 r k)
      = bordered (fun p q ci => at4 x0 0 p q ci) (at2 x1) (at2 x2 0) (at2 x3 0) ((k.val / 128) / 3 + r.val / 28) ((k.val / 128) % 3 + r.val % 28) (k.val % 128) := by
  unfold kernelRun.sl.v124
  rw [View.readCov_eq_canon']
  have hidx : (Rect.unit (s := S784x1152) ![0, 0] ![784, 1152] inb_S784x1152_S784x1152_0_0).toLoadRect.idx (ix2 r k) = ix2 r k := by
    funext a; apply Fin.ext
    match a with
    | ⟨0, _⟩ => show 0 + 1 * r.val = r.val; rw [Nat.one_mul, Nat.zero_add]
    | ⟨1, _⟩ => show 0 + 1 * k.val = k.val; rw [Nat.one_mul, Nat.zero_add]
  show View.canon (kernelRun.sl.HS2_9 (F := Ideal) c arg1 harg1 arg2 harg2 arg3 harg3 arg4 harg4 arg9 arg10 x0 x1 x2 x3)
    ((Rect.unit (s := S784x1152) ![0, 0] ![784, 1152] inb_S784x1152_S784x1152_0_0).toLoadRect.idx (ix2 r k)) = _
  rw [hidx]
  refine (View.canon_apply_of_pieces (fun j : S784x1152.Idx => bordered (fun p q ci => at4 x0 0 p q ci) (at2 x1) (at2 x2 0) (at2 x3 0) (((j 1).val / 128) / 3 + (j 0).val / 28) (((j 1).val / 128) % 3 + (j 0).val % 28) ((j 1).val % 128)) _ ?_ (ix2 r k) ?_).trans rfl
  · intro p hp x
    unfold kernelRun.sl.HS2_9 at hp
    simp only [List.mem_cons, List.mem_nil_iff, or_false] at hp
    rcases hp with rfl | rfl | rfl | rfl | rfl | rfl | rfl | rfl | rfl
    · exact slab2 c arg1 harg1 arg2 harg2 arg3 harg3 arg4 harg4 arg9 arg10 x0 x1 x2 x3 8 2 2 rfl rfl inb_S30x30x128_S28x28x128_2_2_0 inb_S784x1152_S784x128_0_1024 x
    · exact slab2 c arg1 harg1 arg2 harg2 arg3 harg3 arg4 harg4 arg9 arg10 x0 x1 x2 x3 7 2 1 rfl rfl inb_S30x30x128_S28x28x128_2_1_0 inb_S784x1152_S784x128_0_896 x
    · exact slab2 c arg1 harg1 arg2 harg2 arg3 harg3 arg4 harg4 arg9 arg10 x0 x1 x2 x3 6 2 0 rfl rfl inb_S30x30x128_S28x28x128_2_0_0 inb_S784x1152_S784x128_0_768 x
    · exact slab2 c arg1 harg1 arg2 harg2 arg3 harg3 arg4 harg4 arg9 arg10 x0 x1 x2 x3 5 1 2 rfl rfl inb_S30x30x128_S28x28x128_1_2_0 inb_S784x1152_S784x128_0_640 x
    · exact slab2 c arg1 harg1 arg2 harg2 arg3 harg3 arg4 harg4 arg9 arg10 x0 x1 x2 x3 4 1 1 rfl rfl inb_S30x30x128_S28x28x128_1_1_0 inb_S784x1152_S784x128_0_512 x
    · exact slab2 c arg1 harg1 arg2 harg2 arg3 harg3 arg4 harg4 arg9 arg10 x0 x1 x2 x3 3 1 0 rfl rfl inb_S30x30x128_S28x28x128_1_0_0 inb_S784x1152_S784x128_0_384 x
    · exact slab2 c arg1 harg1 arg2 harg2 arg3 harg3 arg4 harg4 arg9 arg10 x0 x1 x2 x3 2 0 2 rfl rfl inb_S30x30x128_S28x28x128_0_2_0 inb_S784x1152_S784x128_0_256 x
    · exact slab2 c arg1 harg1 arg2 harg2 arg3 harg3 arg4 harg4 arg9 arg10 x0 x1 x2 x3 1 0 1 rfl rfl inb_S30x30x128_S28x28x128_0_1_0 inb_S784x1152_S784x128_0_128 x
    · exact slab2 c arg1 harg1 arg2 harg2 arg3 harg3 arg4 harg4 arg9 arg10 x0 x1 x2 x3 0 0 0 rfl rfl inb_S30x30x128_S28x28x128_0_0_0 inb_S784x1152_S784x128_0_0 x
  · exact View.cover_of_tiledL (kernelRun.sl.HS2_9 (F := Ideal) c arg1 harg1 arg2 harg2 arg3 harg3 arg4 harg4 arg9 arg10 x0 x1 x2 x3) S784x128.size (by sl_kernel_rfl) (ix2 r k)

end Cert.KernelIdeal.BodyValue

end
-- ==== Proof.KernelIdealValue3.lean ====
/-
  One grid point of the fused block: the result's block, entry by entry.

  At position r = 28 oh + ow and channel co the block holds the specification's second stage over the bordered
  rectified first product, with the right half of the first product as the residual.
-/
import proofs.«109431_g2000702696857771_pallasbulk_1005_2_alg».proof.Proof.KernelIdealValue2
import proofs.«109431_g2000702696857771_pallasbulk_1005_2_alg».proof.Proof.KernelIdealFrame

set_option maxRecDepth 16384

noncomputable section

namespace Cert.KernelIdeal.BodyValue

open Cert.KernelIdeal Cert.KernelIdeal.Gen Cert.KernelIdeal.Body Cert.Spec
open Idealize.ShloMosaic Idealize.ShloMosaic.TcCoe Idealize.ShloMosaic.ValueIdx Idealize.ShloMosaic.Tactic

/-- The second product, scaled, shifted, added to the residual and rectified, laid out as 1 x 28 x 28 x 128. -/
theorem pay3_apply (v66 : FVec Ideal S784x128 .f32) (v124 : Vec Ideal S784x1152 .bf16) (v125 : Vec Ideal S1152x128 .bf16)
    (v128 v132 : Vec Ideal S1x128 .f32) (oh ow : Fin 28) (co : Fin 128) (hr : 28 * oh.val + ow.val < 784) :
    k0_pay3 v66 v124 v125 v128 v132 (ix4 0 oh ow co)
      = max ((∑ k : Fin 1152, v124 (ix2 ⟨28 * oh.val + ow.val, hr⟩ k) * v125 (ix2 k co)) * v128 (ix2 0 co) + v132 (ix2 0 co)
          + v66 (ix2 ⟨28 * oh.val + ow.val, hr⟩ co)) 0 := by
  unfold k0_pay3
  simp only [shapeCast_self]
  refine (shapeCast_apply _ _ (ix4 0 oh ow co) (ix3 oh ow co) ?_).trans ?_
  · rw [Shape.rowMajor_val_three, Shape.rowMajor_val_four]
    show (oh.val * 28 + ow.val) * 128 + co.val = ((0 * 28 + oh.val) * 28 + ow.val) * 128 + co.val
    rw [Nat.zero_mul, Nat.zero_add]
  refine (shapeCast_apply _ _ (ix3 oh ow co) (ix2 ⟨28 * oh.val + ow.val, hr⟩ co) ?_).trans ?_
  · rw [Shape.rowMajor_val_two, Shape.rowMajor_val_three]
    show (28 * oh.val + ow.val) * 128 + co.val = (oh.val * 28 + ow.val) * 128 + co.val
    rw [Nat.mul_comm 28 oh.val]
  rw [maximumf_apply, addf_apply, addf_apply, mulf_apply, broadcast_apply, zero_f32]
  rw [show (matmul dot_S784x1152_S1152x128_S784x128_1_0_0_1_n_n none v124 v125 (constant S784x128 .f32 0x00000000#32)
        : FVec Ideal S784x128 .f32) = Cert.Lib.PlainDot.rowsByCols v124 v125
      from Cert.Lib.PlainDot.matmul_zero_eq dot_S784x1152_S1152x128_S784x128_1_0_0_1_n_n rfl none v124 v125]
  rw [Cert.Lib.PlainDot.rowsByCols_apply]
  have hb : ∀ (x : Vec Ideal S1x128 .f32), broadcastTo S784x128 x broadcasts_S1x128_S784x128 (ix2 ⟨28 * oh.val + ow.val, hr⟩ co) = x (ix2 0 co) := fun x =>
    broadcastTo_apply x broadcasts_S1x128_S784x128 (ix2 ⟨28 * oh.val + ow.val, hr⟩ co) (ix2 0 co) (fun a => by
      match a with
      | ⟨0, _⟩ => rfl
      | ⟨1, _⟩ => rfl)
  rw [hb, hb]

/-- The right half of the first product as the run names it. -/
theorem r1_apply (c : Dev nD) (arg1 : Memref sig .tc .vmem S1x116x29x64 .bf16) (harg1 : arg1.IsWhole) (arg2 : Memref sig .tc .vmem S576x256 .bf16) (harg2 : arg2.IsWhole) (arg3 : Memref sig .tc .vmem S1x256 .f32) (harg3 : arg3.IsWhole) (arg4 : Memref sig .tc .vmem S1x256 .f32) (harg4 : arg4.IsWhole) (arg9 : Memref sig .tc .vmem S784x576 .bf16) (x0 : Vec Ideal S1x116x29x64 .bf16) (x1 : Vec Ideal S576x256 .bf16) (x2 x3 : Vec Ideal S1x256 .f32) (r : Fin 784) (co : Fin 128) :
    kernelRun.sl.r_1 (F := Ideal) c arg1 harg1 arg2 harg2 arg3 harg3 arg4 harg4 arg9 x0 x1 x2 x3 (ix2 r co) = pre1 (fun p q ci => at4 x0 0 p q ci) (at2 x1) (at2 x2 0) (at2 x3 0) r.val (128 + co.val) := by
  have hc : 128 + co.val < 256 := by have := co.isLt; omega
  unfold kernelRun.sl.r_1
  rw [pay15_apply _ _ _ _ r co hc, pre_apply c arg1 harg1 arg2 harg2 arg3 harg3 arg4 harg4 arg9 x0 x1 x2 x3 r ⟨128 + co.val, hc⟩]

/-- THE BLOCK: what one grid point leaves in the result's block, at position (oh, ow) and channel co. -/
theorem out7_apply (c : Dev nD) (i : grid0.Coords) (arg1 : Memref sig .tc .vmem S1x116x29x64 .bf16) (harg1 : arg1.IsWhole) (arg2 : Memref sig .tc .vmem S576x256 .bf16) (harg2 : arg2.IsWhole) (arg3 : Memref sig .tc .vmem S1x256 .f32) (harg3 : arg3.IsWhole) (arg4 : Memref sig .tc .vmem S1x256 .f32) (harg4 : arg4.IsWhole) (arg5 : Memref sig .tc .vmem S1152x128 .bf16) (harg5 : arg5.IsWhole) (arg6 : Memref sig .tc .vmem S1x128 .f32) (harg6 : arg6.IsWhole) (arg7 : Memref sig .tc .vmem S1x128 .f32) (harg7 : arg7.IsWhole) (arg8 : Memref sig .tc .vmem S1x28x28x128 .f32) (harg8 : arg8.IsWhole) (arg9 : Memref sig .tc .vmem S784x576 .bf16) (harg9 : arg9.IsWhole) (arg10 : Memref sig .tc .vmem S30x30x128 .bf16) (harg10 : arg10.IsWhole) (arg11 : Memref sig .tc .vmem S784x1152 .bf16) (harg11 : arg11.IsWhole)
    (x0 : Vec Ideal S1x116x29x64 .bf16) (x1 : Vec Ideal S576x256 .bf16) (x2 : Vec Ideal S1x256 .f32) (x3 : Vec Ideal S1x256 .f32) (x4 : Vec Ideal S1152x128 .bf16) (x5 : Vec Ideal S1x128 .f32) (x6 : Vec Ideal S1x128 .f32) (oh ow : Fin 28) (co : Fin 128) :
    out7 (F := Ideal) c i arg1 harg1 arg2 harg2 arg3 harg3 arg4 harg4 arg5 harg5 arg6 harg6 arg7 harg7 arg8 harg8 arg9 harg9 arg10 harg10 arg11 harg11 x0 x1 x2 x3 x4 x5 x6 (ix4 0 oh ow co)
      = out2 (at2 x4) (at2 x5 0) (at2 x6 0) (bordered (fun p q ci => at4 x0 0 p q ci) (at2 x1) (at2 x2 0) (at2 x3 0)) (fun r co' => pre1 (fun p q ci => at4 x0 0 p q ci) (at2 x1) (at2 x2 0) (at2 x3 0) r (128 + co'))
          (28 * oh.val + ow.val) co.val := by
  have hr : 28 * oh.val + ow.val < 784 := by have := oh.isLt; have := ow.isLt; omega
  unfold out7
  rw [View.read_writes_junk_eq_canon]
  have hL : (kernelRun (F := Ideal) c i arg1 harg1 arg2 harg2 arg3 harg3 arg4 harg4 arg5 harg5 arg6 harg6 arg7 harg7 arg8 harg8 arg9 harg9 arg10 harg10 arg11 harg11 x0 x1 x2 x3 x4 x5 x6).1
      = [⟨Rect.unit (s := S1x28x28x128) ![0, 0, 0, 0] S1x28x28x128.size inb_S1x28x28x128_S1x28x28x128_0_0_0_0,
          k0_pay3 (kernelRun.sl.r_1 (F := Ideal) c arg1 harg1 arg2 harg2 arg3 harg3 arg4 harg4 arg9 x0 x1 x2 x3) (kernelRun.sl.v124 (F := Ideal) c arg1 harg1 arg2 harg2 arg3 harg3 arg4 harg4 arg9 arg10 arg11 x0 x1 x2 x3)
            (View.readAt (Elt Ideal) arg5.view (Rect.unit (s := S1152x128) ![0, 0] S1152x128.size inb_S1152x128_S1152x128_0_0).toLoadRect (harg5.unread x4)) (View.readAt (Elt Ideal) arg6.view (Rect.unit (s := S1x128) ![0, 0] S1x128.size inb_S1x128_S1x128_0_0).toLoadRect (harg6.unread x5)) (View.readAt (Elt Ideal) arg7.view (Rect.unit (s := S1x128) ![0, 0] S1x128.size inb_S1x128_S1x128_0_0).toLoadRect (harg7.unread x6))⟩] := rfl
  rw [hL, View.canon_cons_unit_zero (funext fun a => by match a with | ⟨0, _⟩ => rfl | ⟨1, _⟩ => rfl | ⟨2, _⟩ => rfl | ⟨3, _⟩ => rfl)]
  rw [pay3_apply _ _ _ _ _ oh ow co hr, readWhole2 arg5 harg5 x4, readWhole2 arg6 harg6 x5, readWhole2 arg7 harg7 x6]
  unfold out2
  rw [at2_of_lt x5 (by norm_num : 0 < 1) co.isLt, at2_of_lt x6 (by norm_num : 0 < 1) co.isLt]
  refine congrArg (max · 0) (congrArg₂ (· + ·) (congrArg₂ (· + ·) (congrArg₂ (· * ·) (Finset.sum_congr rfl fun k _ => ?_) rfl) rfl) ?_)
  · rw [v124_apply, at2_of_lt x4 k.isLt co.isLt]
  · exact r1_apply c arg1 harg1 arg2 harg2 arg3 harg3 arg4 harg4 arg9 x0 x1 x2 x3 ⟨28 * oh.val + ow.val, hr⟩ co

end Cert.KernelIdeal.BodyValue

end
-- ==== Proof.KernelIdealArray.lean ====
/-
  The fused block over the whole batch: the result array after the thirty-two points.

  Point t writes image t's block; the blocks tile the array; so entry (b, oh, ow, co) of the array is image b's
  block at position 28 oh + ow, channel co, over the phase stack of image b and the weight, scale and shift
  arrays as the region finds them.
-/
import proofs.«109431_g2000702696857771_pallasbulk_1005_2_alg».proof.Proof.KernelIdealValue3

set_option maxRecDepth 16384

noncomputable section

namespace Cert.KernelIdeal.BodyValue

open Cert.KernelIdeal Cert.KernelIdeal.Gen Cert.KernelIdeal.Body Cert.Spec
open Idealize.ShloMosaic Idealize.ShloMosaic.TcCoe Idealize.ShloMosaic.ValueIdx Idealize.ShloMosaic.Tactic
open Idealize.ShloMosaic.Pipeline (Dat)

variable (m : (ℓ : Loc nD τ sig) → Buf (Elt Ideal) ℓ)

/-- The windows' block indices over the grid: the image's number on the first axis of the phase stack and of the
    result, zero everywhere else. -/
theorem idx_facts : ∀ t : Fin cfg0.N, win0_0.index t (0 : Fin 4) = t.val
    ∧ win0_0.index t (1 : Fin 4) = 0
    ∧ win0_0.index t (2 : Fin 4) = 0
    ∧ win0_0.index t (3 : Fin 4) = 0
    ∧ win0_1.index t (0 : Fin 2) = 0
    ∧ win0_1.index t (1 : Fin 2) = 0
    ∧ win0_2.index t (0 : Fin 2) = 0
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 4) = t.val
    ∧ win0_7.index t (1 : Fin 4) = 0
    ∧ win0_7.index t (2 : Fin 4) = 0
    ∧ win0_7.index t (3 : Fin 4) = 0 :=
  (by decide +kernel : ∀ t : Fin grid0.N, _)

theorem iblk_1 (c : Dev nD) (t : Fin cfg0.N) : (iblk m c 1 t : S576x256.Idx → Elt Ideal .bf16) = V m c main_v37 := by
  obtain ⟨e0, e1, e2, e3, e4, e5, e6, e7, e8, e9, e10, e11, e12, e13, e14, e15, e16, e17, e18, e19⟩ := idx_facts t
  funext y
  show V m c main_v37 (((cfg0.win 1).blk t).view.emb y) = V m c main_v37 y
  refine congrArg _ (funext fun a => Fin.ext ?_)
  match a with
  | ⟨0, _⟩ => show win0_1.index t (0 : Fin 2) * 576 + 1 * (y 0).val = (y 0).val; omega
  | ⟨1, _⟩ => show win0_1.index t (1 : Fin 2) * 256 + 1 * (y 1).val = (y 1).val; omega

theorem iblk_2 (c : Dev nD) (t : Fin cfg0.N) : (iblk m c 2 t : S1x256.Idx → Elt Ideal .f32) = V m c main_v40 := by
  obtain ⟨e0, e1, e2, e3, e4, e5, e6, e7, e8, e9, e10, e11, e12, e13, e14, e15, e16, e17, e18, e19⟩ := idx_facts t
  funext y
  show V m c main_v40 (((cfg0.win 2).blk t).view.emb y) = V m c main_v40 y
  refine congrArg _ (funext fun a => Fin.ext ?_)
  match a with
  | ⟨0, _⟩ => show win0_2.index t (0 : Fin 2) * 1 + 1 * (y 0).val = (y 0).val; omega
  | ⟨1, _⟩ => show win0_2.index t (1 : Fin 2) * 256 + 1 * (y 1).val = (y 1).val; omega

theorem iblk_3 (c : Dev nD) (t : Fin cfg0.N) : (iblk m c 3 t : S1x256.Idx → Elt Ideal .f32) = V m c main_v42 := by
  obtain ⟨e0, e1, e2, e3, e4, e5, e6, e7, e8, e9, e10, e11, e12, e13, e14, e15, e16, e17, e18, e19⟩ := idx_facts t
  funext y
  show V m c main_v42 (((cfg0.win 3).blk t).view.emb y) = V m c main_v42 y
  refine congrArg _ (funext fun a => Fin.ext ?_)
  match a with
  | ⟨0, _⟩ => show win0_3.index t (0 : Fin 2) * 1 + 1 * (y 0).val = (y 0).val; omega
  | ⟨1, _⟩ => show win0_3.index t (1 : Fin 2) * 256 + 1 * (y 1).val = (y 1).val; omega

theorem iblk_4 (c : Dev nD) (t : Fin cfg0.N) : (iblk m c 4 t : S1152x128.Idx → Elt Ideal .bf16) = V m c main_v38 := by
  obtain ⟨e0, e1, e2, e3, e4, e5, e6, e7, e8, e9, e10, e11, e12, e13, e14, e15, e16, e17, e18, e19⟩ := idx_facts t
  funext y
  show V m c main_v38 (((cfg0.win 4).blk t).view.emb y) = V m c main_v38 y
  refine congrArg _ (funext fun a => Fin.ext ?_)
  match a with
  | ⟨0, _⟩ => show win0_4.index t (0 : Fin 2) * 1152 + 1 * (y 0).val = (y 0).val; omega
  | ⟨1, _⟩ => show win0_4.index t (1 : Fin 2) * 128 + 1 * (y 1).val = (y 1).val; omega

theorem iblk_5 (c : Dev nD) (t : Fin cfg0.N) : (iblk m c 5 t : S1x128.Idx → Elt Ideal .f32) = V m c main_v43 := by
  obtain ⟨e0, e1, e2, e3, e4, e5, e6, e7, e8, e9, e10, e11, e12, e13, e14, e15, e16, e17, e18, e19⟩ := idx_facts t
  funext y
  show V m c main_v43 (((cfg0.win 5).blk t).view.emb y) = V m c main_v43 y
  refine congrArg _ (funext fun a => Fin.ext ?_)
  match a with
  | ⟨0, _⟩ => show win0_5.index t (0 : Fin 2) * 1 + 1 * (y 0).val = (y 0).val; omega
  | ⟨1, _⟩ => show win0_5.index t (1 : Fin 2) * 128 + 1 * (y 1).val = (y 1).val; omega

theorem iblk_6 (c : Dev nD) (t : Fin cfg0.N) : (iblk m c 6 t : S1x128.Idx → Elt Ideal .f32) = V m c main_v44 := by
  obtain ⟨e0, e1, e2, e3, e4, e5, e6, e7, e8, e9, e10, e11, e12, e13, e14, e15, e16, e17, e18, e19⟩ := idx_facts t
  funext y
  show V m c main_v44 (((cfg0.win 6).blk t).view.emb y) = V m c main_v44 y
  refine congrArg _ (funext fun a => Fin.ext ?_)
  match a with
  | ⟨0, _⟩ => show win0_6.index t (0 : Fin 2) * 1 + 1 * (y 0).val = (y 0).val; omega
  | ⟨1, _⟩ => show win0_6.index t (1 : Fin 2) * 128 + 1 * (y 1).val = (y 1).val; omega

/-- Image t's phase stack is block t of the stacked array. -/
theorem iblk_0 (c : Dev nD) (t : Fin cfg0.N) :
    (fun p q ci => at4 (iblk m c 0 t : S1x116x29x64.Idx → Elt Ideal .bf16) 0 p q ci)
      = (fun p q ci => at4 (V m c main_v5 : S32x116x29x64.Idx → Elt Ideal .bf16) t.val p q ci) := by
  obtain ⟨e0, e1, e2, e3, e4, e5, e6, e7, e8, e9, e10, e11, e12, e13, e14, e15, e16, e17, e18, e19⟩ := idx_facts t
  have ht : t.val < 32 := lt_of_lt_of_eq t.isLt N_0
  funext p q ci
  unfold at4
  by_cases h : p < 116 ∧ q < 29 ∧ ci < 64
  · rw [dif_pos ⟨by norm_num, h.1, h.2.1, h.2.2⟩, dif_pos ⟨ht, h.1, h.2.1, h.2.2⟩]
    show V m c main_v5 (((cfg0.win 0).blk t).view.emb (ix4 ⟨0, by norm_num⟩ ⟨p, h.1⟩ ⟨q, h.2.1⟩ ⟨ci, h.2.2⟩)) = _
    refine congrArg _ (funext fun a => Fin.ext ?_)
    match a with
    | ⟨0, _⟩ => show win0_0.index t (0 : Fin 4) * 1 + 1 * 0 = t.val; omega
    | ⟨1, _⟩ => show win0_0.index t (1 : Fin 4) * 116 + 1 * p = p; omega
    | ⟨2, _⟩ => show win0_0.index t (2 : Fin 4) * 29 + 1 * q = q; omega
    | ⟨3, _⟩ => show win0_0.index t (3 : Fin 4) * 64 + 1 * ci = ci; omega
  · rw [dif_neg (fun hh => h ⟨hh.2.1, hh.2.2.1, hh.2.2.2⟩), dif_neg (fun hh => h ⟨hh.2.1, hh.2.2.1, hh.2.2.2⟩)]

/-- The result array: entry (b, oh, ow, co) is image b's block at position 28 oh + ow, channel co. -/
def G (c : Dev nD) : S32x28x28x128.Idx → EReal := fun idx =>
  out2 (at2 (V m c main_v38)) (at2 (V m c main_v43) 0) (at2 (V m c main_v44) 0)
      (bordered (fun p q ci => at4 (V m c main_v5 : S32x116x29x64.Idx → Elt Ideal .bf16) (idx 0).val p q ci) (at2 (V m c main_v37)) (at2 (V m c main_v40) 0) (at2 (V m c main_v42) 0))
      (fun r co' => pre1 (fun p q ci => at4 (V m c main_v5 : S32x116x29x64.Idx → Elt Ideal .bf16) (idx 0).val p q ci) (at2 (V m c main_v37)) (at2 (V m c main_v40) 0) (at2 (V m c main_v42) 0) r (128 + co'))
      (28 * (idx 1).val + (idx 2).val) (idx 3).val

/-- What point t writes back is block t of `G`. -/
theorem flushed7_eq (c : Dev nD) (t : Fin cfg0.N) :
    (dats m 0 c).flushed 7 t = ((cfg0.win 7).blk t).view.read (Elt Ideal) (G m c) := by
  obtain ⟨e0, e1, e2, e3, e4, e5, e6, e7, e8, e9, e10, e11, e12, e13, e14, e15, e16, e17, e18, e19⟩ := idx_facts t
  show (cfg0.win 7).cut (grid0.coords t) ((dats m 0 c).after 7 t) = _
  rw [after7]
  unfold outAt
  funext j
  obtain ⟨z, oh, ow, co, rfl⟩ : ∃ (z : Fin 1) (oh ow : Fin 28) (co : Fin 128), j = ix4 z oh ow co := ⟨j 0, j 1, j 2, j 3, eq_ix4 j⟩
  obtain rfl : z = 0 := Subsingleton.elim _ _
  show out7 (F := Ideal) c (grid0.coords t) (ms0 t) (hs0 t) (ms1 t) (hs1 t) (ms2 t) (hs2 t) (ms3 t) (hs3 t) (ms4 t) (hs4 t) (ms5 t) (hs5 t) (ms6 t) (hs6 t) (ms7 t) (hs7 t) scM0 (Memref.isWhole_whole _) scM1 (Memref.isWhole_whole _) scM2 (Memref.isWhole_whole _) (iblk m c 0 t) (iblk m c 1 t) (iblk m c 2 t) (iblk m c 3 t) (iblk m c 4 t) (iblk m c 5 t) (iblk m c 6 t) (ix4 0 oh ow co)
      = G m c (((cfg0.win 7).blk t).view.emb (ix4 0 oh ow co))
  rw [out7_apply, iblk_0 m c t, iblk_1 m c t, iblk_2 m c t, iblk_3 m c t, iblk_4 m c t, iblk_5 m c t, iblk_6 m c t]
  unfold G
  have i0 : ((((cfg0.win 7).blk t).view.emb (ix4 (0 : Fin 1) oh ow co)) 0).val = t.val := by
    show win0_7.index t (0 : Fin 4) * 1 + 1 * 0 = t.val; omega
  have i1 : ((((cfg0.win 7).blk t).view.emb (ix4 (0 : Fin 1) oh ow co)) 1).val = oh.val := by
    show win0_7.index t (1 : Fin 4) * 28 + 1 * oh.val = oh.val; omega
  have i2 : ((((cfg0.win 7).blk t).view.emb (ix4 (0 : Fin 1) oh ow co)) 2).val = ow.val := by
    show win0_7.index t (2 : Fin 4) * 28 + 1 * ow.val = ow.val; omega
  have i3 : ((((cfg0.win 7).blk t).view.emb (ix4 (0 : Fin 1) oh ow co)) 3).val = co.val := by
    show win0_7.index t (3 : Fin 4) * 128 + 1 * co.val = co.val; omega
  rw [i0, i1, i2, i3]

/-- An index of the result array is in point t's block iff its coordinates are in the block's ranges. -/
theorem mem_blk7 (t : Fin cfg0.N) (i : S32x28x28x128.Idx) :
    i ∈ ((cfg0.win 7).blk t).view.set ↔ ∀ a : Fin 4, win0_7.index t a * S1x28x28x128.size a ≤ (i a).val ∧ (i a).val < win0_7.index t a * S1x28x28x128.size a + S1x28x28x128.size a := by
  show i ∈ ((View.whole main_v45).slice (win0_7.rect t)).set ↔ _
  rw [View.set_slice_whole, Rect.mem_set_unit]
  exact Iff.rfl

/-- THE RESULT ARRAY after the run. -/
theorem arr7 (c : Dev nD) : (dats m 0 c).arrAt 7 cfg0.N = G m c := by
  refine (dats m 0 c).arrAt_eq_of_cover 7 (G m c) (fun t _ => flushed7_eq m c t) (fun i => ?_)
  have hi0 : (i 0).val < 32 := (i 0).isLt
  have hN : (i 0).val < cfg0.N := lt_of_lt_of_eq hi0 N_0.symm
  refine ⟨⟨(i 0).val, hN⟩, flush0_7 _, ?_⟩
  obtain ⟨e0, e1, e2, e3, e4, e5, e6, e7, e8, e9, e10, e11, e12, e13, e14, e15, e16, e17, e18, e19⟩ := idx_facts ⟨(i 0).val, hN⟩
  rw [mem_blk7]
  intro a
  have h1 : (i 1).val < 28 := (i 1).isLt
  have h2 : (i 2).val < 28 := (i 2).isLt
  have h3 : (i 3).val < 128 := (i 3).isLt
  match a with
  | ⟨0, _⟩ => show win0_7.index ⟨(i 0).val, hN⟩ (0 : Fin 4) * 1 ≤ (i 0).val ∧ (i 0).val < win0_7.index ⟨(i 0).val, hN⟩ (0 : Fin 4) * 1 + 1; simp only [] at e16; omega
  | ⟨1, _⟩ => show win0_7.index ⟨(i 0).val, hN⟩ (1 : Fin 4) * 28 ≤ (i 1).val ∧ (i 1).val < win0_7.index ⟨(i 0).val, hN⟩ (1 : Fin 4) * 28 + 28; omega
  | ⟨2, _⟩ => show win0_7.index ⟨(i 0).val, hN⟩ (2 : Fin 4) * 28 ≤ (i 2).val ∧ (i 2).val < win0_7.index ⟨(i 0).val, hN⟩ (2 : Fin 4) * 28 + 28; omega
  | ⟨3, _⟩ => show win0_7.index ⟨(i 0).val, hN⟩ (3 : Fin 4) * 128 ≤ (i 3).val ∧ (i 3).val < win0_7.index ⟨(i 0).val, hN⟩ (3 : Fin 4) * 128 + 128; omega

end Cert.KernelIdeal.BodyValue

end
-- ==== Proof.SpecFused.lean ====
/-
  Laws of the residual block on the extended reals.

  The first convolution, the bordered main branch and the second stage read their weights, scales and shifts only at
  the entries the output position and channel name, so they agree for operands that agree there. And the one
  algebraic law of the block: a first convolution whose weight column vanishes off the centre tap, where it is
  the projection's column, is the shortcut — the centre tap's window is the stride-two 1 x 1 projection's input, and
  the other eight taps contribute products with zero.
-/
import proofs.«109431_g2000702696857771_pallasbulk_1005_2_alg».proof.Proof.Spec
import proofs.«109431_g2000702696857771_pallasbulk_1005_2_alg».proof.Proof.SpecRead
import Mathlib.Algebra.BigOperators.Intervals
import Mathlib.Algebra.BigOperators.Fin

noncomputable section

namespace Cert.Spec

open Idealize.ShloMosaic

/-- The first convolution at position r, channel n reads the weights' column n, the scale and the shift at n. -/
theorem pre1_congr (X : ℕ → ℕ → ℕ → EReal) (W W' : ℕ → ℕ → EReal) (S S' B B' : ℕ → EReal) (r n : ℕ)
    (hW : ∀ k, k < 576 → W k n = W' k n) (hS : S n = S' n) (hB : B n = B' n) :
    pre1 X W S B r n = pre1 X W' S' B' r n := by
  unfold pre1
  rw [hS, hB]
  exact congrArg (fun s => s * S' n + B' n) (Finset.sum_congr rfl fun k _ => by rw [hW k.val k.isLt])

/-- The bordered main branch at channel c < 128 reads the first convolution's operands at channels below 128. -/
theorem bordered_congr (X : ℕ → ℕ → ℕ → EReal) (W W' : ℕ → ℕ → EReal) (S S' B B' : ℕ → EReal) (i j c : ℕ) (hc : c < 128)
    (hW : ∀ k n, k < 576 → n < 128 → W k n = W' k n) (hS : ∀ n, n < 128 → S n = S' n) (hB : ∀ n, n < 128 → B n = B' n) :
    bordered X W S B i j c = bordered X W' S' B' i j c := by
  unfold bordered mainAct
  rw [pre1_congr X W W' S S' B B' _ c (fun k hk => hW k c hk hc) (hS c hc) (hB c hc)]

/-- The second stage at position r, channel co reads the weights' column co, the scale, the shift and the residual
    at (r, co), and the bordered input on the 3 x 3 window of r. -/
theorem out2_congr {W W' : ℕ → ℕ → EReal} {S S' B B' : ℕ → EReal} {P P' : ℕ → ℕ → ℕ → EReal} {R R' : ℕ → ℕ → EReal}
    (r co : ℕ) (hW : ∀ k, k < 1152 → W k co = W' k co) (hS : S co = S' co) (hB : B co = B' co)
    (hP : ∀ k, k < 1152 → P (k / 128 / 3 + r / 28) (k / 128 % 3 + r % 28) (k % 128)
      = P' (k / 128 / 3 + r / 28) (k / 128 % 3 + r % 28) (k % 128))
    (hR : R r co = R' r co) :
    out2 W S B P R r co = out2 W' S' B' P' R' r co := by
  unfold out2
  rw [hS, hB, hR]
  exact congrArg (fun s => max (s * S' co + B' co + R' r co) 0)
    (Finset.sum_congr rfl fun k _ => by rw [hW k.val k.isLt, hP k.val k.isLt])

/-- The centre tap: t = 4 = 3 · 1 + 1 sits at row offset 87 = 29 · 3 and column offset 0 of the phase stack. -/
theorem patch1_centre (X : ℕ → ℕ → ℕ → EReal) (r ci : ℕ) (hci : ci < 64) :
    patch1 X r (256 + ci) = X (87 + r / 28) (r % 28) ci := by
  have h1 : (256 + ci) / 64 = 4 := by omega
  have h2 : (256 + ci) % 64 = ci := by omega
  unfold patch1
  rw [h1, h2]
  show X (87 + r / 28) (0 + r % 28) ci = _
  rw [Nat.zero_add]

/-- THE LAW: a first convolution whose weight column is the projection's column on the centre tap's rows
    256 … 319 and zero on the other rows is the shortcut. The eight other taps' terms are products with zero; the
    centre tap's window is the projection's input. -/
theorem fused_shortcut (X : ℕ → ℕ → ℕ → EReal) (WF : ℕ → ℕ → EReal) (SA BA : ℕ → EReal) (WD : ℕ → ℕ → EReal)
    (SD BD : ℕ → EReal) (r co : ℕ)
    (hW : ∀ k, k < 576 → WF k (128 + co) = if 256 ≤ k ∧ k < 320 then WD (k - 256) co else 0)
    (hS : SA (128 + co) = SD co) (hB : BA (128 + co) = BD co) :
    pre1 X WF SA BA r (128 + co) = shortcut X WD SD BD r co := by
  unfold pre1 shortcut
  rw [hS, hB]
  refine congrArg (fun s => s * SD co + BD co) ?_
  rw [Fin.sum_univ_eq_sum_range (fun k => patch1 X r k * WF k (128 + co)) 576,
    Fin.sum_univ_eq_sum_range (fun ci => X (87 + r / 28) (r % 28) ci * WD ci co) 64]
  have h1 : ∑ k ∈ Finset.Ico 0 256, patch1 X r k * WF k (128 + co) = 0 :=
    Finset.sum_eq_zero fun k hk => by
      rw [Finset.mem_Ico] at hk
      rw [hW k (by omega), if_neg (by omega), mul_zero]
  have h3 : ∑ k ∈ Finset.Ico 320 576, patch1 X r k * WF k (128 + co) = 0 :=
    Finset.sum_eq_zero fun k hk => by
      rw [Finset.mem_Ico] at hk
      rw [hW k (by omega), if_neg (by omega), mul_zero]
  rw [Finset.range_eq_Ico, ← Finset.sum_Ico_consecutive _ (Nat.zero_le 256) (by norm_num : 256 ≤ 576),
    ← Finset.sum_Ico_consecutive _ (by norm_num : 256 ≤ 320) (by norm_num : 320 ≤ 576), h1, h3, zero_add, add_zero,
    Finset.sum_Ico_eq_sum_range]
  refine Finset.sum_congr rfl fun x hx => ?_
  rw [Finset.mem_range] at hx
  rw [hW (256 + x) (by omega), if_pos (by omega), patch1_centre X r x (by omega), Nat.add_sub_cancel_left]

end Cert.Spec

end
-- ==== Proof.RefRun.lean ====
/- The reference's run with its result named, and the host operations around its two launches.

   Every weakly fair execution of the reference's @main terminates with the result buffer at the value the
   boundary contents' fold gives it; that value is the last transpose of region 1's output array, region 1 is
   entered from arrays that are host operations of region 0's outputs and of the launch arguments, and region 0 is
   entered from arrays that are host operations of the launch arguments alone. -/
import proofs.«109431_g2000702696857771_pallasbulk_1005_2_alg».proof.Proof.Gen.ReferenceIdeal.Frame
import Idealize.ShloMosaic.Lib.StableHlo.Run
import Idealize.ShloMosaic.Lib.ValueIdx
import Idealize.ShloMosaic.Lib.ValueLayout
import Idealize.ShloMosaic.Lib.KernelVsHost

set_option maxRecDepth 16384

noncomputable section

namespace Cert.ReferenceIdeal.RefValueRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen
open Idealize.ShloMosaic.ValueIdx

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The run: the result buffer at the last boundary's contents -/

set_option backward.isDefEq.respectTransparency.types false in
/-- At the compiled mesh, from any memory with zero counters, every weakly fair execution of @main on the
    TensorCores terminates, nothing faulting, and in every final state the result buffer `main_v38` of each core
    holds the last boundary's contents `W9 m ρ c` of it, and the sixteen argument arrays are as launched. -/
theorem run_value : θ_run defs (onTc (τ := τ) (main (F := F))) ⟨m, fun _ => 0, ρ⟩ (fun r => ∀ c : Dev nD,
      r.2.mem ((c.tc : Thread nD τ).loc main_v38) = W9 m ρ c (Proc.devRef .tc main_v38)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v38 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c),
       (h c _ (mem_uc main_arg9 (by decide))).trans (W9_main_arg9 m ρ c),
       (h c _ (mem_uc main_arg10 (by decide))).trans (W9_main_arg10 m ρ c),
       (h c _ (mem_uc main_arg11 (by decide))).trans (W9_main_arg11 m ρ c),
       (h c _ (mem_uc main_arg12 (by decide))).trans (W9_main_arg12 m ρ c),
       (h c _ (mem_uc main_arg13 (by decide))).trans (W9_main_arg13 m ρ c),
       (h c _ (mem_uc main_arg14 (by decide))).trans (W9_main_arg14 m ρ c),
       (h c _ (mem_uc main_arg15 (by decide))).trans (W9_main_arg15 m ρ c)⟩)

/-! ## The result through the last stretch and region 1 -/

/-- The last stretch is one transpose: the result buffer holds region 1's output array with its channel axis
    moved to the second place. -/
theorem W9_result (c : Dev nD) :
    W9 m ρ c (Proc.devRef .tc main_v38)
      = (transpose S32x128x28x28 [0, 3, 1, 2] (W8 m ρ c (Proc.devRef .tc main_v37) : (⟨S32x28x28x128, .f32⟩ : BufTy).Contents (Elt F))
          transposes_S32x28x28x128_S32x128x28x28_0_3_1_2 : (⟨S32x128x28x28, .f32⟩ : BufTy).Contents (Elt F)) := by
  show StableHlo.after hostOps2 _ (Proc.devRef .tc main_v38) = _
  after_results

/-- Region 1 leaves its output array at what its write-backs fold to. -/
theorem W8_out (c : Dev nD) :
    W8 m ρ c (Proc.devRef .tc main_v37) = (dat1 (V7 m ρ) c).arrAt 5 cfg1.N :=
  W8_arr m ρ c 5

/-! ## Region 0's outputs -/

/-- Region 0 leaves its first output array at what its write-backs fold to. -/
theorem W4_out0 (c : Dev nD) :
    W4 m ρ c (Proc.devRef .tc main_v34_0) = (dat0 (V3 m ρ) c).arrAt 7 cfg0.N :=
  W4_arr m ρ c 7

/-- Region 0 leaves its second output array at what its write-backs fold to. -/
theorem W4_out1 (c : Dev nD) :
    W4 m ρ c (Proc.devRef .tc main_v34_1) = (dat0 (V3 m ρ) c).arrAt 8 cfg0.N :=
  W4_arr m ρ c 8

/-- Every weakly fair execution terminates with the result buffer at the transpose of what region 1's write-backs
    leave in its output array, and the argument arrays as launched. -/
theorem run_result : θ_run defs (onTc (τ := τ) (main (F := F))) ⟨m, fun _ => 0, ρ⟩ (fun r => ∀ c : Dev nD,
      r.2.mem ((c.tc : Thread nD τ).loc main_v38)
        = (transpose S32x128x28x28 [0, 3, 1, 2] ((dat1 (V7 m ρ) c).arrAt 5 cfg1.N : (⟨S32x28x28x128, .f32⟩ : BufTy).Contents (Elt F))
            transposes_S32x28x28x128_S32x128x28x28_0_3_1_2 : (⟨S32x128x28x28, .f32⟩ : BufTy).Contents (Elt F))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono
    (fun r h c => ⟨((h c).1.trans (W9_result m ρ c)).trans
      (congrArg (fun x : (⟨S32x28x28x128, .f32⟩ : BufTy).Contents (Elt F) =>
        (transpose S32x128x28x28 [0, 3, 1, 2] x transposes_S32x28x28x128_S32x128x28x28_0_3_1_2 : (⟨S32x128x28x28, .f32⟩ : BufTy).Contents (Elt F)))
        (W8_out m ρ c)), (h c).2⟩)
    (run_value m ρ)

/-! ## A zero padding by one on the two middle axes, read at an index -/

/-- Zero padding by one on the two middle axes, read at an index. -/
theorem pad1_apply (x : Vec Ideal S32x28x28x128 .f32) (z : Vec Ideal S_ .f32)
    (hp : S32x28x28x128.Pads (![0, 1, 1, 0] : Fin 4 → Nat) ![0, 1, 1, 0] ![0, 0, 0, 0] S32x30x30x128) (hu : 0 < S_.numel)
    (b : Fin 32) (i j : Fin 30) (ch : Fin 128) :
    pad S32x30x30x128 ![0, 1, 1, 0] ![0, 1, 1, 0] ![0, 0, 0, 0] x z hp hu (ix4 b i j ch)
      = if h : 1 ≤ i.val ∧ i.val ≤ 28 ∧ 1 ≤ j.val ∧ j.val ≤ 28
          then x (ix4 b ⟨i.val - 1, by omega⟩ ⟨j.val - 1, by omega⟩ ch) else z (Shape.Idx.first hu) := by
  split
  · rename_i h
    refine pad_apply_of_inside _ _ _ x z hp hu _ _ fun a => ?_
    fin_cases a
    · show b.val = 0 + b.val * (0 + 1); omega
    · show i.val = 1 + (i.val - 1) * (0 + 1); omega
    · show j.val = 1 + (j.val - 1) * (0 + 1); omega
    · show ch.val = 0 + ch.val * (0 + 1); omega
  · rename_i h
    by_cases hi : 1 ≤ i.val ∧ i.val ≤ 28
    · have hj : ¬(1 ≤ j.val ∧ j.val ≤ 28) := fun hj => h ⟨hi.1, hi.2, hj.1, hj.2⟩
      refine pad_apply_of_not_inside _ _ _ x z hp hu _ (2 : Fin 4) ?_
      show ¬(1 ≤ j.val ∧ (j.val - 1) % (0 + 1) = 0 ∧ (j.val - 1) / (0 + 1) < 28)
      omega
    · refine pad_apply_of_not_inside _ _ _ x z hp hu _ (1 : Fin 4) ?_
      show ¬(1 ≤ i.val ∧ (i.val - 1) % (0 + 1) = 0 ∧ (i.val - 1) / (0 + 1) < 28)
      omega

/-! ## Region 1's entry contents -/

/-- Region 1's first input is region 0's first output, padded by one on the two middle axes with the integer
    constant zero converted to a float. -/
theorem V7_v35 (c : Dev nD) :
    (V7 m ρ c main_v35 : (⟨S32x30x30x128, .f32⟩ : BufTy).Contents (Elt F))
      = pad S32x30x30x128 ![0, 1, 1, 0] ![0, 1, 1, 0] ![0, 0, 0, 0]
          (W4 m ρ c (Proc.devRef .tc main_v34_0) : (⟨S32x28x28x128, .f32⟩ : BufTy).Contents (Elt F))
          (sitofp .f32 (constantI S_ 32 0#32) : (⟨S_, .f32⟩ : BufTy).Contents (Elt F))
          pads_S32x28x28x128_S32x30x30x128_000_110_110_000 h_S_ := by
  show StableHlo.after hostOps1_2 (StableHlo.after hostOps1_1 (StableHlo.after hostOps1 (W4 m ρ c))) (Proc.devRef .tc main_v35) = _
  after_results
  rfl

/-- Region 1's weight matrix is the second convolution's transposed weights, read as a matrix. -/
theorem V7_v36 (c : Dev nD) :
    (V7 m ρ c main_v36 : (⟨S1152x128, .f32⟩ : BufTy).Contents (Elt F))
      = shapeCast S1152x128 (W4 m ρ c (Proc.devRef .tc main_v10) : (⟨S3x3x128x128, .f32⟩ : BufTy).Contents (Elt F))
          shapeCasts_S3x3x128x128_S1152x128 := by
  show StableHlo.after hostOps1_2 (StableHlo.after hostOps1_1 (StableHlo.after hostOps1 (W4 m ρ c))) (Proc.devRef .tc main_v36) = _
  after_results
  rfl

/-- No host operation between the two regions writes the second scale row. -/
theorem V7_v17 (c : Dev nD) : V7 m ρ c main_v17 = W4 m ρ c (Proc.devRef .tc main_v17) := by
  show StableHlo.after hostOps1_2 (StableHlo.after hostOps1_1 (StableHlo.after hostOps1 (W4 m ρ c))) (Proc.devRef .tc main_v17) = _
  after_results

/-- No host operation between the two regions writes the second shift row. -/
theorem V7_v18 (c : Dev nD) : V7 m ρ c main_v18 = W4 m ρ c (Proc.devRef .tc main_v18) := by
  show StableHlo.after hostOps1_2 (StableHlo.after hostOps1_1 (StableHlo.after hostOps1 (W4 m ρ c))) (Proc.devRef .tc main_v18) = _
  after_results

/-- No host operation between the two regions writes region 0's second output. -/
theorem V7_v34_1 (c : Dev nD) : V7 m ρ c main_v34_1 = W4 m ρ c (Proc.devRef .tc main_v34_1) := by
  show StableHlo.after hostOps1_2 (StableHlo.after hostOps1_1 (StableHlo.after hostOps1 (W4 m ρ c))) (Proc.devRef .tc main_v34_1) = _
  after_results

/-- Region 1's first input read at an index, over the extended reals: region 0's first output one step up and
    to the left inside the 28 × 28 interior, zero on the border. -/
theorem V7_v35_apply (m : (ℓ : Loc nD τ sig) → Buf (Elt Ideal) ℓ) (ρ : Dev nD → PrngReg) (c : Dev nD)
    (b : Fin 32) (i j : Fin 30) (ch : Fin 128) :
    (V7 m ρ c main_v35 : S32x30x30x128.Idx → EReal) (ix4 b i j ch)
      = if h : 1 ≤ i.val ∧ i.val ≤ 28 ∧ 1 ≤ j.val ∧ j.val ≤ 28 then
          ((W4 m ρ c (Proc.devRef .tc main_v34_0) : S32x28x28x128.Idx → EReal)
            (ix4 b ⟨i.val - 1, by omega⟩ ⟨j.val - 1, by omega⟩ ch) : EReal)
        else (0 : EReal) := by
  rw [V7_v35 m ρ c]
  refine (pad1_apply _ _ pads_S32x28x28x128_S32x30x30x128_000_110_110_000 h_S_ b i j ch).trans ?_
  split
  · rfl
  · exact sitofp_zero (φ := .f32)

/-- The same with region 0's first output named as what its write-backs leave. -/
theorem V7_v35_apply_out (m : (ℓ : Loc nD τ sig) → Buf (Elt Ideal) ℓ) (ρ : Dev nD → PrngReg) (c : Dev nD)
    (b : Fin 32) (i j : Fin 30) (ch : Fin 128) :
    (V7 m ρ c main_v35 : S32x30x30x128.Idx → EReal) (ix4 b i j ch)
      = if h : 1 ≤ i.val ∧ i.val ≤ 28 ∧ 1 ≤ j.val ∧ j.val ≤ 28 then
          (((dat0 (V3 m ρ) c).arrAt 7 cfg0.N : S32x28x28x128.Idx → EReal)
            (ix4 b ⟨i.val - 1, by omega⟩ ⟨j.val - 1, by omega⟩ ch) : EReal)
        else (0 : EReal) := by
  rw [V7_v35_apply m ρ c b i j ch, W4_out0 m ρ c]

/-- Region 1's residual operand is what region 0's write-backs leave in its second output. -/
theorem V7_v34_1_out (c : Dev nD) : V7 m ρ c main_v34_1 = (dat0 (V3 m ρ) c).arrAt 8 cfg0.N :=
  (V7_v34_1 m ρ c).trans (W4_out1 m ρ c)

/-! ## The host operations before the launches, as functions of the argument arrays -/

section HostTerms

/-- The variance offset, one entry per channel. -/
def epsRow : (⟨S128, .f32⟩ : BufTy).Contents (Elt F) :=
  broadcastInDim S128 ![] bcast_S_S128 (constant S_ .f32 0x3727C5AC#32 : (⟨S_, .f32⟩ : BufTy).Contents (Elt F))

/-- A normalisation's scale per channel: the weight over the square root of the offset variance. -/
def bnScale (g v : (⟨S128, .f32⟩ : BufTy).Contents (Elt F)) : (⟨S128, .f32⟩ : BufTy).Contents (Elt F) :=
  Host.divf g (Host.sqrt (addf v (epsRow (F := F))))

/-- A normalisation's shift per channel: the bias less the mean times the scale. -/
def bnShift (b mu g v : (⟨S128, .f32⟩ : BufTy).Contents (Elt F)) : (⟨S128, .f32⟩ : BufTy).Contents (Elt F) :=
  subf b (mulf mu (bnScale g v))

/-- The scale as a one-row matrix. -/
def scaleRow (g v : (⟨S128, .f32⟩ : BufTy).Contents (Elt F)) : (⟨S1x128, .f32⟩ : BufTy).Contents (Elt F) :=
  broadcastInDim S1x128 ![1] bcast_S128_S1x128_1 (bnScale g v)

/-- The shift as a one-row matrix. -/
def shiftRow (b mu g v : (⟨S128, .f32⟩ : BufTy).Contents (Elt F)) : (⟨S1x128, .f32⟩ : BufTy).Contents (Elt F) :=
  broadcastInDim S1x128 ![1] bcast_S128_S1x128_1 (bnShift b mu g v)

/-- The first convolution's weights as a matrix: taps and input channels along the rows, output channels along
    the columns. -/
def w1Mat (w : (⟨S128x64x3x3, .f32⟩ : BufTy).Contents (Elt F)) : (⟨S576x128, .f32⟩ : BufTy).Contents (Elt F) :=
  shapeCast S576x128 (transpose S3x3x64x128 [2, 3, 1, 0] w transposes_S128x64x3x3_S3x3x64x128_2_3_1_0)
    shapeCasts_S3x3x64x128_S576x128

/-- The second convolution's weights, transposed to taps, input channels, output channels. -/
def w2T (w : (⟨S128x128x3x3, .f32⟩ : BufTy).Contents (Elt F)) : (⟨S3x3x128x128, .f32⟩ : BufTy).Contents (Elt F) :=
  transpose S3x3x128x128 [2, 3, 1, 0] w transposes_S128x128x3x3_S3x3x128x128_2_3_1_0

/-- The second convolution's weights as a matrix. -/
def w2Mat (w : (⟨S128x128x3x3, .f32⟩ : BufTy).Contents (Elt F)) : (⟨S1152x128, .f32⟩ : BufTy).Contents (Elt F) :=
  shapeCast S1152x128 (w2T w) shapeCasts_S3x3x128x128_S1152x128

/-- The shortcut's pointwise weights as a matrix: input channels along the rows. -/
def wdMat (w : (⟨S128x64x1x1, .f32⟩ : BufTy).Contents (Elt F)) : (⟨S64x128, .f32⟩ : BufTy).Contents (Elt F) :=
  transpose S64x128 [1, 0] (shapeCast S128x64 w shapeCasts_S128x64x1x1_S128x64) transposes_S128x64_S64x128_1_0

/-- The input image, channels last, zero-padded by one on the two spatial axes and split into its four
    row/column parity phases stacked along the second axis. -/
def xPhases (x : (⟨S32x64x56x56, .f32⟩ : BufTy).Contents (Elt F)) : (⟨S32x116x29x64, .f32⟩ : BufTy).Contents (Elt F) :=
  shapeCast S32x116x29x64
    (transpose S32x2x2x29x29x64 [0, 2, 4, 1, 3, 5]
      (shapeCast S32x29x2x29x2x64
        (pad S32x58x58x64 ![0, 1, 1, 0] ![0, 1, 1, 0] ![0, 0, 0, 0]
          (transpose S32x56x56x64 [0, 2, 3, 1] x transposes_S32x64x56x56_S32x56x56x64_0_2_3_1)
          (sitofp .f32 (constantI S_ 32 0#32) : (⟨S_, .f32⟩ : BufTy).Contents (Elt F))
          pads_S32x56x56x64_S32x58x58x64_000_110_110_000 h_S_)
        shapeCasts_S32x58x58x64_S32x29x2x29x2x64)
      transposes_S32x29x2x29x2x64_S32x2x2x29x29x64_0_2_4_1_3_5)
    shapeCasts_S32x2x2x29x29x64_S32x116x29x64

end HostTerms

/-! ## Region 0's entry contents -/

/-- Region 0's image operand: the padded input split into its four parity phases. -/
theorem V3_v32 (c : Dev nD) :
    (V3 m ρ c main_v32 : (⟨S32x116x29x64, .f32⟩ : BufTy).Contents (Elt F)) = xPhases (m ((c : Thread nD τ).loc main_arg0)) := by
  show StableHlo.after hostOps0_2 (StableHlo.after hostOps0_1 (StableHlo.after hostOps0 (W0 m ρ c))) (Proc.devRef .tc main_v32) = _
  after_results_simp
  rfl

/-- Region 0's first weight matrix. -/
theorem V3_v33 (c : Dev nD) :
    (V3 m ρ c main_v33 : (⟨S576x128, .f32⟩ : BufTy).Contents (Elt F)) = w1Mat (m ((c : Thread nD τ).loc main_arg1)) := by
  show StableHlo.after hostOps0_2 (StableHlo.after hostOps0_1 (StableHlo.after hostOps0 (W0 m ρ c))) (Proc.devRef .tc main_v33) = _
  after_results_simp
  rfl

/-- Region 0's scale row of the first normalisation. -/
theorem V3_v8 (c : Dev nD) :
    (V3 m ρ c main_v8 : (⟨S1x128, .f32⟩ : BufTy).Contents (Elt F)) = scaleRow (m ((c : Thread nD τ).loc main_arg2)) (m ((c : Thread nD τ).loc main_arg5)) := by
  show StableHlo.after hostOps0_2 (StableHlo.after hostOps0_1 (StableHlo.after hostOps0 (W0 m ρ c))) (Proc.devRef .tc main_v8) = _
  after_results_simp
  rfl

/-- Region 0's shift row of the first normalisation. -/
theorem V3_v9 (c : Dev nD) :
    (V3 m ρ c main_v9 : (⟨S1x128, .f32⟩ : BufTy).Contents (Elt F)) = shiftRow (m ((c : Thread nD τ).loc main_arg3)) (m ((c : Thread nD τ).loc main_arg4)) (m ((c : Thread nD τ).loc main_arg2)) (m ((c : Thread nD τ).loc main_arg5)) := by
  show StableHlo.after hostOps0_2 (StableHlo.after hostOps0_1 (StableHlo.after hostOps0 (W0 m ρ c))) (Proc.devRef .tc main_v9) = _
  after_results_simp
  rfl

/-- Region 0's shortcut weight matrix. -/
theorem V3_v20 (c : Dev nD) :
    (V3 m ρ c main_v20 : (⟨S64x128, .f32⟩ : BufTy).Contents (Elt F)) = wdMat (m ((c : Thread nD τ).loc main_arg11)) := by
  show StableHlo.after hostOps0_2 (StableHlo.after hostOps0_1 (StableHlo.after hostOps0 (W0 m ρ c))) (Proc.devRef .tc main_v20) = _
  after_results_simp
  rfl

/-- Region 0's scale row of the shortcut's normalisation. -/
theorem V3_v27 (c : Dev nD) :
    (V3 m ρ c main_v27 : (⟨S1x128, .f32⟩ : BufTy).Contents (Elt F)) = scaleRow (m ((c : Thread nD τ).loc main_arg12)) (m ((c : Thread nD τ).loc main_arg15)) := by
  show StableHlo.after hostOps0_2 (StableHlo.after hostOps0_1 (StableHlo.after hostOps0 (W0 m ρ c))) (Proc.devRef .tc main_v27) = _
  after_results_simp
  rfl

/-- Region 0's shift row of the shortcut's normalisation. -/
theorem V3_v28 (c : Dev nD) :
    (V3 m ρ c main_v28 : (⟨S1x128, .f32⟩ : BufTy).Contents (Elt F)) = shiftRow (m ((c : Thread nD τ).loc main_arg13)) (m ((c : Thread nD τ).loc main_arg14)) (m ((c : Thread nD τ).loc main_arg12)) (m ((c : Thread nD τ).loc main_arg15)) := by
  show StableHlo.after hostOps0_2 (StableHlo.after hostOps0_1 (StableHlo.after hostOps0 (W0 m ρ c))) (Proc.devRef .tc main_v28) = _
  after_results_simp
  rfl

/-! ## The arrays region 1 takes that region 0 does not touch -/

/-- The second convolution's transposed weights at region 0's entry. -/
theorem V3_v10 (c : Dev nD) :
    (V3 m ρ c main_v10 : (⟨S3x3x128x128, .f32⟩ : BufTy).Contents (Elt F)) = w2T (m ((c : Thread nD τ).loc main_arg6)) := by
  show StableHlo.after hostOps0_2 (StableHlo.after hostOps0_1 (StableHlo.after hostOps0 (W0 m ρ c))) (Proc.devRef .tc main_v10) = _
  after_results_simp
  rfl

/-- The second normalisation's scale row at region 0's entry. -/
theorem V3_v17 (c : Dev nD) :
    (V3 m ρ c main_v17 : (⟨S1x128, .f32⟩ : BufTy).Contents (Elt F)) = scaleRow (m ((c : Thread nD τ).loc main_arg7)) (m ((c : Thread nD τ).loc main_arg10)) := by
  show StableHlo.after hostOps0_2 (StableHlo.after hostOps0_1 (StableHlo.after hostOps0 (W0 m ρ c))) (Proc.devRef .tc main_v17) = _
  after_results_simp
  rfl

/-- The second normalisation's shift row at region 0's entry. -/
theorem V3_v18 (c : Dev nD) :
    (V3 m ρ c main_v18 : (⟨S1x128, .f32⟩ : BufTy).Contents (Elt F)) = shiftRow (m ((c : Thread nD τ).loc main_arg8)) (m ((c : Thread nD τ).loc main_arg9)) (m ((c : Thread nD τ).loc main_arg7)) (m ((c : Thread nD τ).loc main_arg10)) := by
  show StableHlo.after hostOps0_2 (StableHlo.after hostOps0_1 (StableHlo.after hostOps0 (W0 m ρ c))) (Proc.devRef .tc main_v18) = _
  after_results_simp
  rfl

/-- Region 1's weight matrix as a function of the launch arguments: region 0 writes none of its operands. -/
theorem V7_v36_args (c : Dev nD) :
    (V7 m ρ c main_v36 : (⟨S1152x128, .f32⟩ : BufTy).Contents (Elt F)) = w2Mat (m ((c : Thread nD τ).loc main_arg6)) := by
  rw [V7_v36 m ρ c, W4_of_ne m ρ c main_v10 (by decide)]
  exact congrArg (fun w => shapeCast S1152x128 w shapeCasts_S3x3x128x128_S1152x128) (V3_v10 m ρ c)

/-- Region 1's scale row as a function of the launch arguments. -/
theorem V7_v17_args (c : Dev nD) :
    (V7 m ρ c main_v17 : (⟨S1x128, .f32⟩ : BufTy).Contents (Elt F)) = scaleRow (m ((c : Thread nD τ).loc main_arg7)) (m ((c : Thread nD τ).loc main_arg10)) := by
  rw [V7_v17 m ρ c, W4_of_ne m ρ c main_v17 (by decide)]
  exact V3_v17 m ρ c

/-- Region 1's shift row as a function of the launch arguments. -/
theorem V7_v18_args (c : Dev nD) :
    (V7 m ρ c main_v18 : (⟨S1x128, .f32⟩ : BufTy).Contents (Elt F)) = shiftRow (m ((c : Thread nD τ).loc main_arg8)) (m ((c : Thread nD τ).loc main_arg9)) (m ((c : Thread nD τ).loc main_arg7)) (m ((c : Thread nD τ).loc main_arg10)) := by
  rw [V7_v18 m ρ c, W4_of_ne m ρ c main_v18 (by decide)]
  exact V3_v18 m ρ c

end Cert.ReferenceIdeal.RefValueRun

end
-- ==== Proof.KernelFinal.lean ====
/-
  The fused kernel's result array in the specification's form.

  The kernel runs the first convolution once with 256 output columns: columns 0 … 127 carry the main branch's
  weights, scale and shift; columns 128 … 255 carry the projection's — its 64 x 128 weights on the centre tap's
  rows 256 … 319, zero on the other rows, with the projection's scale and shift. The main branch reads only the
  first 128 columns, so it is the specification's main branch; a column 128 + co of the fused convolution is the
  shortcut at channel co, the eight other taps contributing products with zero. Hence the kernel's array is the
  specification's block over the same operands the two-launch form uses.
-/
import proofs.«109431_g2000702696857771_pallasbulk_1005_2_alg».proof.Proof.KernelIdealArray
import proofs.«109431_g2000702696857771_pallasbulk_1005_2_alg».proof.Proof.SpecFused
import proofs.«109431_g2000702696857771_pallasbulk_1005_2_alg».proof.Proof.RefRun

set_option maxRecDepth 16384

noncomputable section

namespace Cert.KernelIdeal.Final

open Cert.KernelIdeal
open Idealize.ShloMosaic Idealize.ShloMosaic.TcCoe Idealize.ShloMosaic.ValueIdx
open Cert.Spec (at2 at4 pre1 bordered shortcut out2)

/-- A rank-2 array at an index is the array at the index's coordinate values. -/
theorem at2_of_vals {n0 n1 : Nat} (x : (⟨2, ![n0, n1]⟩ : Shape).Idx → EReal) (y : (⟨2, ![n0, n1]⟩ : Shape).Idx)
    (a b : ℕ) (h0 : (y 0).val = a) (h1 : (y 1).val = b) : x y = at2 x a b := by
  subst h0 h1; exact Cert.Spec.at2_eq x y

section
variable (m : (ℓ : Loc nD τ sig) → Buf (Elt Ideal) ℓ) (c : Dev nD)

/-- The kernel's result at ANY index, given how the arrays the launch finds read in terms of the arguments: the
    phase stack, the second stage's weights, scale and shift are the two-launch form's; the fused weights, scale
    and shift are the main branch's on columns below 128 and the projection's on columns 128 + co. -/
theorem G_out_of
    (h5 : (Gen.V m c main_v5 : S32x116x29x64.Idx → EReal) = (Cert.ReferenceIdeal.RefValueRun.xPhases (F := Ideal) (m ((c : Thread nD τ).loc main_arg0)) : (⟨4, ![32, 116, 29, 64]⟩ : Shape).Idx → EReal))
    (h38 : (Gen.V m c main_v38 : S1152x128.Idx → EReal) = (Cert.ReferenceIdeal.RefValueRun.w2Mat (F := Ideal) (m ((c : Thread nD τ).loc main_arg6)) : (⟨2, ![1152, 128]⟩ : Shape).Idx → EReal))
    (h43 : (Gen.V m c main_v43 : S1x128.Idx → EReal) = (Cert.ReferenceIdeal.RefValueRun.scaleRow (F := Ideal) (m ((c : Thread nD τ).loc main_arg7)) (m ((c : Thread nD τ).loc main_arg10)) : (⟨2, ![1, 128]⟩ : Shape).Idx → EReal))
    (h44 : (Gen.V m c main_v44 : S1x128.Idx → EReal) = (Cert.ReferenceIdeal.RefValueRun.shiftRow (F := Ideal) (m ((c : Thread nD τ).loc main_arg8)) (m ((c : Thread nD τ).loc main_arg9)) (m ((c : Thread nD τ).loc main_arg7)) (m ((c : Thread nD τ).loc main_arg10)) : (⟨2, ![1, 128]⟩ : Shape).Idx → EReal))
    (h37 : ∀ (k : Fin 576) (n : Fin 256), (Gen.V m c main_v37 : S576x256.Idx → EReal) (ix2 k n)
      = if h : n.val < 128 then (Cert.ReferenceIdeal.RefValueRun.w1Mat (F := Ideal) (m ((c : Thread nD τ).loc main_arg1)) : (⟨2, ![576, 128]⟩ : Shape).Idx → EReal) (ix2 k ⟨n.val, h⟩)
        else if h2 : 256 ≤ k.val ∧ k.val < 320 then (Cert.ReferenceIdeal.RefValueRun.wdMat (F := Ideal) (m ((c : Thread nD τ).loc main_arg11)) : (⟨2, ![64, 128]⟩ : Shape).Idx → EReal) (ix2 ⟨k.val - 256, by omega⟩ ⟨n.val - 128, by omega⟩) else 0)
    (h40 : ∀ n : Fin 256, (Gen.V m c main_v40 : S1x256.Idx → EReal) (ix2 0 n)
      = if h : n.val < 128 then (Cert.ReferenceIdeal.RefValueRun.scaleRow (F := Ideal) (m ((c : Thread nD τ).loc main_arg2)) (m ((c : Thread nD τ).loc main_arg5)) : (⟨2, ![1, 128]⟩ : Shape).Idx → EReal) (ix2 0 ⟨n.val, h⟩) else (Cert.ReferenceIdeal.RefValueRun.scaleRow (F := Ideal) (m ((c : Thread nD τ).loc main_arg12)) (m ((c : Thread nD τ).loc main_arg15)) : (⟨2, ![1, 128]⟩ : Shape).Idx → EReal) (ix2 0 ⟨n.val - 128, by omega⟩))
    (h42 : ∀ n : Fin 256, (Gen.V m c main_v42 : S1x256.Idx → EReal) (ix2 0 n)
      = if h : n.val < 128 then (Cert.ReferenceIdeal.RefValueRun.shiftRow (F := Ideal) (m ((c : Thread nD τ).loc main_arg3)) (m ((c : Thread nD τ).loc main_arg4)) (m ((c : Thread nD τ).loc main_arg2)) (m ((c : Thread nD τ).loc main_arg5)) : (⟨2, ![1, 128]⟩ : Shape).Idx → EReal) (ix2 0 ⟨n.val, h⟩) else (Cert.ReferenceIdeal.RefValueRun.shiftRow (F := Ideal) (m ((c : Thread nD τ).loc main_arg13)) (m ((c : Thread nD τ).loc main_arg14)) (m ((c : Thread nD τ).loc main_arg12)) (m ((c : Thread nD τ).loc main_arg15)) : (⟨2, ![1, 128]⟩ : Shape).Idx → EReal) (ix2 0 ⟨n.val - 128, by omega⟩))
    (idx : S32x28x28x128.Idx) :
    BodyValue.G m c idx
      = Cert.Spec.out (fun p q ci => at4 (Cert.ReferenceIdeal.RefValueRun.xPhases (F := Ideal) (m ((c : Thread nD τ).loc main_arg0)) : (⟨4, ![32, 116, 29, 64]⟩ : Shape).Idx → EReal) (idx 0).val p q ci) (at2 (Cert.ReferenceIdeal.RefValueRun.w1Mat (F := Ideal) (m ((c : Thread nD τ).loc main_arg1)) : (⟨2, ![576, 128]⟩ : Shape).Idx → EReal)) (at2 (Cert.ReferenceIdeal.RefValueRun.scaleRow (F := Ideal) (m ((c : Thread nD τ).loc main_arg2)) (m ((c : Thread nD τ).loc main_arg5)) : (⟨2, ![1, 128]⟩ : Shape).Idx → EReal) 0) (at2 (Cert.ReferenceIdeal.RefValueRun.shiftRow (F := Ideal) (m ((c : Thread nD τ).loc main_arg3)) (m ((c : Thread nD τ).loc main_arg4)) (m ((c : Thread nD τ).loc main_arg2)) (m ((c : Thread nD τ).loc main_arg5)) : (⟨2, ![1, 128]⟩ : Shape).Idx → EReal) 0)
          (at2 (Cert.ReferenceIdeal.RefValueRun.wdMat (F := Ideal) (m ((c : Thread nD τ).loc main_arg11)) : (⟨2, ![64, 128]⟩ : Shape).Idx → EReal)) (at2 (Cert.ReferenceIdeal.RefValueRun.scaleRow (F := Ideal) (m ((c : Thread nD τ).loc main_arg12)) (m ((c : Thread nD τ).loc main_arg15)) : (⟨2, ![1, 128]⟩ : Shape).Idx → EReal) 0) (at2 (Cert.ReferenceIdeal.RefValueRun.shiftRow (F := Ideal) (m ((c : Thread nD τ).loc main_arg13)) (m ((c : Thread nD τ).loc main_arg14)) (m ((c : Thread nD τ).loc main_arg12)) (m ((c : Thread nD τ).loc main_arg15)) : (⟨2, ![1, 128]⟩ : Shape).Idx → EReal) 0)
          (at2 (Cert.ReferenceIdeal.RefValueRun.w2Mat (F := Ideal) (m ((c : Thread nD τ).loc main_arg6)) : (⟨2, ![1152, 128]⟩ : Shape).Idx → EReal)) (at2 (Cert.ReferenceIdeal.RefValueRun.scaleRow (F := Ideal) (m ((c : Thread nD τ).loc main_arg7)) (m ((c : Thread nD τ).loc main_arg10)) : (⟨2, ![1, 128]⟩ : Shape).Idx → EReal) 0) (at2 (Cert.ReferenceIdeal.RefValueRun.shiftRow (F := Ideal) (m ((c : Thread nD τ).loc main_arg8)) (m ((c : Thread nD τ).loc main_arg9)) (m ((c : Thread nD τ).loc main_arg7)) (m ((c : Thread nD τ).loc main_arg10)) : (⟨2, ![1, 128]⟩ : Shape).Idx → EReal) 0) (28 * (idx 1).val + (idx 2).val) (idx 3).val := by
  have hco : (idx 3).val < 128 := (idx 3).isLt
  unfold BodyValue.G Cert.Spec.out
  rw [h5]
  refine Cert.Spec.out2_congr _ _ ?_ ?_ ?_ ?_ ?_
  · intro k hk; rw [h38]
  · rw [h43]
  · rw [h44]
  · intro k hk
    refine Cert.Spec.bordered_congr _ _ _ _ _ _ _ _ _ _ (Nat.mod_lt _ (by norm_num)) ?_ ?_ ?_
    · intro k' n hk' hn
      have e := h37 ⟨k', hk'⟩ ⟨n, by omega⟩
      rw [dif_pos (show (⟨n, by omega⟩ : Fin 256).val < 128 from hn)] at e
      exact (at2_of_vals _ (ix2 ⟨k', hk'⟩ ⟨n, by omega⟩) k' n rfl rfl).symm.trans (e.trans (at2_of_vals _ _ k' n rfl rfl))
    · intro n hn
      have e := h40 ⟨n, by omega⟩
      rw [dif_pos (show (⟨n, by omega⟩ : Fin 256).val < 128 from hn)] at e
      exact (at2_of_vals _ (ix2 0 ⟨n, by omega⟩) 0 n rfl rfl).symm.trans (e.trans (at2_of_vals _ _ 0 n rfl rfl))
    · intro n hn
      have e := h42 ⟨n, by omega⟩
      rw [dif_pos (show (⟨n, by omega⟩ : Fin 256).val < 128 from hn)] at e
      exact (at2_of_vals _ (ix2 0 ⟨n, by omega⟩) 0 n rfl rfl).symm.trans (e.trans (at2_of_vals _ _ 0 n rfl rfl))
  · refine Cert.Spec.fused_shortcut _ _ _ _ _ _ _ _ _ ?_ ?_ ?_
    · intro k hk
      have e := h37 ⟨k, hk⟩ ⟨128 + (idx 3).val, by omega⟩
      rw [dif_neg (show ¬ (⟨128 + (idx 3).val, by omega⟩ : Fin 256).val < 128 from by show ¬ 128 + (idx 3).val < 128; omega)] at e
      refine (at2_of_vals _ (ix2 ⟨k, hk⟩ ⟨128 + (idx 3).val, by omega⟩) k (128 + (idx 3).val) rfl rfl).symm.trans (e.trans ?_)
      by_cases h2 : 256 ≤ k ∧ k < 320
      · rw [dif_pos (show 256 ≤ (⟨k, hk⟩ : Fin 576).val ∧ (⟨k, hk⟩ : Fin 576).val < 320 from h2), if_pos h2]
        exact at2_of_vals _ _ (k - 256) (idx 3).val rfl (by show 128 + (idx 3).val - 128 = (idx 3).val; omega)
      · rw [dif_neg (show ¬ (256 ≤ (⟨k, hk⟩ : Fin 576).val ∧ (⟨k, hk⟩ : Fin 576).val < 320) from h2), if_neg h2]
    · have e := h40 ⟨128 + (idx 3).val, by omega⟩
      rw [dif_neg (show ¬ (⟨128 + (idx 3).val, by omega⟩ : Fin 256).val < 128 from by show ¬ 128 + (idx 3).val < 128; omega)] at e
      exact (at2_of_vals _ (ix2 0 ⟨128 + (idx 3).val, by omega⟩) 0 (128 + (idx 3).val) rfl rfl).symm.trans
        (e.trans (at2_of_vals _ _ 0 (idx 3).val rfl (by show 128 + (idx 3).val - 128 = (idx 3).val; omega)))
    · have e := h42 ⟨128 + (idx 3).val, by omega⟩
      rw [dif_neg (show ¬ (⟨128 + (idx 3).val, by omega⟩ : Fin 256).val < 128 from by show ¬ 128 + (idx 3).val < 128; omega)] at e
      exact (at2_of_vals _ (ix2 0 ⟨128 + (idx 3).val, by omega⟩) 0 (128 + (idx 3).val) rfl rfl).symm.trans
        (e.trans (at2_of_vals _ _ 0 (idx 3).val rfl (by show 128 + (idx 3).val - 128 = (idx 3).val; omega)))

/-- The kernel's result array, entry by entry, is the specification's block over the arguments' host terms. -/
theorem kernel_array_of
    (h5 : (Gen.V m c main_v5 : S32x116x29x64.Idx → EReal) = (Cert.ReferenceIdeal.RefValueRun.xPhases (F := Ideal) (m ((c : Thread nD τ).loc main_arg0)) : (⟨4, ![32, 116, 29, 64]⟩ : Shape).Idx → EReal))
    (h38 : (Gen.V m c main_v38 : S1152x128.Idx → EReal) = (Cert.ReferenceIdeal.RefValueRun.w2Mat (F := Ideal) (m ((c : Thread nD τ).loc main_arg6)) : (⟨2, ![1152, 128]⟩ : Shape).Idx → EReal))
    (h43 : (Gen.V m c main_v43 : S1x128.Idx → EReal) = (Cert.ReferenceIdeal.RefValueRun.scaleRow (F := Ideal) (m ((c : Thread nD τ).loc main_arg7)) (m ((c : Thread nD τ).loc main_arg10)) : (⟨2, ![1, 128]⟩ : Shape).Idx → EReal))
    (h44 : (Gen.V m c main_v44 : S1x128.Idx → EReal) = (Cert.ReferenceIdeal.RefValueRun.shiftRow (F := Ideal) (m ((c : Thread nD τ).loc main_arg8)) (m ((c : Thread nD τ).loc main_arg9)) (m ((c : Thread nD τ).loc main_arg7)) (m ((c : Thread nD τ).loc main_arg10)) : (⟨2, ![1, 128]⟩ : Shape).Idx → EReal))
    (h37 : ∀ (k : Fin 576) (n : Fin 256), (Gen.V m c main_v37 : S576x256.Idx → EReal) (ix2 k n)
      = if h : n.val < 128 then (Cert.ReferenceIdeal.RefValueRun.w1Mat (F := Ideal) (m ((c : Thread nD τ).loc main_arg1)) : (⟨2, ![576, 128]⟩ : Shape).Idx → EReal) (ix2 k ⟨n.val, h⟩)
        else if h2 : 256 ≤ k.val ∧ k.val < 320 then (Cert.ReferenceIdeal.RefValueRun.wdMat (F := Ideal) (m ((c : Thread nD τ).loc main_arg11)) : (⟨2, ![64, 128]⟩ : Shape).Idx → EReal) (ix2 ⟨k.val - 256, by omega⟩ ⟨n.val - 128, by omega⟩) else 0)
    (h40 : ∀ n : Fin 256, (Gen.V m c main_v40 : S1x256.Idx → EReal) (ix2 0 n)
      = if h : n.val < 128 then (Cert.ReferenceIdeal.RefValueRun.scaleRow (F := Ideal) (m ((c : Thread nD τ).loc main_arg2)) (m ((c : Thread nD τ).loc main_arg5)) : (⟨2, ![1, 128]⟩ : Shape).Idx → EReal) (ix2 0 ⟨n.val, h⟩) else (Cert.ReferenceIdeal.RefValueRun.scaleRow (F := Ideal) (m ((c : Thread nD τ).loc main_arg12)) (m ((c : Thread nD τ).loc main_arg15)) : (⟨2, ![1, 128]⟩ : Shape).Idx → EReal) (ix2 0 ⟨n.val - 128, by omega⟩))
    (h42 : ∀ n : Fin 256, (Gen.V m c main_v42 : S1x256.Idx → EReal) (ix2 0 n)
      = if h : n.val < 128 then (Cert.ReferenceIdeal.RefValueRun.shiftRow (F := Ideal) (m ((c : Thread nD τ).loc main_arg3)) (m ((c : Thread nD τ).loc main_arg4)) (m ((c : Thread nD τ).loc main_arg2)) (m ((c : Thread nD τ).loc main_arg5)) : (⟨2, ![1, 128]⟩ : Shape).Idx → EReal) (ix2 0 ⟨n.val, h⟩) else (Cert.ReferenceIdeal.RefValueRun.shiftRow (F := Ideal) (m ((c : Thread nD τ).loc main_arg13)) (m ((c : Thread nD τ).loc main_arg14)) (m ((c : Thread nD τ).loc main_arg12)) (m ((c : Thread nD τ).loc main_arg15)) : (⟨2, ![1, 128]⟩ : Shape).Idx → EReal) (ix2 0 ⟨n.val - 128, by omega⟩))
    (b : Fin 32) (oh ow : Fin 28) (co : Fin 128) :
    BodyValue.G m c (ix4 b oh ow co)
      = Cert.Spec.out (fun p q ci => at4 (Cert.ReferenceIdeal.RefValueRun.xPhases (F := Ideal) (m ((c : Thread nD τ).loc main_arg0)) : (⟨4, ![32, 116, 29, 64]⟩ : Shape).Idx → EReal) b.val p q ci) (at2 (Cert.ReferenceIdeal.RefValueRun.w1Mat (F := Ideal) (m ((c : Thread nD τ).loc main_arg1)) : (⟨2, ![576, 128]⟩ : Shape).Idx → EReal)) (at2 (Cert.ReferenceIdeal.RefValueRun.scaleRow (F := Ideal) (m ((c : Thread nD τ).loc main_arg2)) (m ((c : Thread nD τ).loc main_arg5)) : (⟨2, ![1, 128]⟩ : Shape).Idx → EReal) 0) (at2 (Cert.ReferenceIdeal.RefValueRun.shiftRow (F := Ideal) (m ((c : Thread nD τ).loc main_arg3)) (m ((c : Thread nD τ).loc main_arg4)) (m ((c : Thread nD τ).loc main_arg2)) (m ((c : Thread nD τ).loc main_arg5)) : (⟨2, ![1, 128]⟩ : Shape).Idx → EReal) 0)
          (at2 (Cert.ReferenceIdeal.RefValueRun.wdMat (F := Ideal) (m ((c : Thread nD τ).loc main_arg11)) : (⟨2, ![64, 128]⟩ : Shape).Idx → EReal)) (at2 (Cert.ReferenceIdeal.RefValueRun.scaleRow (F := Ideal) (m ((c : Thread nD τ).loc main_arg12)) (m ((c : Thread nD τ).loc main_arg15)) : (⟨2, ![1, 128]⟩ : Shape).Idx → EReal) 0) (at2 (Cert.ReferenceIdeal.RefValueRun.shiftRow (F := Ideal) (m ((c : Thread nD τ).loc main_arg13)) (m ((c : Thread nD τ).loc main_arg14)) (m ((c : Thread nD τ).loc main_arg12)) (m ((c : Thread nD τ).loc main_arg15)) : (⟨2, ![1, 128]⟩ : Shape).Idx → EReal) 0)
          (at2 (Cert.ReferenceIdeal.RefValueRun.w2Mat (F := Ideal) (m ((c : Thread nD τ).loc main_arg6)) : (⟨2, ![1152, 128]⟩ : Shape).Idx → EReal)) (at2 (Cert.ReferenceIdeal.RefValueRun.scaleRow (F := Ideal) (m ((c : Thread nD τ).loc main_arg7)) (m ((c : Thread nD τ).loc main_arg10)) : (⟨2, ![1, 128]⟩ : Shape).Idx → EReal) 0) (at2 (Cert.ReferenceIdeal.RefValueRun.shiftRow (F := Ideal) (m ((c : Thread nD τ).loc main_arg8)) (m ((c : Thread nD τ).loc main_arg9)) (m ((c : Thread nD τ).loc main_arg7)) (m ((c : Thread nD τ).loc main_arg10)) : (⟨2, ![1, 128]⟩ : Shape).Idx → EReal) 0) (28 * oh.val + ow.val) co.val :=
  G_out_of m c h5 h38 h43 h44 h37 h40 h42 (ix4 b oh ow co)

end

end Cert.KernelIdeal.Final

end
-- ==== Proof.KernelHost.lean ====
/- The kernel program's host side at the extended reals: the arrays its one launch stages are the reference's
   host terms of the same launch arguments — the phase stack, the second weight matrix and the second
   normalisation's rows outright, the fused weight matrix and the fused scale and shift rows read at an index —
   and the result buffer is the last transpose of what the launch's write-backs leave in its output array. -/
import proofs.«109431_g2000702696857771_pallasbulk_1005_2_alg».proof.Proof.Gen.KernelIdeal.Frame
import proofs.«109431_g2000702696857771_pallasbulk_1005_2_alg».proof.Proof.RefRun
import Idealize.ShloMosaic.Lib.StableHlo.Run
import Idealize.ShloMosaic.Lib.ValueIdx
import Idealize.ShloMosaic.Lib.ValueLayout
import Idealize.ShloMosaic.Lib.KernelVsHost
import Idealize.ShloMosaic.Lib.Pipeline.Value

set_option maxRecDepth 16384

noncomputable section

namespace Cert.KernelIdeal.HostValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx
open Cert.ReferenceIdeal.RefValueRun (xPhases w1Mat w2Mat wdMat scaleRow shiftRow bnScale bnShift)

/-! ## The result through the host tail -/

/-- The host tail is one transpose: for any proof data of the launch, the result buffer holds what the launch's
    write-backs leave in its output array, with the channel axis moved to the second place. -/
theorem tail_result {F : FTy → Type} [FloatOps F] (m : (ℓ : Loc nD τ sig) → Buf (Elt F) ℓ)
    (dats : (p : Fin 1) → (c : Dev nD) → Dat τ (Elt F) Unit ℕ (UR sig nD τ) ℕ (cfgs p) c) (c : Dev nD) :
    Pipeline.afterTail₀ cfgs dats 0 (V0 m) [hostOps1] c main_v46
      = (transpose S32x128x28x28 [0, 3, 1, 2] ((dats 0 c).arrAt 7 cfg0.N : (⟨S32x28x28x128, .f32⟩ : BufTy).Contents (Elt F))
          transposes_S32x28x28x128_S32x128x28x28_0_3_1_2 : (⟨S32x128x28x28, .f32⟩ : BufTy).Contents (Elt F)) := by
  unfold Pipeline.afterTail₀
  show StableHlo.after hostOps1 _ (Proc.devRef .tc main_v46) = _
  after_results
  exact congrArg (fun x : (⟨S32x28x28x128, .f32⟩ : BufTy).Contents (Elt F) =>
      (transpose S32x128x28x28 [0, 3, 1, 2] x transposes_S32x28x28x128_S32x128x28x28_0_3_1_2 : (⟨S32x128x28x28, .f32⟩ : BufTy).Contents (Elt F)))
    (Pipeline.withArrays_arr spec0 launch0.win.arr_inj c _ _ 7)

/-! ## Rows read at an index -/

/-- A vector as a one-row matrix, read at a column, is the vector's entry. -/
theorem row_apply {α : Type} {N : Nat} (hN : N ≠ 1)
    (hb : (⟨1, ![N]⟩ : Shape).BroadcastsInDim ⟨2, ![1, N]⟩ (![1] : Fin 1 → Fin 2))
    (x : (⟨1, ![N]⟩ : Shape).Idx → α) (n : Fin N) :
    broadcastInDim ⟨2, ![1, N]⟩ ![1] hb x (ix2 (0 : Fin 1) n) = x (ix1 n) := by
  refine broadcastInDim_apply ![1] hb x (ix2 (0 : Fin 1) n) (ix1 n) fun a => ?_
  fin_cases a
  show n.val = if N = 1 then 0 else n.val
  rw [if_neg hN]

/-- Two vectors of 128 entries side by side as one row of 256, read at a column: the first vector's entry in the
    left half, the second's in the right half. -/
theorem pairRow_apply {α : Type}
    (hc : Shape.Concatenates [(⟨1, ![128]⟩ : Shape), ⟨1, ![128]⟩] ⟨1, ![256]⟩ 0)
    (hb : (⟨1, ![256]⟩ : Shape).BroadcastsInDim ⟨2, ![1, 256]⟩ (![1] : Fin 1 → Fin 2))
    (x y : (⟨1, ![128]⟩ : Shape).Idx → α) (n : Fin 256) :
    broadcastInDim ⟨2, ![1, 256]⟩ ![1] hb (concatenate ⟨1, ![256]⟩ 0 [⟨⟨1, ![128]⟩, x⟩, ⟨⟨1, ![128]⟩, y⟩] hc) (ix2 (0 : Fin 1) n)
      = if h : n.val < 128 then x (ix1 ⟨n.val, h⟩) else y (ix1 ⟨n.val - 128, by omega⟩) := by
  rw [row_apply (by decide) hb _ n]
  split
  · rename_i h
    refine concatenate_pair_apply_left 0 x y hc (ix1 n) rfl (ix1 ⟨n.val, h⟩) fun b => ?_
    fin_cases b
    rfl
  · rename_i h
    refine concatenate_pair_apply_right 0 x y hc (ix1 n) rfl rfl (ix1 ⟨n.val - 128, by omega⟩) (fun b hb => ?_) ?_
    · fin_cases b
      exact absurd rfl hb
    · show n.val - 128 + 128 = n.val
      omega

/-! ## A scatter that sets, read at an index -/

section Fold

variable {ι A V : Type}

/-- A left fold of steps none of which touches entry `i` leaves entry `i` as it was. -/
theorem foldl_at_of_none (stp : (ι → V) → A → (ι → V)) (i : ι) (hit : A → Prop)
    (H1 : ∀ r a, ¬ hit a → stp r a i = r i) (L : List A) (r : ι → V) (h : ∀ a ∈ L, ¬ hit a) :
    (L.foldl stp r) i = r i := by
  induction L generalizing r with
  | nil => rfl
  | cons a L ih =>
    rw [List.foldl_cons, ih _ (fun b hb => h b (List.mem_cons_of_mem _ hb)), H1 r a (h a List.mem_cons_self)]

/-- A left fold over a list without repeats, exactly one of whose steps sets entry `i`, leaves there what that
    step sets. -/
theorem foldl_at_of_unique (stp : (ι → V) → A → (ι → V)) (i : ι) (hit : A → Prop) (val : A → V)
    (H1 : ∀ r a, ¬ hit a → stp r a i = r i) (H2 : ∀ r a, hit a → stp r a i = val a)
    (L : List A) (hnd : L.Nodup) (a0 : A) (ha0 : a0 ∈ L) (h0 : hit a0) (huniq : ∀ a ∈ L, hit a → a = a0)
    (r : ι → V) : (L.foldl stp r) i = val a0 := by
  induction L generalizing r with
  | nil => exact absurd ha0 List.not_mem_nil
  | cons a L ih =>
    rw [List.foldl_cons]
    rw [List.nodup_cons] at hnd
    by_cases ha : a = a0
    · subst ha
      rw [foldl_at_of_none stp i hit H1 L _ fun b hb hbhit =>
        hnd.1 (huniq b (List.mem_cons_of_mem _ hb) hbhit ▸ hb), H2 r a h0]
    · have hmem : a0 ∈ L := (List.mem_cons.1 ha0).resolve_left (Ne.symm ha)
      exact ih hnd.2 hmem (fun b hb => huniq b (List.mem_cons_of_mem _ hb)) _

end Fold

section ScatterSet

variable {s si u : Shape} {w : Nat} {α : Type}

/-- A setting scatter at an entry no update lands on is the operand there. -/
theorem scatter_set_of_none (d : ScatterDims s si u) (x : s.Idx → α) (idx : IVec si w) (upd : u.Idx → α) (i : s.Idx)
    (h : ∀ j : u.Idx, d.resultIdx? j idx ≠ some i) :
    Host.scatter d (fun _ b => b) x idx upd i = x i := by
  unfold Host.scatter
  exact foldl_at_of_none _ i (fun n => d.resultIdx? (u.rowMajor.symm n) idx = some i)
    (fun r n hn => by
      generalize hg : d.resultIdx? (u.rowMajor.symm n) idx = o at hn ⊢
      cases o with
      | none => rfl
      | some i0 =>
        show (if i = i0 then upd (u.rowMajor.symm n) else r i) = r i
        rw [if_neg fun e => hn (by rw [e])])
    _ x (fun n _ => h _)

/-- A setting scatter at an entry exactly one update lands on is that update. -/
theorem scatter_set_of_unique (d : ScatterDims s si u) (x : s.Idx → α) (idx : IVec si w) (upd : u.Idx → α) (i : s.Idx)
    (j : u.Idx) (hj : d.resultIdx? j idx = some i) (huniq : ∀ j', d.resultIdx? j' idx = some i → j' = j) :
    Host.scatter d (fun _ b => b) x idx upd i = upd j := by
  unfold Host.scatter
  have key := foldl_at_of_unique
    (fun (r : s.Idx → α) (n : Fin u.numel) =>
      match d.resultIdx? (u.rowMajor.symm n) idx with
      | some i => fun i' => if i' = i then (fun _ b => b) (r i) (upd (u.rowMajor.symm n)) else r i'
      | none => r)
    i (fun n => d.resultIdx? (u.rowMajor.symm n) idx = some i) (fun n => upd (u.rowMajor.symm n))
    (fun r n hn => by
      generalize hg : d.resultIdx? (u.rowMajor.symm n) idx = o at hn ⊢
      cases o with
      | none => rfl
      | some i0 =>
        show (if i = i0 then upd (u.rowMajor.symm n) else r i) = r i
        rw [if_neg fun e => hn (by rw [e])])
    (fun r n hn => by
      generalize hg : d.resultIdx? (u.rowMajor.symm n) idx = o at hn ⊢
      cases o with
      | none => cases hn
      | some i0 =>
        show (if i = i0 then upd (u.rowMajor.symm n) else r i) = upd (u.rowMajor.symm n)
        rw [if_pos (Option.some.inj hn).symm])
    (List.finRange u.numel) (List.nodup_finRange _) (u.rowMajor j) (List.mem_finRange _)
    (by show d.resultIdx? (u.rowMajor.symm (u.rowMajor j)) idx = some i; rw [Equiv.symm_apply_apply]; exact hj)
    (fun n _ hn => by
      have := huniq _ hn
      rw [← this, Equiv.apply_symm_apply])
    x
  rw [Equiv.symm_apply_apply] at key
  exact key

end ScatterSet

/-! ## Where the two settings land -/

section Lands

/-- The first setting lands update entry (r, q) at entry (r, q): its one start component is column 0. -/
theorem lands1 (idx : IVec S1 32) (hidx : ∀ k, idx k = 0#32) (j : S576x128.Idx) (i : S576x256.Idx) :
    scatter_S576x256_S1_S576x128_01_n_1_0.resultIdx? j idx = some i ↔ (i 0).val = (j 0).val ∧ (i 1).val = (j 1).val := by
  have s0 : scatter_S576x256_S1_S576x128_01_n_1_0.start j idx 0 = 0 := by
    unfold ScatterDims.start; rw [dif_neg (by decide)]
  have s1 : scatter_S576x256_S1_S576x128_01_n_1_0.start j idx 1 = 0 := by
    unfold ScatterDims.start; rw [dif_pos (by decide), hidx]; rfl
  have w0 : scatter_S576x256_S1_S576x128_01_n_1_0.window j 0 = (j 0).val := by
    unfold ScatterDims.window; rw [dif_pos (by decide)]; rfl
  have w1 : scatter_S576x256_S1_S576x128_01_n_1_0.window j 1 = (j 1).val := by
    unfold ScatterDims.window; rw [dif_pos (by decide)]; rfl
  have hj0 : (j 0).val < 576 := (j 0).isLt
  have hj1 : (j 1).val < 128 := (j 1).isLt
  unfold ScatterDims.resultIdx?
  have hall : ∀ a : Fin S576x256.rank,
      0 ≤ scatter_S576x256_S1_S576x128_01_n_1_0.start j idx a + (scatter_S576x256_S1_S576x128_01_n_1_0.window j a : Int)
      ∧ scatter_S576x256_S1_S576x128_01_n_1_0.start j idx a + (scatter_S576x256_S1_S576x128_01_n_1_0.window j a : Int)
          < (S576x256.size a : Int) := by
    intro a
    fin_cases a
    · show 0 ≤ scatter_S576x256_S1_S576x128_01_n_1_0.start j idx 0 + (scatter_S576x256_S1_S576x128_01_n_1_0.window j 0 : Int)
        ∧ scatter_S576x256_S1_S576x128_01_n_1_0.start j idx 0 + (scatter_S576x256_S1_S576x128_01_n_1_0.window j 0 : Int) < (576 : Int)
      rw [s0, w0]; omega
    · show 0 ≤ scatter_S576x256_S1_S576x128_01_n_1_0.start j idx 1 + (scatter_S576x256_S1_S576x128_01_n_1_0.window j 1 : Int)
        ∧ scatter_S576x256_S1_S576x128_01_n_1_0.start j idx 1 + (scatter_S576x256_S1_S576x128_01_n_1_0.window j 1 : Int) < (256 : Int)
      rw [s1, w1]; omega
  rw [dif_pos hall]
  constructor
  · intro e
    have e' := Option.some.inj e
    have e0 := congrArg Fin.val (congrFun e' 0)
    have e1 := congrArg Fin.val (congrFun e' 1)
    simp only [s0, s1, w0, w1] at e0 e1
    omega
  · rintro ⟨e0, e1⟩
    refine congrArg some (funext fun a => Fin.ext ?_)
    fin_cases a
    · show (scatter_S576x256_S1_S576x128_01_n_1_0.start j idx 0 + (scatter_S576x256_S1_S576x128_01_n_1_0.window j 0 : Int)).toNat = (i 0).val
      rw [s0, w0]; omega
    · show (scatter_S576x256_S1_S576x128_01_n_1_0.start j idx 1 + (scatter_S576x256_S1_S576x128_01_n_1_0.window j 1 : Int)).toNat = (i 1).val
      rw [s1, w1]; omega

/-- The second setting lands update entry (r, q) at entry (256 + r, 128 + q). -/
theorem lands2 (idx : IVec S2 32) (h0 : ∀ k : S2.Idx, (k 0).val = 0 → idx k = 256#32)
    (h1 : ∀ k : S2.Idx, (k 0).val = 1 → idx k = 128#32) (j : S64x128.Idx) (i : S576x256.Idx) :
    scatter_S576x256_S2_S64x128_01_n_01_0.resultIdx? j idx = some i ↔ (i 0).val = 256 + (j 0).val ∧ (i 1).val = 128 + (j 1).val := by
  have s0 : scatter_S576x256_S2_S64x128_01_n_01_0.start j idx 0 = 256 := by
    unfold ScatterDims.start; rw [dif_pos (by decide), h0 _ rfl]; rfl
  have s1 : scatter_S576x256_S2_S64x128_01_n_01_0.start j idx 1 = 128 := by
    unfold ScatterDims.start; rw [dif_pos (by decide), h1 _ rfl]; rfl
  have w0 : scatter_S576x256_S2_S64x128_01_n_01_0.window j 0 = (j 0).val := by
    unfold ScatterDims.window; rw [dif_pos (by decide)]; rfl
  have w1 : scatter_S576x256_S2_S64x128_01_n_01_0.window j 1 = (j 1).val := by
    unfold ScatterDims.window; rw [dif_pos (by decide)]; rfl
  have hj0 : (j 0).val < 64 := (j 0).isLt
  have hj1 : (j 1).val < 128 := (j 1).isLt
  unfold ScatterDims.resultIdx?
  have hall : ∀ a : Fin S576x256.rank,
      0 ≤ scatter_S576x256_S2_S64x128_01_n_01_0.start j idx a + (scatter_S576x256_S2_S64x128_01_n_01_0.window j a : Int)
      ∧ scatter_S576x256_S2_S64x128_01_n_01_0.start j idx a + (scatter_S576x256_S2_S64x128_01_n_01_0.window j a : Int) < (S576x256.size a : Int) := by
    intro a
    fin_cases a
    · show 0 ≤ scatter_S576x256_S2_S64x128_01_n_01_0.start j idx 0 + (scatter_S576x256_S2_S64x128_01_n_01_0.window j 0 : Int)
        ∧ scatter_S576x256_S2_S64x128_01_n_01_0.start j idx 0 + (scatter_S576x256_S2_S64x128_01_n_01_0.window j 0 : Int) < (576 : Int)
      rw [s0, w0]; omega
    · show 0 ≤ scatter_S576x256_S2_S64x128_01_n_01_0.start j idx 1 + (scatter_S576x256_S2_S64x128_01_n_01_0.window j 1 : Int)
        ∧ scatter_S576x256_S2_S64x128_01_n_01_0.start j idx 1 + (scatter_S576x256_S2_S64x128_01_n_01_0.window j 1 : Int) < (256 : Int)
      rw [s1, w1]; omega
  rw [dif_pos hall]
  constructor
  · intro e
    have e' := Option.some.inj e
    have e0 := congrArg Fin.val (congrFun e' 0)
    have e1 := congrArg Fin.val (congrFun e' 1)
    simp only [s0, s1, w0, w1] at e0 e1
    omega
  · rintro ⟨e0, e1⟩
    refine congrArg some (funext fun a => Fin.ext ?_)
    fin_cases a
    · show (scatter_S576x256_S2_S64x128_01_n_01_0.start j idx 0 + (scatter_S576x256_S2_S64x128_01_n_01_0.window j 0 : Int)).toNat = (i 0).val
      rw [s0, w0]; omega
    · show (scatter_S576x256_S2_S64x128_01_n_01_0.start j idx 1 + (scatter_S576x256_S2_S64x128_01_n_01_0.window j 1 : Int)).toNat = (i 1).val
      rw [s1, w1]; omega

end Lands

/-! ## The staged arrays that are the reference's outright -/

section AtIdeal

variable (m : (ℓ : Loc nD τ sig) → Buf (Elt Ideal) ℓ) (c : Dev nD)

/-- The image operand is the reference's phase stack: the rounding to the narrow format is the identity over the
    extended reals. -/
theorem V_v5 : (V m c main_v5 : S32x116x29x64.Idx → EReal) = xPhases (F := Ideal) (m ((c : Thread nD τ).loc main_arg0)) := by
  dsimp only [V, V0]
  simp only [hostOps0, hostOps0_1, hostOps0_2, List.flatten_cons, List.flatten_nil, List.append_nil, List.cons_append,
    List.nil_append]
  after_results_simp
  rfl

/-- The second weight matrix is the reference's. -/
theorem V_v38 : (V m c main_v38 : S1152x128.Idx → EReal) = w2Mat (F := Ideal) (m ((c : Thread nD τ).loc main_arg6)) := by
  dsimp only [V, V0]
  simp only [hostOps0, hostOps0_1, hostOps0_2, List.flatten_cons, List.flatten_nil, List.append_nil, List.cons_append,
    List.nil_append]
  after_results_simp
  rfl

/-- The second normalisation's scale row is the reference's. -/
theorem V_v43 : (V m c main_v43 : S1x128.Idx → EReal) = scaleRow (F := Ideal) (m ((c : Thread nD τ).loc main_arg7)) (m ((c : Thread nD τ).loc main_arg10)) := by
  dsimp only [V, V0]
  simp only [hostOps0, hostOps0_1, hostOps0_2, List.flatten_cons, List.flatten_nil, List.append_nil, List.cons_append,
    List.nil_append]
  after_results_simp
  rfl

/-- The second normalisation's shift row is the reference's. -/
theorem V_v44 : (V m c main_v44 : S1x128.Idx → EReal)
    = shiftRow (F := Ideal) (m ((c : Thread nD τ).loc main_arg8)) (m ((c : Thread nD τ).loc main_arg9)) (m ((c : Thread nD τ).loc main_arg7)) (m ((c : Thread nD τ).loc main_arg10)) := by
  dsimp only [V, V0]
  simp only [hostOps0, hostOps0_1, hostOps0_2, List.flatten_cons, List.flatten_nil, List.append_nil, List.cons_append,
    List.nil_append]
  after_results_simp
  rfl

/-! ## The fused scale and shift rows -/

/-- The fused scale row is the first normalisation's and the shortcut normalisation's scales side by side, as one row. -/
theorem V_v40 : (V m c main_v40 : S1x256.Idx → EReal)
    = broadcastInDim S1x256 ![1] bcast_S256_S1x256_1
        (concatenate S256 0 [⟨S128, bnScale (F := Ideal) (m ((c : Thread nD τ).loc main_arg2)) (m ((c : Thread nD τ).loc main_arg5))⟩, ⟨S128, bnScale (F := Ideal) (m ((c : Thread nD τ).loc main_arg12)) (m ((c : Thread nD τ).loc main_arg15))⟩]
          concatenates_S128_S128_S256_d0) := by
  dsimp only [V, V0]
  simp only [hostOps0, hostOps0_1, hostOps0_2, List.flatten_cons, List.flatten_nil, List.append_nil, List.cons_append,
    List.nil_append]
  after_results_simp
  rfl

/-- The fused scale row read at a column: the first normalisation's scale row in the left half, the shortcut's in the right half. -/
theorem V_v40_apply (n : Fin 256) :
    (V m c main_v40 : S1x256.Idx → EReal) (ix2 (0 : Fin 1) n)
      = if h : n.val < 128 then
          ((scaleRow (F := Ideal) (m ((c : Thread nD τ).loc main_arg2)) (m ((c : Thread nD τ).loc main_arg5)) : S1x128.Idx → EReal) (ix2 (0 : Fin 1) ⟨n.val, h⟩) : EReal)
        else ((scaleRow (F := Ideal) (m ((c : Thread nD τ).loc main_arg12)) (m ((c : Thread nD τ).loc main_arg15)) : S1x128.Idx → EReal) (ix2 (0 : Fin 1) ⟨n.val - 128, by omega⟩) : EReal) := by
  rw [V_v40 m c]
  refine (pairRow_apply concatenates_S128_S128_S256_d0 bcast_S256_S1x256_1 _ _ n).trans ?_
  split
  · unfold scaleRow
    exact (row_apply (by decide) _ _ _).symm
  · unfold scaleRow
    exact (row_apply (by decide) _ _ _).symm

/-- The fused shift row is the first normalisation's and the shortcut normalisation's shifts side by side, as one row. -/
theorem V_v42 : (V m c main_v42 : S1x256.Idx → EReal)
    = broadcastInDim S1x256 ![1] bcast_S256_S1x256_1
        (concatenate S256 0 [⟨S128, bnShift (F := Ideal) (m ((c : Thread nD τ).loc main_arg3)) (m ((c : Thread nD τ).loc main_arg4)) (m ((c : Thread nD τ).loc main_arg2)) (m ((c : Thread nD τ).loc main_arg5))⟩, ⟨S128, bnShift (F := Ideal) (m ((c : Thread nD τ).loc main_arg13)) (m ((c : Thread nD τ).loc main_arg14)) (m ((c : Thread nD τ).loc main_arg12)) (m ((c : Thread nD τ).loc main_arg15))⟩]
          concatenates_S128_S128_S256_d0) := by
  dsimp only [V, V0]
  simp only [hostOps0, hostOps0_1, hostOps0_2, List.flatten_cons, List.flatten_nil, List.append_nil, List.cons_append,
    List.nil_append]
  after_results_simp
  rfl

/-- The fused shift row read at a column: the first normalisation's shift row in the left half, the shortcut's in the right half. -/
theorem V_v42_apply (n : Fin 256) :
    (V m c main_v42 : S1x256.Idx → EReal) (ix2 (0 : Fin 1) n)
      = if h : n.val < 128 then
          ((shiftRow (F := Ideal) (m ((c : Thread nD τ).loc main_arg3)) (m ((c : Thread nD τ).loc main_arg4)) (m ((c : Thread nD τ).loc main_arg2)) (m ((c : Thread nD τ).loc main_arg5)) : S1x128.Idx → EReal) (ix2 (0 : Fin 1) ⟨n.val, h⟩) : EReal)
        else ((shiftRow (F := Ideal) (m ((c : Thread nD τ).loc main_arg13)) (m ((c : Thread nD τ).loc main_arg14)) (m ((c : Thread nD τ).loc main_arg12)) (m ((c : Thread nD τ).loc main_arg15)) : S1x128.Idx → EReal) (ix2 (0 : Fin 1) ⟨n.val - 128, by omega⟩) : EReal) := by
  rw [V_v42 m c]
  refine (pairRow_apply concatenates_S128_S128_S256_d0 bcast_S256_S1x256_1 _ _ n).trans ?_
  split
  · unfold shiftRow
    exact (row_apply (by decide) _ _ _).symm
  · unfold shiftRow
    exact (row_apply (by decide) _ _ _).symm

/-! ## The fused weight matrix -/

/-- Over the extended reals a narrowing change of format is the identity. -/
theorem truncf_ideal {s : Shape} {φ ψ : FTy} (a : FVec Ideal s φ) (h : ψ.bits < φ.bits) :
    (truncf ψ a h : FVec Ideal s ψ) = a := rfl

/-- The start of the second block: row 256, column 128. -/
def blockStart : IVec S2 32 :=
  concatenate S2 0
    [⟨S1, broadcastInDim S1 ![] bcast_S_S1 (constantI S_ 32 256#32)⟩,
     ⟨S1, broadcastInDim S1 ![] bcast_S_S1 (constantI S_ 32 128#32)⟩]
    concatenates_S1_S1_S2_d0

/-- The fused weight matrix is a matrix of zeros with the first convolution's weight matrix set at column 0 and
    the shortcut's at row 256, column 128: the rounding to the narrow format is the identity over the extended
    reals. -/
theorem V_v37 : (V m c main_v37 : S576x256.Idx → EReal)
    = Host.scatter scatter_S576x256_S2_S64x128_01_n_01_0 (fun _ b => b)
        (Host.scatter scatter_S576x256_S1_S576x128_01_n_1_0 (fun _ b => b)
          (broadcastInDim S576x256 ![] bcast_S_S576x256 (constant S_ .f32 0x00000000#32 : FVec Ideal S_ .f32))
          (broadcastInDim S1 ![] bcast_S_S1 (constantI S_ 32 0#32))
          (w1Mat (F := Ideal) (m ((c : Thread nD τ).loc main_arg1))))
        blockStart
        (wdMat (F := Ideal) (m ((c : Thread nD τ).loc main_arg11))) := by
  dsimp only [V, V0]
  simp only [hostOps0, hostOps0_1, hostOps0_2, List.flatten_cons, List.flatten_nil, List.append_nil, List.cons_append,
    List.nil_append]
  after_results_simp
  rw [truncf_ideal]
  refine congr (congr (congrArg (Host.scatter scatter_S576x256_S2_S64x128_01_n_01_0 (fun _ b => b)) ?_) ?_) ?_
  · refine congr (congr (congrArg (Host.scatter scatter_S576x256_S1_S576x128_01_n_1_0 (fun _ b => b)) ?_) ?_) ?_
    · rfl
    · rfl
    · rfl
  · rfl
  · rfl

/-- The start of the second block reads 256 at its first entry. -/
theorem blockStart_0 (k : S2.Idx) (hk : (k 0).val = 0) : blockStart k = 256#32 := by
  unfold blockStart
  refine (concatenate_pair_apply_left 0 _ _ concatenates_S1_S1_S2_d0 k rfl (ix1 (0 : Fin 1)) fun b => ?_).trans rfl
  fin_cases b
  exact hk.symm

/-- The start of the second block reads 128 at its second entry. -/
theorem blockStart_1 (k : S2.Idx) (hk : (k 0).val = 1) : blockStart k = 128#32 := by
  unfold blockStart
  refine (concatenate_pair_apply_right 0 _ _ concatenates_S1_S1_S2_d0 k rfl rfl (ix1 (0 : Fin 1)) (fun b hb => ?_) ?_).trans rfl
  · fin_cases b
    exact absurd rfl hb
  · show (0 : ℕ) + 1 = (k 0).val
    omega

/-- The fused weight matrix read at an index: the first convolution's weight matrix in the left 128 columns; in the
    right 128 columns the shortcut's weight matrix on rows 256 to 319 — the centre tap's input channels — and zero
    elsewhere. -/
theorem V_v37_apply (k : Fin 576) (n : Fin 256) :
    (V m c main_v37 : S576x256.Idx → EReal) (ix2 k n)
      = if h : n.val < 128 then
          ((w1Mat (F := Ideal) (m ((c : Thread nD τ).loc main_arg1)) : S576x128.Idx → EReal) (ix2 k ⟨n.val, h⟩) : EReal)
        else if h2 : 256 ≤ k.val ∧ k.val < 320 then
          ((wdMat (F := Ideal) (m ((c : Thread nD τ).loc main_arg11)) : S64x128.Idx → EReal)
            (ix2 ⟨k.val - 256, by omega⟩ ⟨n.val - 128, by omega⟩) : EReal)
        else (0 : EReal) := by
  rw [V_v37 m c]
  have hz : ∀ q : S1.Idx, (broadcastInDim S1 ![] bcast_S_S1 (constantI S_ 32 0#32) : IVec S1 32) q = 0#32 := fun _ => rfl
  have i0 : ((ix2 k n : S576x256.Idx) 0).val = k.val := rfl
  have i1 : ((ix2 k n : S576x256.Idx) 1).val = n.val := rfl
  by_cases h : n.val < 128
  · rw [dif_pos h]
    refine (scatter_set_of_none _ _ _ _ _ fun j hj => ?_).trans ?_
    · have := (lands2 blockStart blockStart_0 blockStart_1 j _).1 hj
      omega
    · refine scatter_set_of_unique _ _ _ _ _ (ix2 k ⟨n.val, h⟩) ((lands1 _ hz _ _).2 ⟨rfl, rfl⟩) fun j' hj' => ?_
      have e := (lands1 _ hz j' _).1 hj'
      rw [eq_ix2 j']
      congr 1
      · exact Fin.ext (by show (j' 0).val = k.val; omega)
      · exact Fin.ext (by show (j' 1).val = n.val; omega)
  · rw [dif_neg h]
    by_cases h2 : 256 ≤ k.val ∧ k.val < 320
    · rw [dif_pos h2]
      refine scatter_set_of_unique _ _ _ _ _ (ix2 ⟨k.val - 256, by omega⟩ ⟨n.val - 128, by omega⟩)
        ((lands2 blockStart blockStart_0 blockStart_1 _ _).2
          ⟨by show k.val = 256 + (k.val - 256); omega, by show n.val = 128 + (n.val - 128); omega⟩) fun j' hj' => ?_
      have e := (lands2 blockStart blockStart_0 blockStart_1 j' _).1 hj'
      rw [eq_ix2 j']
      congr 1
      · exact Fin.ext (by show (j' 0).val = k.val - 256; omega)
      · exact Fin.ext (by show (j' 1).val = n.val - 128; omega)
    · rw [dif_neg h2]
      refine (scatter_set_of_none _ _ _ _ _ fun j hj => ?_).trans ?_
      · have e := (lands2 blockStart blockStart_0 blockStart_1 j _).1 hj
        have := (j 0).isLt
        have hj0 : (j 0).val < 64 := (j 0).isLt
        omega
      · refine (scatter_set_of_none _ _ _ _ _ fun j hj => ?_).trans ?_
        · have e := (lands1 _ hz j _).1 hj
          have hj1 : (j 1).val < 128 := (j 1).isLt
          omega
        · exact Ideal.ofBits_zero_f32

end AtIdeal

end Cert.KernelIdeal.HostValue

end
-- ==== Proof.RefRegion0.lean ====
/-
  Region 0 of the reference (the first launch): what one grid point leaves in its two output blocks, and what
  the launch leaves in the two output arrays, in the vocabulary of `Cert.Spec`.

  A grid point (image b, tile T) holds rows 7 T .. 7 T + 6 of the 28 output rows of image b. Its body fills a
  196 x 576 patch matrix by nine column slabs of 64 lanes, slab t being the 7 x 28 x 64 window of the image's
  phase stack at rows tapRow t + 7 T .., columns tapCol t .., flattened row-major to 196 x 64; so entry (r, k)
  of the matrix is the stack's entry (tapRow (k / 64) + 7 T + r / 28, tapCol (k / 64) + r mod 28, k mod 64).
  The first output is the product with the 576 x 128 weights, scaled, shifted and rectified; the second is the
  product of the centre tap's window (rows 87 + 7 T ..) with the 64 x 128 weights, scaled and shifted.
-/
import proofs.«109431_g2000702696857771_pallasbulk_1005_2_alg».proof.Proof.Gen.ReferenceIdeal.Frame
import proofs.«109431_g2000702696857771_pallasbulk_1005_2_alg».proof.Proof.Spec
import proofs.«109431_g2000702696857771_pallasbulk_1005_2_alg».proof.Proof.SpecRead
import Idealize.ShloMosaic.Lib.Pipeline.Value
import Idealize.ShloMosaic.Lib.Pipeline.FrameBody
import Idealize.ShloMosaic.Lib.ValueIdx
import Idealize.ShloMosaic.Lib.ValueLayout
import Idealize.ShloMosaic.PureOps.Ideal.Laws

set_option maxRecDepth 16384

noncomputable section

namespace Cert.ReferenceIdeal.RefValue0

open Idealize.ShloMosaic Idealize.ShloMosaic.TcCoe Idealize.ShloMosaic.Tactic Idealize.ShloMosaic.ValueIdx
open Idealize.SL Idealize.SL.Sem
open Cert.ReferenceIdeal Cert.ReferenceIdeal.Gen

/-! ## A matrix product into a zero accumulator, read at an index -/

/-- An m x k by k x n `tpu.matmul` into the zero splat, at (a, b), is the sum over the contracted coordinate c of
    the products A (a, c) * B (c, b). -/
theorem matmul_rows_cols_apply {m k n : Nat} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (⟨[1], [0], [0], [1], [], [], w⟩ : DotDims ⟨2, ![m, k]⟩ ⟨2, ![k, n]⟩ ⟨2, ![m, n]⟩) prec A B
        (constant (F := Ideal) ⟨2, ![m, n]⟩ .f32 0x00000000#32) (ix2 a b)
      = ∑ c : Fin k, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-! ## The layout operations of the body, read at an index -/

/-- A 1 x 7 x 28 x 64 window flattened to 196 x 64 (unit axis dropped, rows and columns merged row-major): entry
    (r, ci) is the window's entry (0, r / 28, r mod 28, ci). -/
theorem flat_apply {α : Type} (v : S1x7x28x64.Idx → α) (r : Fin 196) (ci : Fin 64) :
    shapeCast S196x64 (shapeCast S7x28x64 v shapeCasts_S1x7x28x64_S7x28x64) shapeCasts_S7x28x64_S196x64 (ix2 r ci)
      = v (ix4 (0 : Fin 1) (⟨r.val / 28, by have := r.isLt; omega⟩ : Fin 7) (⟨r.val % 28, Nat.mod_lt _ (by decide)⟩ : Fin 28) ci) := by
  refine (shapeCast_apply _ _ (ix2 r ci)
    (ix3 (⟨r.val / 28, by have := r.isLt; omega⟩ : Fin 7) (⟨r.val % 28, Nat.mod_lt _ (by decide)⟩ : Fin 28) ci) (by
      rw [Shape.rowMajor_val_three, Shape.rowMajor_val_two]
      show (r.val / 28 * 28 + r.val % 28) * 64 + ci.val = r.val * 64 + ci.val
      have := Nat.div_add_mod r.val 28
      omega)).trans ?_
  refine (shapeCast_apply _ _ _
    (ix4 (0 : Fin 1) (⟨r.val / 28, by have := r.isLt; omega⟩ : Fin 7) (⟨r.val % 28, Nat.mod_lt _ (by decide)⟩ : Fin 28) ci) (by
      rw [Shape.rowMajor_val_four, Shape.rowMajor_val_three]
      show ((0 * 7 + r.val / 28) * 28 + r.val % 28) * 64 + ci.val = (r.val / 28 * 28 + r.val % 28) * 64 + ci.val
      omega)).trans ?_
  rfl

/-- The same followed by the cast of the 196 x 64 matrix to its own shape (the form the slab stores take). -/
theorem tap_apply {α : Type} (v : S1x7x28x64.Idx → α) (r : Fin 196) (ci : Fin 64) :
    shapeCast S196x64 (shapeCast S196x64 (shapeCast S7x28x64 v shapeCasts_S1x7x28x64_S7x28x64) shapeCasts_S7x28x64_S196x64)
        shapeCasts_S196x64_S196x64 (ix2 r ci)
      = v (ix4 (0 : Fin 1) (⟨r.val / 28, by have := r.isLt; omega⟩ : Fin 7) (⟨r.val % 28, Nat.mod_lt _ (by decide)⟩ : Fin 28) ci) := by
  rw [shapeCast_self]
  exact flat_apply v r ci

/-- A 196 x 128 matrix viewed as a 1 x 7 x 28 x 128 block: entry (0, a, j, co) is the matrix's entry (28 a + j, co). -/
theorem block_apply {α : Type} (v : S196x128.Idx → α) (a : Fin 7) (j : Fin 28) (co : Fin 128) :
    shapeCast S1x7x28x128 (shapeCast S7x28x128 v shapeCasts_S196x128_S7x28x128) shapeCasts_S7x28x128_S1x7x28x128
        (ix4 (0 : Fin 1) a j co)
      = v (ix2 (⟨28 * a.val + j.val, by have := a.isLt; have := j.isLt; omega⟩ : Fin 196) co) := by
  refine (shapeCast_apply _ _ (ix4 (0 : Fin 1) a j co) (ix3 a j co) (by
      rw [Shape.rowMajor_val_three, Shape.rowMajor_val_four]
      show (a.val * 28 + j.val) * 128 + co.val = ((0 * 7 + a.val) * 28 + j.val) * 128 + co.val
      omega)).trans ?_
  refine (shapeCast_apply _ _ (ix3 a j co)
    (ix2 (⟨28 * a.val + j.val, by have := a.isLt; have := j.isLt; omega⟩ : Fin 196) co) (by
      rw [Shape.rowMajor_val_two, Shape.rowMajor_val_three]
      show (28 * a.val + j.val) * 128 + co.val = (a.val * 28 + j.val) * 128 + co.val
      omega)).trans ?_
  rfl

/-- A 1 x 128 row laid along each of 196 rows: entry (r, co) is the row's entry (0, co). -/
theorem row_apply {α : Type} (v : S1x128.Idx → α) (r : Fin 196) (co : Fin 128) :
    broadcastTo S196x128 (shapeCast S1x128 v shapeCasts_S1x128_S1x128) broadcasts_S1x128_S196x128 (ix2 r co)
      = v (ix2 (0 : Fin 1) co) := by
  rw [shapeCast_self]
  exact broadcastTo_apply _ _ (ix2 r co) (ix2 (0 : Fin 1) co) fun a => match a with
    | ⟨0, _⟩ => by show (0 : Nat) = if (1 : Nat) = 1 then 0 else r.val; rfl
    | ⟨1, _⟩ => by show co.val = if (128 : Nat) = 1 then 0 else co.val; rfl

/-! ## The body's arithmetic at an index -/

/-- The first product, scaled and shifted: entry (r, co) of the 196 x 128 result. -/
theorem pay13_apply (v83 : Vec Ideal S196x576 .f32) (v84 : Vec Ideal S576x128 .f32) (v87 v91 : Vec Ideal S1x128 .f32)
    (r : Fin 196) (co : Fin 128) :
    k0_pay13 (F := Ideal) v83 v84 v87 v91 (ix2 r co)
      = (∑ k : Fin 576, v83 (ix2 r k) * v84 (ix2 k co)) * v87 (ix2 (0 : Fin 1) co) + v91 (ix2 (0 : Fin 1) co) := by
  unfold k0_pay13
  show (matmul dot_S196x576_S576x128_S196x128_1_0_0_1_n_n none v83 (shapeCast S576x128 v84 shapeCasts_S576x128_S576x128)
        (constant (F := Ideal) S196x128 .f32 0x00000000#32)) (ix2 r co)
      * (broadcastTo S196x128 (shapeCast S1x128 v87 shapeCasts_S1x128_S1x128) broadcasts_S1x128_S196x128) (ix2 r co)
      + (broadcastTo S196x128 (shapeCast S1x128 v91 shapeCasts_S1x128_S1x128) broadcasts_S1x128_S196x128) (ix2 r co) = _
  rw [row_apply, row_apply, shapeCast_self]
  unfold dot_S196x576_S576x128_S196x128_1_0_0_1_n_n
  rw [matmul_rows_cols_apply]

/-- The rectifier and the view as a block: entry (0, a, j, co) of the first output. -/
theorem pay1_apply (v94 : FVec Ideal S196x128 .f32) (z : Ideal .f32) (a : Fin 7) (j : Fin 28) (co : Fin 128) :
    k0_pay1 (F := Ideal) v94 z (ix4 (0 : Fin 1) a j co)
      = max (v94 (ix2 (⟨28 * a.val + j.val, by have := a.isLt; have := j.isLt; omega⟩ : Fin 196) co)) z := by
  unfold k0_pay1
  refine (block_apply _ a j co).trans ?_
  rfl

/-- The projection of the centre tap's window, scaled and shifted: entry (0, a, j, co) of the second output. -/
theorem pay2_apply (v103 : Vec Ideal S1x7x28x64 .f32) (v106 : Vec Ideal S64x128 .f32) (v109 v113 : Vec Ideal S1x128 .f32)
    (a : Fin 7) (j : Fin 28) (co : Fin 128) :
    k0_pay2 (F := Ideal) v103 v106 v109 v113 (ix4 (0 : Fin 1) a j co)
      = (∑ ci : Fin 64, v103 (ix4 (0 : Fin 1) a j ci) * v106 (ix2 ci co)) * v109 (ix2 (0 : Fin 1) co) + v113 (ix2 (0 : Fin 1) co) := by
  unfold k0_pay2
  refine (block_apply _ a j co).trans ?_
  show (matmul dot_S196x64_S64x128_S196x128_1_0_0_1_n_n none
          (shapeCast S196x64 (shapeCast S7x28x64 v103 shapeCasts_S1x7x28x64_S7x28x64) shapeCasts_S7x28x64_S196x64)
          (shapeCast S64x128 v106 shapeCasts_S64x128_S64x128)
          (constant (F := Ideal) S196x128 .f32 0x00000000#32)) (ix2 (⟨28 * a.val + j.val, _⟩ : Fin 196) co)
      * (broadcastTo S196x128 (shapeCast S1x128 v109 shapeCasts_S1x128_S1x128) broadcasts_S1x128_S196x128) (ix2 (⟨28 * a.val + j.val, _⟩ : Fin 196) co)
      + (broadcastTo S196x128 (shapeCast S1x128 v113 shapeCasts_S1x128_S1x128) broadcasts_S1x128_S196x128) (ix2 (⟨28 * a.val + j.val, _⟩ : Fin 196) co) = _
  rw [row_apply, row_apply, shapeCast_self]
  unfold dot_S196x64_S64x128_S196x128_1_0_0_1_n_n
  rw [matmul_rows_cols_apply]
  refine congrArg (fun s => s * v109 (ix2 (0 : Fin 1) co) + v113 (ix2 (0 : Fin 1) co)) (Finset.sum_congr rfl fun ci _ => ?_)
  rw [flat_apply]
  refine congrArg (fun t => v103 t * v106 (ix2 ci co)) ?_
  have ha := a.isLt
  have hj := j.isLt
  funext ax
  match ax with
  | ⟨0, _⟩ => rfl
  | ⟨1, _⟩ => apply Fin.ext; show (28 * a.val + j.val) / 28 = a.val; omega
  | ⟨2, _⟩ => apply Fin.ext; show (28 * a.val + j.val) % 28 = j.val; omega
  | ⟨3, _⟩ => rfl

/-! ## The windows' offsets in closed form -/

theorem off1_0_0 : ∀ i : grid0.Coords, k0_off1 i 0#32 0#32 = ![0, 7 * (i 1).val + 0, 0, 0] := by decide +kernel
theorem off1_29_0 : ∀ i : grid0.Coords, k0_off1 i 29#32 0#32 = ![0, 7 * (i 1).val + 29, 0, 0] := by decide +kernel
theorem off1_58_0 : ∀ i : grid0.Coords, k0_off1 i 58#32 0#32 = ![0, 7 * (i 1).val + 58, 0, 0] := by decide +kernel
theorem off1_87_0 : ∀ i : grid0.Coords, k0_off1 i 87#32 0#32 = ![0, 7 * (i 1).val + 87, 0, 0] := by decide +kernel
theorem off1_0_1 : ∀ i : grid0.Coords, k0_off1 i 0#32 1#32 = ![0, 7 * (i 1).val + 1, 0, 0] := by decide +kernel
theorem off1_29_1 : ∀ i : grid0.Coords, k0_off1 i 29#32 1#32 = ![0, 7 * (i 1).val + 30, 0, 0] := by decide +kernel
theorem off2_0_0 : ∀ i : grid0.Coords, k0_off2 i 0#32 0#32 = ![0, 7 * (i 1).val + 0, 1, 0] := by decide +kernel
theorem off2_58_0 : ∀ i : grid0.Coords, k0_off2 i 58#32 0#32 = ![0, 7 * (i 1).val + 58, 1, 0] := by decide +kernel
theorem off2_0_1 : ∀ i : grid0.Coords, k0_off2 i 0#32 1#32 = ![0, 7 * (i 1).val + 1, 1, 0] := by decide +kernel

/-! ## The patch matrix -/

/-- Reading an array at equal natural-number coordinates. -/
theorem at4_congr {n0 n1 n2 n3 : Nat} (x : (⟨4, ![n0, n1, n2, n3]⟩ : Shape).Idx → EReal) {a b c d a' b' c' d' : ℕ}
    (ha : a = a') (hb : b = b') (hc : c = c') (hd : d = d') : Cert.Spec.at4 x a b c d = Cert.Spec.at4 x a' b' c' d' := by
  rw [ha, hb, hc, hd]

/-- Entry y = (r, k) of tile T's patch matrix: tap k / 64, input channel k mod 64, at the tile's local position r. -/
def patch (x0 : Vec Ideal S1x116x29x64 .f32) (T : ℕ) (y : S196x576.Idx) : EReal :=
  Cert.Spec.at4 x0 0 (Cert.Spec.tapRow ((y 1).val / 64) + (7 * T + (y 0).val / 28))
    (Cert.Spec.tapCol ((y 1).val / 64) + (y 0).val % 28) ((y 1).val % 64)

/-- The window of the stack at rows ro .., columns cf .., flattened to 196 x 64, at a local index. -/
theorem window_apply (arg2 : Memref sig .tc .vmem S1x116x29x64 .f32) (harg2 : arg2.IsWhole) (x0 : Vec Ideal S1x116x29x64 .f32)
    (off : Fin 4 → Nat) (inb : ∀ a, off a + S1x7x28x64.size a ≤ S1x116x29x64.size a) (ro cf : ℕ) (hoff : off = ![0, ro, cf, 0])
    (x : S196x64.Idx) :
    k0_pay3 (F := Ideal) (View.readAt (Elt Ideal) arg2.view (Rect.unit (s := S1x116x29x64) off S1x7x28x64.size inb).toLoadRect (harg2.unread x0)) x
      = Cert.Spec.at4 x0 0 (ro + (x 0).val / 28) (cf + (x 0).val % 28) (x 1).val := by
  subst hoff
  obtain ⟨r, ci, rfl⟩ : ∃ (r : Fin 196) (ci : Fin 64), x = ix2 r ci := ⟨x 0, x 1, eq_ix2 x⟩
  unfold k0_pay3
  refine (tap_apply _ r ci).trans ?_
  rw [View.readAt_eq_ld, harg2.read_unread]
  refine (Cert.Spec.at4_eq x0 _).trans ?_
  refine at4_congr x0 ?_ ?_ ?_ ?_
  · show 0 + 1 * 0 = 0; omega
  · show ro + 1 * (r.val / 28) = ro + r.val / 28; omega
  · show cf + 1 * (r.val % 28) = cf + r.val % 28; omega
  · show 0 + 1 * ci.val = ci.val; omega

/-- Slab t of the patch matrix (lanes 64 t .. 64 t + 63), stored from the window of tap t, is the patch matrix there. -/
theorem slab_apply (arg2 : Memref sig .tc .vmem S1x116x29x64 .f32) (harg2 : arg2.IsWhole) (x0 : Vec Ideal S1x116x29x64 .f32) (T : ℕ)
    (off : Fin 4 → Nat) (inb : ∀ a, off a + S1x7x28x64.size a ≤ S1x116x29x64.size a) (t : ℕ) (ht : t < 9)
    (hoff : off = ![0, 7 * T + Cert.Spec.tapRow t, Cert.Spec.tapCol t, 0])
    (lane : ℕ) (hlane : lane = 64 * t) (inb' : ∀ a, (![0, lane] : Fin 2 → Nat) a + S196x64.size a ≤ S196x576.size a)
    (x : S196x64.Idx) :
    k0_pay3 (F := Ideal) (View.readAt (Elt Ideal) arg2.view (Rect.unit (s := S1x116x29x64) off S1x7x28x64.size inb).toLoadRect (harg2.unread x0)) x
      = patch x0 T ((Rect.unit (s := S196x576) ![0, lane] S196x64.size inb').emb x) := by
  subst hlane
  have h0 : (x 0).val < 196 := (x 0).isLt
  have h1 : (x 1).val < 64 := (x 1).isLt
  refine (window_apply arg2 harg2 x0 off inb _ _ hoff x).trans ?_
  unfold patch
  have e1 : (64 * t + 1 * (x 1).val) / 64 = t := by omega
  have e2 : (64 * t + 1 * (x 1).val) % 64 = (x 1).val := by omega
  show _ = Cert.Spec.at4 x0 0 (Cert.Spec.tapRow ((64 * t + 1 * (x 1).val) / 64) + (7 * T + (0 + 1 * (x 0).val) / 28))
    (Cert.Spec.tapCol ((64 * t + 1 * (x 1).val) / 64) + (0 + 1 * (x 0).val) % 28) ((64 * t + 1 * (x 1).val) % 64)
  rw [e1, e2]
  refine at4_congr x0 rfl ?_ ?_ rfl
  · omega
  · omega

/-- The nine slab stores leave the patch matrix in the scratch buffer. -/
theorem scratch_apply (c : Dev nD) (i : grid0.Coords) (arg2 : Memref sig .tc .vmem S1x116x29x64 .f32) (harg2 : arg2.IsWhole)
    (x0 : Vec Ideal S1x116x29x64 .f32) (y : S196x576.Idx) :
    View.canon (kernelRun0_A.sl.HS0_9 (F := Ideal) c i arg2 harg2 x0) y = patch x0 (i 1).val y := by
  refine View.canon_apply_of_pieces (Val := Elt Ideal) (e := .f32) (patch x0 (i 1).val) _ ?_ y ?_
  · intro pc hpc x
    unfold kernelRun0_A.sl.HS0_9 at hpc
    rcases List.mem_cons.mp hpc with rfl | hpc
    · exact slab_apply arg2 harg2 x0 (i 1).val _ _ 8 (by decide) (off2_0_1 i) 512 rfl inb_S196x576_S196x64_0_512 x
    rcases List.mem_cons.mp hpc with rfl | hpc
    · exact slab_apply arg2 harg2 x0 (i 1).val _ _ 7 (by decide) (off1_29_1 i) 448 rfl inb_S196x576_S196x64_0_448 x
    rcases List.mem_cons.mp hpc with rfl | hpc
    · exact slab_apply arg2 harg2 x0 (i 1).val _ _ 6 (by decide) (off1_0_1 i) 384 rfl inb_S196x576_S196x64_0_384 x
    rcases List.mem_cons.mp hpc with rfl | hpc
    · exact slab_apply arg2 harg2 x0 (i 1).val _ _ 5 (by decide) (off2_58_0 i) 320 rfl inb_S196x576_S196x64_0_320 x
    rcases List.mem_cons.mp hpc with rfl | hpc
    · exact slab_apply arg2 harg2 x0 (i 1).val _ _ 4 (by decide) (off1_87_0 i) 256 rfl inb_S196x576_S196x64_0_256 x
    rcases List.mem_cons.mp hpc with rfl | hpc
    · exact slab_apply arg2 harg2 x0 (i 1).val _ _ 3 (by decide) (off1_58_0 i) 192 rfl inb_S196x576_S196x64_0_192 x
    rcases List.mem_cons.mp hpc with rfl | hpc
    · exact slab_apply arg2 harg2 x0 (i 1).val _ _ 2 (by decide) (off2_0_0 i) 128 rfl inb_S196x576_S196x64_0_128 x
    rcases List.mem_cons.mp hpc with rfl | hpc
    · exact slab_apply arg2 harg2 x0 (i 1).val _ _ 1 (by decide) (off1_29_0 i) 64 rfl inb_S196x576_S196x64_0_64 x
    rcases List.mem_cons.mp hpc with rfl | hpc
    · exact slab_apply arg2 harg2 x0 (i 1).val _ _ 0 (by decide) (off1_0_0 i) 0 rfl inb_S196x576_S196x64_0_0 x
    exact absurd hpc List.not_mem_nil
  · exact View.cover_of_tiledL (s := S196x576) (kernelRun0_A.sl.HS0_9 (F := Ideal) c i arg2 harg2 x0) S196x64.size (by sl_kernel_rfl) y

/-! ## The two output blocks of a grid point -/

theorem hz4 : (![0, 0, 0, 0] : Fin 4 → Nat) = fun _ => 0 := funext fun a => by fin_cases a <;> rfl

/-- An array at an index whose coordinates are known. -/
theorem at2_of_idx {n0 n1 : Nat} (x : (⟨2, ![n0, n1]⟩ : Shape).Idx → EReal) (y : (⟨2, ![n0, n1]⟩ : Shape).Idx) (a b : ℕ)
    (h0 : (y 0).val = a) (h1 : (y 1).val = b) : x y = Cert.Spec.at2 x a b := by
  subst h0 h1; exact Cert.Spec.at2_eq x y

theorem at4_of_idx {n0 n1 n2 n3 : Nat} (x : (⟨4, ![n0, n1, n2, n3]⟩ : Shape).Idx → EReal) (y : (⟨4, ![n0, n1, n2, n3]⟩ : Shape).Idx)
    (a b c d : ℕ) (h0 : (y 0).val = a) (h1 : (y 1).val = b) (h2 : (y 2).val = c) (h3 : (y 3).val = d) :
    x y = Cert.Spec.at4 x a b c d := by
  subst h0 h1 h2 h3; exact Cert.Spec.at4_eq x y

/-- The patch matrix at an index with coordinates (r, k). -/
theorem patch_eq (x0 : Vec Ideal S1x116x29x64 .f32) (T : ℕ) (y : S196x576.Idx) (r k : ℕ) (hr : (y 0).val = r) (hk : (y 1).val = k) :
    patch x0 T y = Cert.Spec.at4 x0 0 (Cert.Spec.tapRow (k / 64) + (7 * T + r / 28)) (Cert.Spec.tapCol (k / 64) + r % 28) (k % 64) := by
  subst hr hk; rfl

/-- The first output block of grid point i = (image, T): entry (0, a, j, co) is the rectified first convolution at
    output position (7 T + a, j), channel co. -/
theorem out0_7_apply (c : Dev nD) (i : grid0.Coords) (arg2 : Memref sig .tc .vmem S1x116x29x64 .f32) (harg2 : arg2.IsWhole) (arg3 : Memref sig .tc .vmem S576x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S64x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x7x28x128 .f32) (harg9 : arg9.IsWhole) (arg10 : Memref sig .tc .vmem S1x7x28x128 .f32) (harg10 : arg10.IsWhole) (arg11 : Memref sig .tc .vmem S196x576 .f32) (harg11 : arg11.IsWhole)
    (x0 : Vec Ideal S1x116x29x64 .f32) (x1 : Vec Ideal S576x128 .f32) (x2 x3 : Vec Ideal S1x128 .f32) (x4 : Vec Ideal S64x128 .f32) (x5 x6 : Vec Ideal S1x128 .f32) (a : Fin 7) (j : Fin 28) (co : Fin 128) :
    out0_A_7 (F := Ideal) c i arg2 harg2 arg3 harg3 arg4 harg4 arg5 harg5 arg6 harg6 arg7 harg7 arg8 harg8 arg9 harg9 arg10 harg10 arg11 harg11 x0 x1 x2 x3 x4 x5 x6 (ix4 (0 : Fin 1) a j co)
      = Cert.Spec.mainAct (fun p q ci => Cert.Spec.at4 x0 0 p q ci) (Cert.Spec.at2 x1) (Cert.Spec.at2 x2 0) (Cert.Spec.at2 x3 0)
          (28 * (7 * (i 1).val + a.val) + j.val) co.val := by
  have ha := a.isLt
  have hj := j.isLt
  unfold out0_A_7
  rw [View.read_writes_junk_eq_canon]
  unfold kernelRun0_A
  dsimp only
  rw [View.canon_unit_zero hz4]
  refine (pay1_apply _ _ a j co).trans ?_
  unfold kernelRun0_A.sl.r_1 kernelRun0_A.sl.cst_56
  rw [pay13_apply]
  unfold kernelRun0_A.sl.v83
  rw [View.readCov_eq_canon']
  simp only [scratch_apply, View.readAt_eq_ld, harg3.read_unread, harg4.read_unread, harg5.read_unread]
  unfold Cert.Spec.mainAct Cert.Spec.pre1 Cert.Spec.patch1
  refine congrArg₂ max ?_ Ideal.ofBits_zero_f32
  refine congrArg₂ (· + ·) (congrArg₂ (· * ·) (Finset.sum_congr rfl fun k _ => congrArg₂ (· * ·) ?_ ?_) ?_) ?_
  · refine (patch_eq x0 _ _ (28 * a.val + j.val) k.val ?_ ?_).trans (at4_congr x0 rfl ?_ ?_ rfl)
    · show 0 + 1 * (28 * a.val + j.val) = _; omega
    · show 0 + 1 * k.val = _; omega
    · omega
    · omega
  · exact at2_of_idx x1 _ _ _ (by show 0 + 1 * k.val = k.val; omega) (by show 0 + 1 * co.val = co.val; omega)
  · exact at2_of_idx x2 _ _ _ (by show 0 + 1 * 0 = 0; omega) (by show 0 + 1 * co.val = co.val; omega)
  · exact at2_of_idx x3 _ _ _ (by show 0 + 1 * 0 = 0; omega) (by show 0 + 1 * co.val = co.val; omega)

/-- The second output block of grid point i = (image, T): entry (0, a, j, co) is the projected, scaled and shifted
    centre tap at output position (7 T + a, j), channel co. -/
theorem out0_8_apply (c : Dev nD) (i : grid0.Coords) (arg2 : Memref sig .tc .vmem S1x116x29x64 .f32) (harg2 : arg2.IsWhole) (arg3 : Memref sig .tc .vmem S576x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S64x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x7x28x128 .f32) (harg9 : arg9.IsWhole) (arg10 : Memref sig .tc .vmem S1x7x28x128 .f32) (harg10 : arg10.IsWhole) (arg11 : Memref sig .tc .vmem S196x576 .f32) (harg11 : arg11.IsWhole)
    (x0 : Vec Ideal S1x116x29x64 .f32) (x1 : Vec Ideal S576x128 .f32) (x2 x3 : Vec Ideal S1x128 .f32) (x4 : Vec Ideal S64x128 .f32) (x5 x6 : Vec Ideal S1x128 .f32) (a : Fin 7) (j : Fin 28) (co : Fin 128) :
    out0_A_8 (F := Ideal) c i arg2 harg2 arg3 harg3 arg4 harg4 arg5 harg5 arg6 harg6 arg7 harg7 arg8 harg8 arg9 harg9 arg10 harg10 arg11 harg11 x0 x1 x2 x3 x4 x5 x6 (ix4 (0 : Fin 1) a j co)
      = Cert.Spec.shortcut (fun p q ci => Cert.Spec.at4 x0 0 p q ci) (Cert.Spec.at2 x4) (Cert.Spec.at2 x5 0) (Cert.Spec.at2 x6 0)
          (28 * (7 * (i 1).val + a.val) + j.val) co.val := by
  have ha := a.isLt
  have hj := j.isLt
  have hrow : k0_off3 i 1 = 7 * (i 1).val + 87 := congrFun (k0_off3_eq i) 1
  have hcol : k0_off3 i 2 = 0 := congrFun (k0_off3_eq i) 2
  have hch : k0_off3 i 3 = 0 := congrFun (k0_off3_eq i) 3
  have himg : k0_off3 i 0 = 0 := congrFun (k0_off3_eq i) 0
  unfold out0_A_8
  rw [View.read_writes_junk_eq_canon]
  unfold kernelRun0_A
  dsimp only
  rw [View.canon_unit_zero hz4]
  refine (pay2_apply _ _ _ _ a j co).trans ?_
  simp only [View.readAt_eq_ld, harg2.read_unread, harg6.read_unread, harg7.read_unread, harg8.read_unread]
  unfold Cert.Spec.shortcut
  refine congrArg₂ (· + ·) (congrArg₂ (· * ·) (Finset.sum_congr rfl fun ci _ => congrArg₂ (· * ·) ?_ ?_) ?_) ?_
  · refine at4_of_idx x0 _ _ _ _ _ ?_ ?_ ?_ ?_
    · show k0_off3 i 0 + 1 * 0 = 0; omega
    · show k0_off3 i 1 + 1 * a.val = 87 + (28 * (7 * (i 1).val + a.val) + j.val) / 28; omega
    · show k0_off3 i 2 + 1 * j.val = (28 * (7 * (i 1).val + a.val) + j.val) % 28; omega
    · show k0_off3 i 3 + 1 * ci.val = ci.val; omega
  · exact at2_of_idx x4 _ _ _ (by show 0 + 1 * ci.val = ci.val; omega) (by show 0 + 1 * co.val = co.val; omega)
  · exact at2_of_idx x5 _ _ _ (by show 0 + 1 * 0 = 0; omega) (by show 0 + 1 * co.val = co.val; omega)
  · exact at2_of_idx x6 _ _ _ (by show 0 + 1 * 0 = 0; omega) (by show 0 + 1 * co.val = co.val; omega)

/-! ## From the blocks to the arrays -/

section Arrays

variable (V : (c : Dev nD) → (b : Ref sig .tc) → Buf (Elt Ideal) ((c : Thread nD τ).loc b))

/-- The windows' index maps over the grid: the image's block of the phase stack and the two outputs' blocks follow
    the grid point (image, tile); every other window is one whole block. -/
theorem idx_facts : ∀ t : Fin cfg0.N,
    win0_0.index t (0 : Fin 4) = (grid0.coords t 0).val ∧ win0_0.index t (1 : Fin 4) = 0
    ∧ win0_0.index t (2 : Fin 4) = 0 ∧ win0_0.index t (3 : Fin 4) = 0
    ∧ win0_7.index t (0 : Fin 4) = (grid0.coords t 0).val ∧ win0_7.index t (1 : Fin 4) = (grid0.coords t 1).val
    ∧ win0_7.index t (2 : Fin 4) = 0 ∧ win0_7.index t (3 : Fin 4) = 0
    ∧ win0_8.index t (0 : Fin 4) = (grid0.coords t 0).val ∧ win0_8.index t (1 : Fin 4) = (grid0.coords t 1).val
    ∧ win0_8.index t (2 : Fin 4) = 0 ∧ win0_8.index t (3 : Fin 4) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

/-- Every (image, tile) is some grid point. -/
theorem idx_onto : ∀ (b : Fin 32) (T : Fin 4), ∃ t : Fin cfg0.N, (grid0.coords t 0).val = b.val ∧ (grid0.coords t 1).val = T.val :=
  (by decide +kernel : ∀ (b : Fin 32) (T : Fin 4), ∃ t : Fin grid0.N, (grid0.coords t 0).val = b.val ∧ (grid0.coords t 1).val = T.val)

/-- The image's block of the phase stack at a grid point, read at natural-number coordinates: the stack of that
    image (both sides vanish outside the extents 116 x 29 x 64). -/
theorem iblk_stack (c : Dev nD) (t : Fin cfg0.N) (p q ci : ℕ) :
    Cert.Spec.at4 (iblk0 V c 0 t : S1x116x29x64.Idx → EReal) 0 p q ci
      = Cert.Spec.at4 (V c main_v32 : S32x116x29x64.Idx → EReal) (grid0.coords t 0).val p q ci := by
  have f := idx_facts t
  have hb : (grid0.coords t 0).val < 32 := (grid0.coords t 0).isLt
  by_cases h : p < 116 ∧ q < 29 ∧ ci < 64
  · rw [Cert.Spec.at4_of_lt _ Nat.one_pos h.1 h.2.1 h.2.2, Cert.Spec.at4_of_lt _ hb h.1 h.2.1 h.2.2]
    unfold iblk0
    rw [View.read_apply]
    show V c main_v32 _ = V c main_v32 _
    congr 1; funext a; apply Fin.ext
    match a with
    | ⟨0, _⟩ => show win0_0.index t (0 : Fin 4) * 1 + 1 * 0 = (grid0.coords t 0).val; omega
    | ⟨1, _⟩ => show win0_0.index t (1 : Fin 4) * 116 + 1 * p = p; omega
    | ⟨2, _⟩ => show win0_0.index t (2 : Fin 4) * 29 + 1 * q = q; omega
    | ⟨3, _⟩ => show win0_0.index t (3 : Fin 4) * 64 + 1 * ci = ci; omega
  · unfold Cert.Spec.at4
    rw [dif_neg (fun hh => h ⟨hh.2.1, hh.2.2.1, hh.2.2.2⟩), dif_neg (fun hh => h ⟨hh.2.1, hh.2.2.1, hh.2.2.2⟩)]

/-! Every other input window is one block, the whole array. -/

theorem iblk_1 (c : Dev nD) (t : Fin cfg0.N) : (iblk0 V c 1 t : S576x128.Idx → EReal) = (V c main_v33 : S576x128.Idx → EReal) := by
  have f := idx_facts t
  funext y
  unfold iblk0
  rw [View.read_apply]
  show V c main_v33 _ = V c main_v33 y
  congr 1; funext a; apply Fin.ext
  match a with
  | ⟨0, _⟩ => show win0_1.index t (0 : Fin 2) * 576 + 1 * (y 0).val = (y 0).val; omega
  | ⟨1, _⟩ => show win0_1.index t (1 : Fin 2) * 128 + 1 * (y 1).val = (y 1).val; omega

theorem iblk_2 (c : Dev nD) (t : Fin cfg0.N) : (iblk0 V c 2 t : S1x128.Idx → EReal) = (V c main_v8 : S1x128.Idx → EReal) := by
  have f := idx_facts t
  funext y
  unfold iblk0
  rw [View.read_apply]
  show V c main_v8 _ = V c main_v8 y
  congr 1; funext a; apply Fin.ext
  match a with
  | ⟨0, _⟩ => show win0_2.index t (0 : Fin 2) * 1 + 1 * (y 0).val = (y 0).val; omega
  | ⟨1, _⟩ => show win0_2.index t (1 : Fin 2) * 128 + 1 * (y 1).val = (y 1).val; omega

theorem iblk_3 (c : Dev nD) (t : Fin cfg0.N) : (iblk0 V c 3 t : S1x128.Idx → EReal) = (V c main_v9 : S1x128.Idx → EReal) := by
  have f := idx_facts t
  funext y
  unfold iblk0
  rw [View.read_apply]
  show V c main_v9 _ = V c main_v9 y
  congr 1; funext a; apply Fin.ext
  match a with
  | ⟨0, _⟩ => show win0_3.index t (0 : Fin 2) * 1 + 1 * (y 0).val = (y 0).val; omega
  | ⟨1, _⟩ => show win0_3.index t (1 : Fin 2) * 128 + 1 * (y 1).val = (y 1).val; omega

theorem iblk_4 (c : Dev nD) (t : Fin cfg0.N) : (iblk0 V c 4 t : S64x128.Idx → EReal) = (V c main_v20 : S64x128.Idx → EReal) := by
  have f := idx_facts t
  funext y
  unfold iblk0
  rw [View.read_apply]
  show V c main_v20 _ = V c main_v20 y
  congr 1; funext a; apply Fin.ext
  match a with
  | ⟨0, _⟩ => show win0_4.index t (0 : Fin 2) * 64 + 1 * (y 0).val = (y 0).val; omega
  | ⟨1, _⟩ => show win0_4.index t (1 : Fin 2) * 128 + 1 * (y 1).val = (y 1).val; omega

theorem iblk_5 (c : Dev nD) (t : Fin cfg0.N) : (iblk0 V c 5 t : S1x128.Idx → EReal) = (V c main_v27 : S1x128.Idx → EReal) := by
  have f := idx_facts t
  funext y
  unfold iblk0
  rw [View.read_apply]
  show V c main_v27 _ = V c main_v27 y
  congr 1; funext a; apply Fin.ext
  match a with
  | ⟨0, _⟩ => show win0_5.index t (0 : Fin 2) * 1 + 1 * (y 0).val = (y 0).val; omega
  | ⟨1, _⟩ => show win0_5.index t (1 : Fin 2) * 128 + 1 * (y 1).val = (y 1).val; omega

theorem iblk_6 (c : Dev nD) (t : Fin cfg0.N) : (iblk0 V c 6 t : S1x128.Idx → EReal) = (V c main_v28 : S1x128.Idx → EReal) := by
  have f := idx_facts t
  funext y
  unfold iblk0
  rw [View.read_apply]
  show V c main_v28 _ = V c main_v28 y
  congr 1; funext a; apply Fin.ext
  match a with
  | ⟨0, _⟩ => show win0_6.index t (0 : Fin 2) * 1 + 1 * (y 0).val = (y 0).val; omega
  | ⟨1, _⟩ => show win0_6.index t (1 : Fin 2) * 128 + 1 * (y 1).val = (y 1).val; omega

/-- What the first output array ends holding, as one function of its index (b, oh, ow, co). -/
def G7 (c : Dev nD) : S32x28x28x128.Idx → EReal := fun y =>
  Cert.Spec.mainAct (fun p q ci => Cert.Spec.at4 (V c main_v32 : S32x116x29x64.Idx → EReal) (y 0).val p q ci)
    (Cert.Spec.at2 (V c main_v33 : S576x128.Idx → EReal)) (Cert.Spec.at2 (V c main_v8 : S1x128.Idx → EReal) 0)
    (Cert.Spec.at2 (V c main_v9 : S1x128.Idx → EReal) 0) (28 * (y 1).val + (y 2).val) (y 3).val

/-- What the second output array ends holding. -/
def G8 (c : Dev nD) : S32x28x28x128.Idx → EReal := fun y =>
  Cert.Spec.shortcut (fun p q ci => Cert.Spec.at4 (V c main_v32 : S32x116x29x64.Idx → EReal) (y 0).val p q ci)
    (Cert.Spec.at2 (V c main_v20 : S64x128.Idx → EReal)) (Cert.Spec.at2 (V c main_v27 : S1x128.Idx → EReal) 0)
    (Cert.Spec.at2 (V c main_v28 : S1x128.Idx → EReal) 0) (28 * (y 1).val + (y 2).val) (y 3).val

/-- The first output block of point t is the block of `G7` at (image, rows 7 T .. 7 T + 6). -/
theorem block7 (c : Dev nD) (t : Fin cfg0.N) (y : S1x7x28x128.Idx) :
    out0_A_7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (iblk0 V c 0 t) (iblk0 V c 1 t) (iblk0 V c 2 t) (iblk0 V c 3 t) (iblk0 V c 4 t) (iblk0 V c 5 t) (iblk0 V c 6 t) y
      = G7 V c (ix4 (⟨(grid0.coords t 0).val, (grid0.coords t 0).isLt⟩ : Fin 32)
          (⟨7 * (grid0.coords t 1).val + (y 1).val, by have h1 : (grid0.coords t 1).val < 4 := (grid0.coords t 1).isLt; have h2 : (y 1).val < 7 := (y 1).isLt; omega⟩ : Fin 28)
          (⟨(y 2).val, (y 2).isLt⟩ : Fin 28) (⟨(y 3).val, (y 3).isLt⟩ : Fin 128)) := by
  obtain ⟨z, a, j, co, rfl⟩ : ∃ (z : Fin 1) (a : Fin 7) (j : Fin 28) (co : Fin 128), y = ix4 z a j co := ⟨y 0, y 1, y 2, y 3, eq_ix4 y⟩
  obtain rfl : z = 0 := Subsingleton.elim _ _
  refine (out0_7_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (iblk0 V c 0 t) (iblk0 V c 1 t) (iblk0 V c 2 t) (iblk0 V c 3 t) (iblk0 V c 4 t) (iblk0 V c 5 t) (iblk0 V c 6 t) a j co).trans ?_
  unfold G7
  show Cert.Spec.mainAct (fun p q ci => Cert.Spec.at4 (iblk0 V c 0 t : S1x116x29x64.Idx → EReal) 0 p q ci)
      (Cert.Spec.at2 (iblk0 V c 1 t : S576x128.Idx → EReal)) (Cert.Spec.at2 (iblk0 V c 2 t : S1x128.Idx → EReal) 0)
      (Cert.Spec.at2 (iblk0 V c 3 t : S1x128.Idx → EReal) 0) (28 * (7 * (grid0.coords t 1).val + a.val) + j.val) co.val
    = Cert.Spec.mainAct (fun p q ci => Cert.Spec.at4 (V c main_v32 : S32x116x29x64.Idx → EReal) (grid0.coords t 0).val p q ci)
      (Cert.Spec.at2 (V c main_v33 : S576x128.Idx → EReal)) (Cert.Spec.at2 (V c main_v8 : S1x128.Idx → EReal) 0)
      (Cert.Spec.at2 (V c main_v9 : S1x128.Idx → EReal) 0) (28 * (7 * (grid0.coords t 1).val + a.val) + j.val) co.val
  rw [iblk_1 V c t, iblk_2 V c t, iblk_3 V c t]
  exact congrArg (fun X => Cert.Spec.mainAct X (Cert.Spec.at2 (V c main_v33 : S576x128.Idx → EReal)) (Cert.Spec.at2 (V c main_v8 : S1x128.Idx → EReal) 0)
      (Cert.Spec.at2 (V c main_v9 : S1x128.Idx → EReal) 0) (28 * (7 * (grid0.coords t 1).val + a.val) + j.val) co.val)
    (funext fun p => funext fun q => funext fun ci => iblk_stack V c t p q ci)

/-- What point t writes back of the first output is its block of `G7`. -/
theorem flushed7_eq (c : Dev nD) (t : Fin cfg0.N) (hf : (cfg0.win 7).flush t = true) :
    (dat0 (F := Ideal) V c).flushed 7 t = ((cfg0.win 7).blk t).view.read (Elt Ideal) (G7 V c) := by
  have f := idx_facts t
  show (cfg0.win 7).cut (grid0.coords t) ((dat0 (F := Ideal) V c).after 7 t) = _
  rw [after0_7]
  unfold outsAt0
  dsimp only
  funext y
  rw [View.read_apply]
  show out0_A_7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (iblk0 V c 0 t) (iblk0 V c 1 t) (iblk0 V c 2 t) (iblk0 V c 3 t) (iblk0 V c 4 t) (iblk0 V c 5 t) (iblk0 V c 6 t) y = G7 V c (((cfg0.win 7).blk t).view.emb y)
  refine (block7 V c t y).trans (congrArg (G7 V c) ?_)
  funext a; apply Fin.ext
  match a with
  | ⟨0, _⟩ => show (grid0.coords t 0).val = win0_7.index t (0 : Fin 4) * 1 + 1 * (y 0).val; have h0 : (y 0).val < 1 := (y 0).isLt; omega
  | ⟨1, _⟩ => show 7 * (grid0.coords t 1).val + (y 1).val = win0_7.index t (1 : Fin 4) * 7 + 1 * (y 1).val; omega
  | ⟨2, _⟩ => show (y 2).val = win0_7.index t (2 : Fin 4) * 28 + 1 * (y 2).val; omega
  | ⟨3, _⟩ => show (y 3).val = win0_7.index t (3 : Fin 4) * 128 + 1 * (y 3).val; omega

/-- An index of the first output array lies in point t's block iff each coordinate lies in the block's range. -/
theorem mem_blk7 (t : Fin cfg0.N) (i : S32x28x28x128.Idx) :
    i ∈ ((cfg0.win 7).blk t).view.set ↔ ∀ a : Fin 4, win0_7.index t a * S1x7x28x128.size a ≤ (i a).val
      ∧ (i a).val < win0_7.index t a * S1x7x28x128.size a + S1x7x28x128.size a := by
  show i ∈ ((View.whole main_v34_0).slice (win0_7.rect t)).set ↔ _
  rw [View.set_slice_whole, Rect.mem_set_unit]
  exact Iff.rfl

/-- The blocks of the grid's points cover the first output array: (b, oh, ·, ·) lies in the block of (b, oh / 7). -/
theorem cover7 (i : S32x28x28x128.Idx) : ∃ t : Fin cfg0.N, (cfg0.win 7).flush t = true ∧ i ∈ ((cfg0.win 7).blk t).view.set := by
  have h0 : (i 0).val < 32 := (i 0).isLt
  have h1 : (i 1).val < 28 := (i 1).isLt
  have h2 : (i 2).val < 28 := (i 2).isLt
  have h3 : (i 3).val < 128 := (i 3).isLt
  obtain ⟨t, ht0, ht1⟩ := idx_onto ⟨(i 0).val, h0⟩ ⟨(i 1).val / 7, by omega⟩
  have f := idx_facts t
  have ht0' : (grid0.coords t 0).val = (i 0).val := ht0
  have ht1' : (grid0.coords t 1).val = (i 1).val / 7 := ht1
  refine ⟨t, flush0_7 t, ?_⟩
  rw [mem_blk7]
  intro a
  match a with
  | ⟨0, _⟩ => show win0_7.index t (0 : Fin 4) * 1 ≤ (i 0).val ∧ (i 0).val < win0_7.index t (0 : Fin 4) * 1 + 1; omega
  | ⟨1, _⟩ => show win0_7.index t (1 : Fin 4) * 7 ≤ (i 1).val ∧ (i 1).val < win0_7.index t (1 : Fin 4) * 7 + 7; omega
  | ⟨2, _⟩ => show win0_7.index t (2 : Fin 4) * 28 ≤ (i 2).val ∧ (i 2).val < win0_7.index t (2 : Fin 4) * 28 + 28; omega
  | ⟨3, _⟩ => show win0_7.index t (3 : Fin 4) * 128 ≤ (i 3).val ∧ (i 3).val < win0_7.index t (3 : Fin 4) * 128 + 128; omega

/-- The first output array after the launch: the rectified first convolution of each image, position by position. -/
theorem arr0_7 (c : Dev nD) (b : Fin 32) (oh ow : Fin 28) (co : Fin 128) :
    ((dat0 (F := Ideal) V c).arrAt 7 cfg0.N : S32x28x28x128.Idx → EReal) (ix4 b oh ow co)
      = Cert.Spec.mainAct (fun p q ci => Cert.Spec.at4 (V c main_v32 : S32x116x29x64.Idx → EReal) b.val p q ci)
          (Cert.Spec.at2 (V c main_v33 : S576x128.Idx → EReal)) (Cert.Spec.at2 (V c main_v8 : S1x128.Idx → EReal) 0)
          (Cert.Spec.at2 (V c main_v9 : S1x128.Idx → EReal) 0) (28 * oh.val + ow.val) co.val := by
  have h := (dat0 (F := Ideal) V c).arrAt_eq_of_cover 7 (G7 V c) (flushed7_eq V c) (cover7)
  rw [h]
  rfl

/-- The second output block of point t is the block of `G8` at (image, rows 7 T .. 7 T + 6). -/
theorem block8 (c : Dev nD) (t : Fin cfg0.N) (y : S1x7x28x128.Idx) :
    out0_A_8 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (iblk0 V c 0 t) (iblk0 V c 1 t) (iblk0 V c 2 t) (iblk0 V c 3 t) (iblk0 V c 4 t) (iblk0 V c 5 t) (iblk0 V c 6 t) y
      = G8 V c (ix4 (⟨(grid0.coords t 0).val, (grid0.coords t 0).isLt⟩ : Fin 32)
          (⟨7 * (grid0.coords t 1).val + (y 1).val, by have h1 : (grid0.coords t 1).val < 4 := (grid0.coords t 1).isLt; have h2 : (y 1).val < 7 := (y 1).isLt; omega⟩ : Fin 28)
          (⟨(y 2).val, (y 2).isLt⟩ : Fin 28) (⟨(y 3).val, (y 3).isLt⟩ : Fin 128)) := by
  obtain ⟨z, a, j, co, rfl⟩ : ∃ (z : Fin 1) (a : Fin 7) (j : Fin 28) (co : Fin 128), y = ix4 z a j co := ⟨y 0, y 1, y 2, y 3, eq_ix4 y⟩
  obtain rfl : z = 0 := Subsingleton.elim _ _
  refine (out0_8_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (iblk0 V c 0 t) (iblk0 V c 1 t) (iblk0 V c 2 t) (iblk0 V c 3 t) (iblk0 V c 4 t) (iblk0 V c 5 t) (iblk0 V c 6 t) a j co).trans ?_
  unfold G8
  show Cert.Spec.shortcut (fun p q ci => Cert.Spec.at4 (iblk0 V c 0 t : S1x116x29x64.Idx → EReal) 0 p q ci)
      (Cert.Spec.at2 (iblk0 V c 4 t : S64x128.Idx → EReal)) (Cert.Spec.at2 (iblk0 V c 5 t : S1x128.Idx → EReal) 0)
      (Cert.Spec.at2 (iblk0 V c 6 t : S1x128.Idx → EReal) 0) (28 * (7 * (grid0.coords t 1).val + a.val) + j.val) co.val
    = Cert.Spec.shortcut (fun p q ci => Cert.Spec.at4 (V c main_v32 : S32x116x29x64.Idx → EReal) (grid0.coords t 0).val p q ci)
      (Cert.Spec.at2 (V c main_v20 : S64x128.Idx → EReal)) (Cert.Spec.at2 (V c main_v27 : S1x128.Idx → EReal) 0)
      (Cert.Spec.at2 (V c main_v28 : S1x128.Idx → EReal) 0) (28 * (7 * (grid0.coords t 1).val + a.val) + j.val) co.val
  rw [iblk_4 V c t, iblk_5 V c t, iblk_6 V c t]
  exact congrArg (fun X => Cert.Spec.shortcut X (Cert.Spec.at2 (V c main_v20 : S64x128.Idx → EReal)) (Cert.Spec.at2 (V c main_v27 : S1x128.Idx → EReal) 0)
      (Cert.Spec.at2 (V c main_v28 : S1x128.Idx → EReal) 0) (28 * (7 * (grid0.coords t 1).val + a.val) + j.val) co.val)
    (funext fun p => funext fun q => funext fun ci => iblk_stack V c t p q ci)

/-- What point t writes back of the second output is its block of `G8`. -/
theorem flushed8_eq (c : Dev nD) (t : Fin cfg0.N) (hf : (cfg0.win 8).flush t = true) :
    (dat0 (F := Ideal) V c).flushed 8 t = ((cfg0.win 8).blk t).view.read (Elt Ideal) (G8 V c) := by
  have f := idx_facts t
  show (cfg0.win 8).cut (grid0.coords t) ((dat0 (F := Ideal) V c).after 8 t) = _
  rw [after0_8]
  unfold outsAt0
  dsimp only
  funext y
  rw [View.read_apply]
  show out0_A_8 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (iblk0 V c 0 t) (iblk0 V c 1 t) (iblk0 V c 2 t) (iblk0 V c 3 t) (iblk0 V c 4 t) (iblk0 V c 5 t) (iblk0 V c 6 t) y = G8 V c (((cfg0.win 8).blk t).view.emb y)
  refine (block8 V c t y).trans (congrArg (G8 V c) ?_)
  funext a; apply Fin.ext
  match a with
  | ⟨0, _⟩ => show (grid0.coords t 0).val = win0_8.index t (0 : Fin 4) * 1 + 1 * (y 0).val; have h0 : (y 0).val < 1 := (y 0).isLt; omega
  | ⟨1, _⟩ => show 7 * (grid0.coords t 1).val + (y 1).val = win0_8.index t (1 : Fin 4) * 7 + 1 * (y 1).val; omega
  | ⟨2, _⟩ => show (y 2).val = win0_8.index t (2 : Fin 4) * 28 + 1 * (y 2).val; omega
  | ⟨3, _⟩ => show (y 3).val = win0_8.index t (3 : Fin 4) * 128 + 1 * (y 3).val; omega

/-- An index of the second output array lies in point t's block iff each coordinate lies in the block's range. -/
theorem mem_blk8 (t : Fin cfg0.N) (i : S32x28x28x128.Idx) :
    i ∈ ((cfg0.win 8).blk t).view.set ↔ ∀ a : Fin 4, win0_8.index t a * S1x7x28x128.size a ≤ (i a).val
      ∧ (i a).val < win0_8.index t a * S1x7x28x128.size a + S1x7x28x128.size a := by
  show i ∈ ((View.whole main_v34_1).slice (win0_8.rect t)).set ↔ _
  rw [View.set_slice_whole, Rect.mem_set_unit]
  exact Iff.rfl

/-- The blocks of the grid's points cover the second output array: (b, oh, ·, ·) lies in the block of (b, oh / 7). -/
theorem cover8 (i : S32x28x28x128.Idx) : ∃ t : Fin cfg0.N, (cfg0.win 8).flush t = true ∧ i ∈ ((cfg0.win 8).blk t).view.set := by
  have h0 : (i 0).val < 32 := (i 0).isLt
  have h1 : (i 1).val < 28 := (i 1).isLt
  have h2 : (i 2).val < 28 := (i 2).isLt
  have h3 : (i 3).val < 128 := (i 3).isLt
  obtain ⟨t, ht0, ht1⟩ := idx_onto ⟨(i 0).val, h0⟩ ⟨(i 1).val / 7, by omega⟩
  have f := idx_facts t
  have ht0' : (grid0.coords t 0).val = (i 0).val := ht0
  have ht1' : (grid0.coords t 1).val = (i 1).val / 7 := ht1
  refine ⟨t, flush0_8 t, ?_⟩
  rw [mem_blk8]
  intro a
  match a with
  | ⟨0, _⟩ => show win0_8.index t (0 : Fin 4) * 1 ≤ (i 0).val ∧ (i 0).val < win0_8.index t (0 : Fin 4) * 1 + 1; omega
  | ⟨1, _⟩ => show win0_8.index t (1 : Fin 4) * 7 ≤ (i 1).val ∧ (i 1).val < win0_8.index t (1 : Fin 4) * 7 + 7; omega
  | ⟨2, _⟩ => show win0_8.index t (2 : Fin 4) * 28 ≤ (i 2).val ∧ (i 2).val < win0_8.index t (2 : Fin 4) * 28 + 28; omega
  | ⟨3, _⟩ => show win0_8.index t (3 : Fin 4) * 128 ≤ (i 3).val ∧ (i 3).val < win0_8.index t (3 : Fin 4) * 128 + 128; omega

/-- The second output array after the launch: the scaled and shifted projection of each image's centre tap, position by position. -/
theorem arr0_8 (c : Dev nD) (b : Fin 32) (oh ow : Fin 28) (co : Fin 128) :
    ((dat0 (F := Ideal) V c).arrAt 8 cfg0.N : S32x28x28x128.Idx → EReal) (ix4 b oh ow co)
      = Cert.Spec.shortcut (fun p q ci => Cert.Spec.at4 (V c main_v32 : S32x116x29x64.Idx → EReal) b.val p q ci)
          (Cert.Spec.at2 (V c main_v20 : S64x128.Idx → EReal)) (Cert.Spec.at2 (V c main_v27 : S1x128.Idx → EReal) 0)
          (Cert.Spec.at2 (V c main_v28 : S1x128.Idx → EReal) 0) (28 * oh.val + ow.val) co.val := by
  have h := (dat0 (F := Ideal) V c).arrAt_eq_of_cover 8 (G8 V c) (flushed8_eq V c) (cover8)
  rw [h]
  rfl

end Arrays

end Cert.ReferenceIdeal.RefValue0

end
-- ==== Proof.RefRegion1.lean ====
/-
  The second launch of the two-launch form, region 1: the 3 x 3 unit-stride convolution over the bordered
  30 x 30 x 128 activation, scaled, shifted, added to the residual and rectified.

  A grid point (image, tile T of 7 output rows) builds a 196 x 1152 patch matrix: row r = 28 a + j is output
  position (7 T + a, j) of the image, column k = 128 t + ch is channel ch of tap t = 3 kh + kw, the entry the
  bordered input at (7 T + a + kh, j + kw, ch). Nine column slabs of 128 columns, one per tap, fill it; the
  product with the 1152 x 128 weights, the scale, the shift, the residual tile and the rectifier give the tile of
  the output. Read at an index this is the specification's second stage `Cert.Spec.out2`.
-/
import proofs.«109431_g2000702696857771_pallasbulk_1005_2_alg».proof.Proof.Gen.ReferenceIdeal.Frame
import proofs.«109431_g2000702696857771_pallasbulk_1005_2_alg».proof.Proof.Spec
import proofs.«109431_g2000702696857771_pallasbulk_1005_2_alg».proof.Proof.SpecRead
import proofs.«109431_g2000702696857771_pallasbulk_1005_2_alg».proof.Proof.LibPlainDot
import Idealize.ShloMosaic.Lib.Pipeline.Value
import Idealize.ShloMosaic.Lib.Pipeline.FrameBody
import Idealize.ShloMosaic.Lib.ValueIdx
import Idealize.ShloMosaic.Lib.ValueLayout
import Idealize.ShloMosaic.PureOps.Ideal.Laws

set_option maxRecDepth 16384

noncomputable section

namespace Cert.ReferenceIdeal.RefValue1

open Cert.ReferenceIdeal
open Idealize.ShloMosaic Idealize.ShloMosaic.TcCoe Idealize.ShloMosaic.Tactic Idealize.ShloMosaic.ValueIdx
open Idealize.SL Idealize.SL.Sem
open Idealize.ShloMosaic.Pipeline (Dat Cfg Window cellOf)
open Cert.Spec (at2 at3 at4 at2_ix at3_ix at4_ix)

/-! ## Arrays at coordinates given by their values -/

/-- A rank-2 array at an index is the array at the index's coordinate values. -/
theorem at2_of_vals {n0 n1 : Nat} (x : (⟨2, ![n0, n1]⟩ : Shape).Idx → EReal) (y : (⟨2, ![n0, n1]⟩ : Shape).Idx)
    (a b : ℕ) (h0 : (y 0).val = a) (h1 : (y 1).val = b) : x y = at2 x a b := by
  subst h0 h1; exact Cert.Spec.at2_eq x y

/-- A rank-4 array at an index is the array at the index's coordinate values. -/
theorem at4_of_vals {n0 n1 n2 n3 : Nat} (x : (⟨4, ![n0, n1, n2, n3]⟩ : Shape).Idx → EReal)
    (y : (⟨4, ![n0, n1, n2, n3]⟩ : Shape).Idx) (a b c d : ℕ)
    (h0 : (y 0).val = a) (h1 : (y 1).val = b) (h2 : (y 2).val = c) (h3 : (y 3).val = d) : x y = at4 x a b c d := by
  subst h0 h1 h2 h3; exact Cert.Spec.at4_eq x y

/-! ## A tile's 7 x 28 positions as 196 rows -/

section Flat
variable {α : Type}

/-- The tile [1, 7, 28, 128] viewed [196, 128]: row 28 a + j is position (a, j). -/
theorem flat_apply (v : S1x7x28x128.Idx → α) (a : Fin 7) (j : Fin 28) (cc : Fin 128) (r : Fin 196)
    (hr : r.val = 28 * a.val + j.val) :
    shapeCast S196x128 (shapeCast S7x28x128 v Gen.shapeCasts_S1x7x28x128_S7x28x128) Gen.shapeCasts_S7x28x128_S196x128 (ix2 r cc)
      = v (ix4 0 a j cc) := by
  refine (shapeCast_apply _ _ (ix2 r cc) (ix3 a j cc) ?_).trans ?_
  · rw [Shape.rowMajor_val_three, Shape.rowMajor_val_two]
    show (a.val * 28 + j.val) * 128 + cc.val = r.val * 128 + cc.val
    omega
  · refine shapeCast_apply _ _ (ix3 a j cc) (ix4 0 a j cc) ?_
    rw [Shape.rowMajor_val_four, Shape.rowMajor_val_three]
    show ((0 * 7 + a.val) * 28 + j.val) * 128 + cc.val = (a.val * 28 + j.val) * 128 + cc.val
    omega

end Flat

/-! ## The arithmetic of a tile: product, scale, shift, residual, rectifier -/

/-- The tile's result at position (a, j), channel co, from ANY 196 x 1152 left operand: the row 28 a + j of the
    operand times the weights' column co, scaled and shifted per channel, plus the residual there, rectified. -/
theorem pay12_apply (v74 : Vec Ideal S196x1152 .f32) (x1 : Vec Ideal S1152x128 .f32) (x2 x3 : Vec Ideal S1x128 .f32)
    (x4 : Vec Ideal S1x7x28x128 .f32) (a : Fin 7) (j : Fin 28) (co : Fin 128) (r : Fin 196) (hr : r.val = 28 * a.val + j.val) :
    Gen.k1_pay12 (F := Ideal) v74 x1 x2 x3 x4 (ix4 0 a j co)
      = max ((∑ k : Fin 1152, v74 (ix2 r k) * x1 (ix2 k co)) * x2 (ix2 0 co) + x3 (ix2 0 co) + x4 (ix4 0 a j co)) 0 := by
  unfold Gen.k1_pay12
  refine (shapeCast_apply _ _ (ix4 0 a j co) (ix3 a j co) ?_).trans ?_
  · rw [Shape.rowMajor_val_four, Shape.rowMajor_val_three]
    show (a.val * 28 + j.val) * 128 + co.val = ((0 * 7 + a.val) * 28 + j.val) * 128 + co.val
    omega
  refine (shapeCast_apply _ _ (ix3 a j co) (ix2 r co) ?_).trans ?_
  · rw [Shape.rowMajor_val_three, Shape.rowMajor_val_two]
    show r.val * 128 + co.val = (a.val * 28 + j.val) * 128 + co.val
    omega
  refine (maximumf_apply _ _ _).trans (congrArg₂ max ?_ Ideal.ofBits_zero_f32)
  refine (addf_apply _ _ _).trans (congrArg₂ (· + ·) ?_ (flat_apply x4 a j co r hr))
  refine (addf_apply _ _ _).trans (congrArg₂ (· + ·) ?_ ?_)
  · refine (mulf_apply _ _ _).trans (congrArg₂ (· * ·) ?_ ?_)
    · refine (congrFun (Cert.Lib.PlainDot.matmul_zero_eq dot_S196x1152_S1152x128_S196x128_1_0_0_1_n_n rfl none v74 _) (ix2 r co)).trans ?_
      refine (Cert.Lib.PlainDot.rowsByCols_apply _ _ _).trans ?_
      exact Finset.sum_congr rfl fun k _ => congrArg (v74 (ix2 r k) * ·) (congrFun (shapeCast_self x1 _) (ix2 k co))
    · exact (broadcastTo_1b_ab_apply _ _ r co).trans (congrFun (shapeCast_self x2 _) _)
  · exact (broadcastTo_1b_ab_apply _ _ r co).trans (congrFun (shapeCast_self x3 _) _)

/-! ## The patch matrix -/

/-- Entry (r, k) of tile `T`'s patch matrix: tap k / 128 = 3 kh + kw, channel k % 128 of the bordered input `x0` at
    row kh + 7 T + r / 28, column kw + r % 28. -/
def patch (x0 : Vec Ideal S1x30x30x128 .f32) (T : ℕ) (y : S196x1152.Idx) : EReal :=
  at4 x0 0 ((y 1).val / 128 / 3 + (7 * T + (y 0).val / 28)) ((y 1).val / 128 % 3 + (y 0).val % 28) ((y 1).val % 128)

/-- The column slab of tap t = 3 kh + kw: the 7 x 28 x 128 window of the bordered input at rows from 7 T + kh and
    columns from kw, flattened to 196 rows, is the patch matrix on columns 128 t … 128 t + 127. -/
theorem slab_apply (x0 : Vec Ideal S1x30x30x128 .f32) (T t kh kw so : ℕ) (hkh : kh = t / 3) (hkw : kw = t % 3) (hso : so = 128 * t)
    (off : Fin 4 → ℕ) (hoff : off = ![0, 7 * T + kh, kw, 0])
    (inb : ∀ a, off a + S1x7x28x128.size a ≤ S1x30x30x128.size a)
    (inbS : ∀ a, (![0, so] : Fin 2 → ℕ) a + S196x128.size a ≤ S196x1152.size a)
    (x : (Rect.unit (s := S196x1152) ![0, so] S196x128.size inbS).shape.Idx) :
    shapeCast S196x128 (shapeCast S7x28x128 (View.ld x0 (Rect.unit (s := S1x30x30x128) off S1x7x28x128.size inb))
        Gen.shapeCasts_S1x7x28x128_S7x28x128) Gen.shapeCasts_S7x28x128_S196x128 x
      = patch x0 T ((Rect.unit (s := S196x1152) ![0, so] S196x128.size inbS).emb x) := by
  subst hoff hkh hkw hso
  obtain ⟨r, cc, rfl⟩ : ∃ (r : Fin 196) (cc : Fin 128), x = ix2 r cc := ⟨x 0, x 1, eq_ix2 x⟩
  have hr := r.isLt
  have hc := cc.isLt
  refine (flat_apply _ ⟨r.val / 28, by omega⟩ ⟨r.val % 28, by omega⟩ cc r (by show r.val = 28 * (r.val / 28) + r.val % 28; omega)).trans ?_
  unfold patch
  refine at4_of_vals x0 _ _ _ _ _ ?_ ?_ ?_ ?_
  · rfl
  · show 7 * T + t / 3 + 1 * (r.val / 28) = (128 * t + 1 * cc.val) / 128 / 3 + (7 * T + (0 + 1 * r.val) / 28)
    omega
  · show t % 3 + 1 * (r.val % 28) = (128 * t + 1 * cc.val) / 128 % 3 + (0 + 1 * r.val) % 28
    omega
  · show 0 + 1 * cc.val = (128 * t + 1 * cc.val) % 128
    omega

/-- A window of the bordered input loaded through a whole staging buffer holding `x0`, flattened, is the patch
    matrix on its tap's column slab. -/
theorem slab_load (arg2 : Memref sig .tc .vmem S1x30x30x128 .f32) (harg2 : arg2.IsWhole)
    (x0 : Vec Ideal S1x30x30x128 .f32) (T t kh kw so : ℕ) (hkh : kh = t / 3) (hkw : kw = t % 3) (hso : so = 128 * t)
    (off : Fin 4 → ℕ) (hoff : off = ![0, 7 * T + kh, kw, 0])
    (inb : ∀ a, off a + S1x7x28x128.size a ≤ S1x30x30x128.size a)
    (inbS : ∀ a, (![0, so] : Fin 2 → ℕ) a + S196x128.size a ≤ S196x1152.size a)
    (x : (Rect.unit (s := S196x1152) ![0, so] S196x128.size inbS).shape.Idx) :
    shapeCast S196x128 (shapeCast S7x28x128
        (View.readAt (Elt Ideal) arg2.view (Rect.unit (s := S1x30x30x128) off S1x7x28x128.size inb).toLoadRect (harg2.unread x0))
        Gen.shapeCasts_S1x7x28x128_S7x28x128) Gen.shapeCasts_S7x28x128_S196x128 x
      = patch x0 T ((Rect.unit (s := S196x1152) ![0, so] S196x128.size inbS).emb x) := by
  rw [View.readAt_eq_ld, harg2.read_unread]
  exact slab_apply x0 T t kh kw so hkh hkw hso off hoff inb inbS x

theorem zero2 : (![0, 0] : Fin 2 → ℕ) = fun _ => 0 := by
  funext a; match a with | ⟨0, _⟩ => rfl | ⟨1, _⟩ => rfl

theorem zero4 : (![0, 0, 0, 0] : Fin 4 → ℕ) = fun _ => 0 := by
  funext a; match a with | ⟨0, _⟩ => rfl | ⟨1, _⟩ => rfl | ⟨2, _⟩ => rfl | ⟨3, _⟩ => rfl

/-- The scratch matrix after the nine slab stores, loaded whole, is the patch matrix of the point's tile. -/
theorem patch_apply (c : Dev nD) (i : grid1.Coords) (arg2 : Memref sig .tc .vmem S1x30x30x128 .f32) (harg2 : arg2.IsWhole)
    (arg8 : Memref sig .tc .vmem S196x1152 .f32) (x0 : Vec Ideal S1x30x30x128 .f32) (y : S196x1152.Idx) :
    Gen.kernelRun1_A.sl.v74 (F := Ideal) c i arg2 harg2 arg8 x0 y = patch x0 (i 1).val y := by
  unfold Gen.kernelRun1_A.sl.v74
  rw [View.readCov_eq_canon']
  refine (congrFun (View.ld_unit_zero (S := S196x1152) zero2 _ (View.canon _)) y).trans ?_
  have hcov := View.cover_of_tiledL (s := S196x1152) (Gen.kernelRun1_A.sl.HS0_9 (F := Ideal) c i arg2 harg2 x0) S196x128.size
    (by unfold Gen.kernelRun1_A.sl.HS0_9; sl_kernel_rfl)
  refine View.canon_apply_of_pieces (patch x0 (i 1).val) _ ?_ y (hcov y)
  intro p hp x
  unfold Gen.kernelRun1_A.sl.HS0_9 at hp
  simp only [List.mem_cons, List.not_mem_nil, or_false] at hp
  rcases hp with rfl | rfl | rfl | rfl | rfl | rfl | rfl | rfl | rfl
  · unfold Gen.k1_pay11
    exact (congrFun (shapeCast_self _ _) x).trans
      (slab_load arg2 harg2 x0 (i 1).val 8 2 2 1024 rfl rfl rfl _ (Gen.k1_off3_eq i ⟨2, by decide⟩) _ Gen.inb_S196x1152_S196x128_0_1024 x)
  · unfold Gen.k1_pay10 Gen.kernelRun1_A.sl.r_1 Gen.k1_pay9
    exact (congrFun (shapeCast_self _ _) x).trans
      (slab_load arg2 harg2 x0 (i 1).val 7 2 1 896 rfl rfl rfl _ (Gen.k1_off2_eq i ⟨2, by decide⟩) _ Gen.inb_S196x1152_S196x128_0_896 x)
  · unfold Gen.k1_pay8
    exact (congrFun (shapeCast_self _ _) x).trans
      (slab_load arg2 harg2 x0 (i 1).val 6 2 0 768 rfl rfl rfl _ (Gen.k1_off1_eq i ⟨2, by decide⟩) _ Gen.inb_S196x1152_S196x128_0_768 x)
  · unfold Gen.k1_pay7
    exact (congrFun (shapeCast_self _ _) x).trans
      (slab_load arg2 harg2 x0 (i 1).val 5 1 2 640 rfl rfl rfl _ (Gen.k1_off3_eq i ⟨1, by decide⟩) _ Gen.inb_S196x1152_S196x128_0_640 x)
  · unfold Gen.k1_pay6
    exact (congrFun (shapeCast_self _ _) x).trans
      (slab_load arg2 harg2 x0 (i 1).val 4 1 1 512 rfl rfl rfl _ (Gen.k1_off2_eq i ⟨1, by decide⟩) _ Gen.inb_S196x1152_S196x128_0_512 x)
  · unfold Gen.k1_pay5 Gen.kernelRun1_A.sl.r Gen.k1_pay4
    exact (congrFun (shapeCast_self _ _) x).trans
      (slab_load arg2 harg2 x0 (i 1).val 3 1 0 384 rfl rfl rfl _ (Gen.k1_off1_eq i ⟨1, by decide⟩) _ Gen.inb_S196x1152_S196x128_0_384 x)
  · unfold Gen.k1_pay3
    exact (congrFun (shapeCast_self _ _) x).trans
      (slab_load arg2 harg2 x0 (i 1).val 2 0 2 256 rfl rfl rfl _ (Gen.k1_off3_eq i ⟨0, by decide⟩) _ Gen.inb_S196x1152_S196x128_0_256 x)
  · unfold Gen.k1_pay2
    exact (congrFun (shapeCast_self _ _) x).trans
      (slab_load arg2 harg2 x0 (i 1).val 1 0 1 128 rfl rfl rfl _ (Gen.k1_off2_eq i ⟨0, by decide⟩) _ Gen.inb_S196x1152_S196x128_0_128 x)
  · unfold Gen.k1_pay1
    exact (congrFun (shapeCast_self _ _) x).trans
      (slab_load arg2 harg2 x0 (i 1).val 0 0 0 0 rfl rfl rfl _ (Gen.k1_off1_eq i ⟨0, by decide⟩) _ Gen.inb_S196x1152_S196x128_0_0 x)

/-! ## A tile of the output -/

/-- What a grid point leaves in the output's staging buffer, at position (a, j) of its tile and channel co: the
    second stage of the specification over the point's input blocks, at output position (7 T + a, j) of the image,
    the residual read at the tile's own row a. -/
theorem out1_5_apply (c : Dev nD) (i : grid1.Coords) (arg2 : Memref sig .tc .vmem S1x30x30x128 .f32) (harg2 : arg2.IsWhole) (arg3 : Memref sig .tc .vmem S1152x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x7x28x128 .f32) (harg6 : arg6.IsWhole) (arg7 : Memref sig .tc .vmem S1x7x28x128 .f32) (harg7 : arg7.IsWhole) (arg8 : Memref sig .tc .vmem S196x1152 .f32) (harg8 : arg8.IsWhole)
    (x0 : Vec Ideal S1x30x30x128 .f32) (x1 : Vec Ideal S1152x128 .f32) (x2 x3 : Vec Ideal S1x128 .f32) (x4 : Vec Ideal S1x7x28x128 .f32) (a : Fin 7) (j : Fin 28) (co : Fin 128) :
    Gen.out1_A_5 (F := Ideal) c i arg2 harg2 arg3 harg3 arg4 harg4 arg5 harg5 arg6 harg6 arg7 harg7 arg8 harg8 x0 x1 x2 x3 x4 (ix4 0 a j co)
      = Cert.Spec.out2 (Cert.Spec.at2 x1) (Cert.Spec.at2 x2 0) (Cert.Spec.at2 x3 0)
          (fun p q ch => Cert.Spec.at4 x0 0 p q ch) (fun r co' => Cert.Spec.at4 x4 0 (r / 28 - 7 * (i 1).val) (r % 28) co')
          (28 * (7 * (i 1).val + a.val) + j.val) co.val := by
  have ha := a.isLt
  have hj := j.isLt
  unfold Gen.out1_A_5
  rw [View.read_writes_junk_eq_canon]
  unfold Gen.kernelRun1_A
  dsimp only
  rw [View.canon_unit_zero (S := S1x7x28x128) zero4]
  unfold Gen.kernelRun1_A.sl.r_2
  simp only [View.readAt_eq_ld, harg3.read_unread, harg4.read_unread, harg5.read_unread, harg6.read_unread,
    View.ld_unit_zero (S := S1152x128) zero2, View.ld_unit_zero (S := S1x128) zero2, View.ld_unit_zero (S := S1x7x28x128) zero4]
  refine (pay12_apply _ x1 x2 x3 x4 a j co ⟨28 * a.val + j.val, by omega⟩ rfl).trans ?_
  unfold Cert.Spec.out2
  beta_reduce
  have h1 : (28 * (7 * (i 1).val + a.val) + j.val) / 28 = 7 * (i 1).val + a.val := by omega
  have h2 : (28 * (7 * (i 1).val + a.val) + j.val) % 28 = j.val := by omega
  rw [h1, h2]
  refine congrArg₂ max (congrArg₂ (· + ·) (congrArg₂ (· + ·) (congrArg₂ (· * ·)
    (Finset.sum_congr rfl fun k _ => congrArg₂ (· * ·) ?_ ?_) ?_) ?_) ?_) rfl
  · refine (patch_apply c i arg2 harg2 arg8 x0 _).trans ?_
    unfold patch
    show at4 x0 0 (k.val / 128 / 3 + (7 * (i 1).val + (28 * a.val + j.val) / 28)) (k.val / 128 % 3 + (28 * a.val + j.val) % 28)
      (k.val % 128) = _
    have h3 : (28 * a.val + j.val) / 28 = a.val := by omega
    have h4 : (28 * a.val + j.val) % 28 = j.val := by omega
    rw [h3, h4]
  · exact at2_of_vals x1 (ix2 k co) k.val co.val rfl rfl
  · exact at2_of_vals x2 (ix2 0 co) 0 co.val rfl rfl
  · exact at2_of_vals x3 (ix2 0 co) 0 co.val rfl rfl
  · exact at4_of_vals x4 (ix4 0 a j co) 0 (7 * (i 1).val + a.val - 7 * (i 1).val) j.val co.val rfl
      (by show a.val = _; omega) rfl rfl

/-! ## From tiles to the array -/

/-- The second stage reads its operands only where the output position says: equal there, equal results. -/
theorem out2_congr {W W' : ℕ → ℕ → EReal} {S S' B B' : ℕ → EReal} {P P' : ℕ → ℕ → ℕ → EReal} {R R' : ℕ → ℕ → EReal}
    (r co : ℕ) (hW : ∀ k : Fin 1152, W k.val co = W' k.val co) (hS : S co = S' co) (hB : B co = B' co)
    (hP : ∀ k : Fin 1152, P (k.val / 128 / 3 + r / 28) (k.val / 128 % 3 + r % 28) (k.val % 128)
      = P' (k.val / 128 / 3 + r / 28) (k.val / 128 % 3 + r % 28) (k.val % 128))
    (hR : R r co = R' r co) :
    Cert.Spec.out2 W S B P R r co = Cert.Spec.out2 W' S' B' P' R' r co := by
  unfold Cert.Spec.out2
  rw [hS, hB, hR]
  exact congrArg (fun s => max (s * S' co + B' co + R' r co) 0) (Finset.sum_congr rfl fun k _ => by rw [hW k, hP k])

/-- A one-image block of a rank-4 array, read at natural-number coordinates, is the array at that image. -/
theorem at4_image {N0 n1 n2 n3 : ℕ} (X : (⟨4, ![N0, n1, n2, n3]⟩ : Shape).Idx → EReal)
    (Y : (⟨4, ![1, n1, n2, n3]⟩ : Shape).Idx → EReal) (b : Fin N0)
    (h : ∀ (p : Fin n1) (q : Fin n2) (ch : Fin n3), Y (ix4 0 p q ch) = X (ix4 b p q ch)) (p q ch : ℕ) :
    at4 Y 0 p q ch = at4 X b.val p q ch := by
  unfold Cert.Spec.at4
  by_cases hh : p < n1 ∧ q < n2 ∧ ch < n3
  · rw [dif_pos ⟨Nat.one_pos, hh⟩, dif_pos ⟨b.isLt, hh⟩]
    exact h ⟨p, hh.1⟩ ⟨q, hh.2.1⟩ ⟨ch, hh.2.2⟩
  · rw [dif_neg (fun h' => hh h'.2), dif_neg (fun h' => hh h'.2)]

/-- The grid's index maps: the bordered input moves with the image, the weights, scale and shift stay, the residual
    and the output move with the image and the tile. -/
theorem idx_facts : ∀ i : grid1.Coords, cc1_transform_0 i = ![(i 0).val, 0, 0, 0] ∧ cc1_transform_1 i = ![0, 0]
    ∧ cc1_transform_2 i = ![0, 0] ∧ cc1_transform_3 i = ![0, 0] ∧ cc1_transform_4 i = ![(i 0).val, (i 1).val, 0, 0]
    ∧ cc1_transform_5 i = ![(i 0).val, (i 1).val, 0, 0] := by decide +kernel

/-- Every (image, tile) is some grid point's. -/
theorem idx_onto : ∀ (q0 : Fin 32) (q1 : Fin 4), ∃ t : Fin grid1.N, (grid1.coords t 0).val = q0.val ∧ (grid1.coords t 1).val = q1.val := by
  decide +kernel

section Blocks
variable (V : (c : Dev nD) → (b : Ref sig .tc) → Buf (Elt Ideal) ((c : Thread nD τ).loc b)) (c : Dev nD) (t : Fin cfg1.N)

/-- The bordered input's block at a point is the point's image. -/
theorem iblk0_apply (p : Fin 30) (q : Fin 30) (ch : Fin 128) :
    (Gen.iblk1 V c 0 t : S1x30x30x128.Idx → EReal) (ix4 0 p q ch)
      = (V c main_v35 : S32x30x30x128.Idx → EReal) (ix4 (grid1.coords t 0) p q ch) := by
  obtain ⟨e0, -, -, -, -, -⟩ := idx_facts (grid1.coords t)
  unfold Gen.iblk1
  rw [View.read_apply]
  show V c main_v35 _ = V c main_v35 _
  congr 1
  funext ax
  apply Fin.ext
  match ax with
  | ⟨0, _⟩ => show cc1_transform_0 (grid1.coords t) 0 * 1 + 1 * 0 = (grid1.coords t 0).val; rw [e0]; show (grid1.coords t 0).val * 1 + 1 * 0 = _; omega
  | ⟨1, _⟩ => show cc1_transform_0 (grid1.coords t) 1 * 30 + 1 * p.val = p.val; rw [e0]; show 0 * 30 + 1 * p.val = _; omega
  | ⟨2, _⟩ => show cc1_transform_0 (grid1.coords t) 2 * 30 + 1 * q.val = q.val; rw [e0]; show 0 * 30 + 1 * q.val = _; omega
  | ⟨3, _⟩ => show cc1_transform_0 (grid1.coords t) 3 * 128 + 1 * ch.val = ch.val; rw [e0]; show 0 * 128 + 1 * ch.val = _; omega

/-- The weights' block at every point is the whole array. -/
theorem iblk1_eq : (Gen.iblk1 V c 1 t : S1152x128.Idx → EReal) = (V c main_v36 : S1152x128.Idx → EReal) := by
  obtain ⟨-, e1, -, -, -, -⟩ := idx_facts (grid1.coords t)
  funext y
  unfold Gen.iblk1
  rw [View.read_apply]
  show V c main_v36 _ = V c main_v36 _
  congr 1
  funext ax
  apply Fin.ext
  match ax with
  | ⟨0, _⟩ => show cc1_transform_1 (grid1.coords t) 0 * 1152 + 1 * (y 0).val = (y 0).val; rw [e1]; show 0 * 1152 + 1 * (y 0).val = _; omega
  | ⟨1, _⟩ => show cc1_transform_1 (grid1.coords t) 1 * 128 + 1 * (y 1).val = (y 1).val; rw [e1]; show 0 * 128 + 1 * (y 1).val = _; omega

/-- The scale's block at every point is the whole array. -/
theorem iblk2_eq : (Gen.iblk1 V c 2 t : S1x128.Idx → EReal) = (V c main_v17 : S1x128.Idx → EReal) := by
  obtain ⟨-, -, e2, -, -, -⟩ := idx_facts (grid1.coords t)
  funext y
  unfold Gen.iblk1
  rw [View.read_apply]
  show V c main_v17 _ = V c main_v17 _
  congr 1
  funext ax
  apply Fin.ext
  match ax with
  | ⟨0, _⟩ => show cc1_transform_2 (grid1.coords t) 0 * 1 + 1 * (y 0).val = (y 0).val; rw [e2]; show 0 * 1 + 1 * (y 0).val = _; omega
  | ⟨1, _⟩ => show cc1_transform_2 (grid1.coords t) 1 * 128 + 1 * (y 1).val = (y 1).val; rw [e2]; show 0 * 128 + 1 * (y 1).val = _; omega

/-- The shift's block at every point is the whole array. -/
theorem iblk3_eq : (Gen.iblk1 V c 3 t : S1x128.Idx → EReal) = (V c main_v18 : S1x128.Idx → EReal) := by
  obtain ⟨-, -, -, e3, -, -⟩ := idx_facts (grid1.coords t)
  funext y
  unfold Gen.iblk1
  rw [View.read_apply]
  show V c main_v18 _ = V c main_v18 _
  congr 1
  funext ax
  apply Fin.ext
  match ax with
  | ⟨0, _⟩ => show cc1_transform_3 (grid1.coords t) 0 * 1 + 1 * (y 0).val = (y 0).val; rw [e3]; show 0 * 1 + 1 * (y 0).val = _; omega
  | ⟨1, _⟩ => show cc1_transform_3 (grid1.coords t) 1 * 128 + 1 * (y 1).val = (y 1).val; rw [e3]; show 0 * 128 + 1 * (y 1).val = _; omega

/-- The residual's block at a point is rows 7 T … 7 T + 6 of the point's image. -/
theorem iblk4_apply (a : Fin 7) (j : Fin 28) (co : Fin 128) (oh : Fin 28) (hoh : oh.val = 7 * (grid1.coords t 1).val + a.val) :
    (Gen.iblk1 V c 4 t : S1x7x28x128.Idx → EReal) (ix4 0 a j co)
      = (V c main_v34_1 : S32x28x28x128.Idx → EReal) (ix4 (grid1.coords t 0) oh j co) := by
  obtain ⟨-, -, -, -, e4, -⟩ := idx_facts (grid1.coords t)
  unfold Gen.iblk1
  rw [View.read_apply]
  show V c main_v34_1 _ = V c main_v34_1 _
  congr 1
  funext ax
  apply Fin.ext
  match ax with
  | ⟨0, _⟩ => show cc1_transform_4 (grid1.coords t) 0 * 1 + 1 * 0 = (grid1.coords t 0).val; rw [e4]; show (grid1.coords t 0).val * 1 + 1 * 0 = _; omega
  | ⟨1, _⟩ => show cc1_transform_4 (grid1.coords t) 1 * 7 + 1 * a.val = oh.val; rw [e4, hoh]; show (grid1.coords t 1).val * 7 + 1 * a.val = _; omega
  | ⟨2, _⟩ => show cc1_transform_4 (grid1.coords t) 2 * 28 + 1 * j.val = j.val; rw [e4]; show 0 * 28 + 1 * j.val = _; omega
  | ⟨3, _⟩ => show cc1_transform_4 (grid1.coords t) 3 * 128 + 1 * co.val = co.val; rw [e4]; show 0 * 128 + 1 * co.val = _; omega

end Blocks

section Array
variable (V : (c : Dev nD) → (b : Ref sig .tc) → Buf (Elt Ideal) ((c : Thread nD τ).loc b)) (c : Dev nD)

/-- The output array as one function of the arrays the region finds: entry (b, oh, ow, co) is the second stage
    over image b's bordered input and residual, at output position 28 oh + ow, channel co. -/
def G5 : S32x28x28x128.Idx → EReal := fun i =>
  Cert.Spec.out2 (at2 (V c main_v36 : S1152x128.Idx → EReal)) (at2 (V c main_v17 : S1x128.Idx → EReal) 0)
    (at2 (V c main_v18 : S1x128.Idx → EReal) 0)
    (fun p q ch => at4 (V c main_v35 : S32x30x30x128.Idx → EReal) (i 0).val p q ch)
    (fun r co' => at4 (V c main_v34_1 : S32x28x28x128.Idx → EReal) (i 0).val (r / 28) (r % 28) co')
    (28 * (i 1).val + (i 2).val) (i 3).val

/-- What a point writes back is its tile of that function. -/
theorem flushed5_eq (t : Fin cfg1.N) :
    (Gen.dat1 (F := Ideal) V c).flushed 5 t = ((cfg1.win 5).blk t).view.read (Elt Ideal) (G5 V c) := by
  obtain ⟨-, -, -, -, -, e5⟩ := idx_facts (grid1.coords t)
  have hT : (grid1.coords t 1).val < 4 := (grid1.coords t 1).isLt
  show (cfg1.win 5).cut (grid1.coords t) ((Gen.dat1 (F := Ideal) V c).after 5 t) = _
  rw [Gen.after1_5]
  unfold Gen.outsAt1
  funext y
  rw [View.read_apply]
  obtain ⟨y0, a, j, co, rfl⟩ : ∃ (y0 : Fin 1) (a : Fin 7) (j : Fin 28) (co : Fin 128), y = ix4 y0 a j co :=
    ⟨y 0, y 1, y 2, y 3, eq_ix4 y⟩
  obtain rfl : y0 = 0 := Subsingleton.elim _ _
  have ha := a.isLt
  have hj := j.isLt
  have hemb : ((cfg1.win 5).blk t).view.emb (ix4 0 a j co)
      = (ix4 (grid1.coords t 0) ⟨7 * (grid1.coords t 1).val + a.val, by omega⟩ j co : S32x28x28x128.Idx) := by
    funext ax
    apply Fin.ext
    match ax with
    | ⟨0, _⟩ => show cc1_transform_5 (grid1.coords t) 0 * 1 + 1 * 0 = (grid1.coords t 0).val; rw [e5]; show (grid1.coords t 0).val * 1 + 1 * 0 = _; omega
    | ⟨1, _⟩ => show cc1_transform_5 (grid1.coords t) 1 * 7 + 1 * a.val = 7 * (grid1.coords t 1).val + a.val; rw [e5]; show (grid1.coords t 1).val * 7 + 1 * a.val = _; omega
    | ⟨2, _⟩ => show cc1_transform_5 (grid1.coords t) 2 * 28 + 1 * j.val = j.val; rw [e5]; show 0 * 28 + 1 * j.val = _; omega
    | ⟨3, _⟩ => show cc1_transform_5 (grid1.coords t) 3 * 128 + 1 * co.val = co.val; rw [e5]; show 0 * 128 + 1 * co.val = _; omega
  refine Eq.trans ?_ (congrArg (G5 V c) hemb).symm
  refine (out1_5_apply c (grid1.coords t) (Gen.ms1_0 t) (Gen.hs1_0 t) (Gen.ms1_1 t) (Gen.hs1_1 t) (Gen.ms1_2 t) (Gen.hs1_2 t)
    (Gen.ms1_3 t) (Gen.hs1_3 t) (Gen.ms1_4 t) (Gen.hs1_4 t) (Gen.ms1_5 t) (Gen.hs1_5 t) Gen.scM1_0 (Memref.isWhole_whole _)
    (Gen.iblk1 V c 0 t) (Gen.iblk1 V c 1 t) (Gen.iblk1 V c 2 t) (Gen.iblk1 V c 3 t) (Gen.iblk1 V c 4 t) a j co).trans ?_
  unfold G5
  show Cert.Spec.out2 _ _ _ _ _ (28 * (7 * (grid1.coords t 1).val + a.val) + j.val) co.val
    = Cert.Spec.out2 _ _ _ _ _ (28 * (7 * (grid1.coords t 1).val + a.val) + j.val) co.val
  refine out2_congr _ _ ?_ ?_ ?_ ?_ ?_
  · exact fun k => congrArg (fun X : S1152x128.Idx → EReal => at2 X k.val co.val) (iblk1_eq V c t)
  · exact congrArg (fun X : S1x128.Idx → EReal => at2 X 0 co.val) (iblk2_eq V c t)
  · exact congrArg (fun X : S1x128.Idx → EReal => at2 X 0 co.val) (iblk3_eq V c t)
  · exact fun k => at4_image (V c main_v35 : S32x30x30x128.Idx → EReal) (Gen.iblk1 V c 0 t) (grid1.coords t 0) (iblk0_apply V c t) _ _ _
  · have h1 : (28 * (7 * (grid1.coords t 1).val + a.val) + j.val) / 28 - 7 * (grid1.coords t 1).val = a.val := by omega
    have h2 : (28 * (7 * (grid1.coords t 1).val + a.val) + j.val) % 28 = j.val := by omega
    have h3 : (28 * (7 * (grid1.coords t 1).val + a.val) + j.val) / 28 = 7 * (grid1.coords t 1).val + a.val := by omega
    show at4 _ 0 ((28 * (7 * (grid1.coords t 1).val + a.val) + j.val) / 28 - 7 * (grid1.coords t 1).val)
        ((28 * (7 * (grid1.coords t 1).val + a.val) + j.val) % 28) co.val
      = at4 _ (grid1.coords t 0).val ((28 * (7 * (grid1.coords t 1).val + a.val) + j.val) / 28)
        ((28 * (7 * (grid1.coords t 1).val + a.val) + j.val) % 28) co.val
    rw [h1, h3, h2]
    exact (at4_ix (Gen.iblk1 V c 4 t : S1x7x28x128.Idx → EReal) 0 a j co).trans
      ((iblk4_apply V c t a j co ⟨7 * (grid1.coords t 1).val + a.val, by omega⟩ rfl).trans
        (at4_ix (V c main_v34_1 : S32x28x28x128.Idx → EReal) (grid1.coords t 0) ⟨7 * (grid1.coords t 1).val + a.val, by omega⟩ j co).symm)

/-- Every entry of the output array is in some point's tile: image b, tile oh / 7. -/
theorem cover5 (i : S32x28x28x128.Idx) :
    ∃ t : Fin cfg1.N, (cfg1.win 5).flush t = true ∧ i ∈ ((cfg1.win 5).blk t).view.set := by
  have h0 : (i 0).val < 32 := (i 0).isLt
  have h1 : (i 1).val < 28 := (i 1).isLt
  have h2 : (i 2).val < 28 := (i 2).isLt
  have h3 : (i 3).val < 128 := (i 3).isLt
  obtain ⟨t, ht0, ht1⟩ := idx_onto ⟨(i 0).val, h0⟩ ⟨(i 1).val / 7, by omega⟩
  obtain ⟨-, -, -, -, -, e5⟩ := idx_facts (grid1.coords t)
  refine ⟨t, Gen.flush1_5 t, ?_⟩
  show i ∈ ((View.whole main_v37).slice (win1_5.rect t)).set
  rw [View.set_slice_whole, Rect.mem_set_unit]
  intro ax
  match ax with
  | ⟨0, _⟩ =>
    show cc1_transform_5 (grid1.coords t) 0 * 1 ≤ (i 0).val ∧ (i 0).val < cc1_transform_5 (grid1.coords t) 0 * 1 + 1
    rw [e5]
    show (grid1.coords t 0).val * 1 ≤ (i 0).val ∧ (i 0).val < (grid1.coords t 0).val * 1 + 1
    rw [ht0]; show (i 0).val * 1 ≤ (i 0).val ∧ (i 0).val < (i 0).val * 1 + 1; omega
  | ⟨1, _⟩ =>
    show cc1_transform_5 (grid1.coords t) 1 * 7 ≤ (i 1).val ∧ (i 1).val < cc1_transform_5 (grid1.coords t) 1 * 7 + 7
    rw [e5]
    show (grid1.coords t 1).val * 7 ≤ (i 1).val ∧ (i 1).val < (grid1.coords t 1).val * 7 + 7
    rw [ht1]; show (i 1).val / 7 * 7 ≤ (i 1).val ∧ (i 1).val < (i 1).val / 7 * 7 + 7; omega
  | ⟨2, _⟩ =>
    show cc1_transform_5 (grid1.coords t) 2 * 28 ≤ (i 2).val ∧ (i 2).val < cc1_transform_5 (grid1.coords t) 2 * 28 + 28
    rw [e5]
    show 0 * 28 ≤ (i 2).val ∧ (i 2).val < 0 * 28 + 28
    omega
  | ⟨3, _⟩ =>
    show cc1_transform_5 (grid1.coords t) 3 * 128 ≤ (i 3).val ∧ (i 3).val < cc1_transform_5 (grid1.coords t) 3 * 128 + 128
    rw [e5]
    show 0 * 128 ≤ (i 3).val ∧ (i 3).val < 0 * 128 + 128
    omega

/-- The output array after the region, entry by entry: the second stage of the specification over the arrays the
    region finds, image by image. -/
theorem arr1_5 (b : Fin 32) (oh ow : Fin 28) (co : Fin 128) :
    ((Gen.dat1 (F := Ideal) V c).arrAt 5 cfg1.N : S32x28x28x128.Idx → EReal) (ix4 b oh ow co)
      = Cert.Spec.out2 (Cert.Spec.at2 (V c main_v36 : S1152x128.Idx → EReal)) (Cert.Spec.at2 (V c main_v17 : S1x128.Idx → EReal) 0)
          (Cert.Spec.at2 (V c main_v18 : S1x128.Idx → EReal) 0)
          (fun p q ch => Cert.Spec.at4 (V c main_v35 : S32x30x30x128.Idx → EReal) b.val p q ch)
          (fun r co' => Cert.Spec.at4 (V c main_v34_1 : S32x28x28x128.Idx → EReal) b.val (r / 28) (r % 28) co')
          (28 * oh.val + ow.val) co.val :=
  congrFun ((Gen.dat1 (F := Ideal) V c).arrAt_eq_of_cover 5 (G5 V c) (fun t _ => flushed5_eq V c t) (cover5)) (ix4 b oh ow co)

end Array

end Cert.ReferenceIdeal.RefValue1

end
-- ==== Proof.RefArray.lean ====
/-
  The reference's two launches assembled: the output array of the second launch, entry by entry, is the residual
  block `Cert.Spec.out` of the arrays the first launch is entered with and the second launch's weights, scale and
  shift.

  The second launch reads two arrays the first one wrote: its bordered input is the first launch's rectified
  activation with a border of zeros (the specification's `bordered`), and its residual is the first launch's
  shortcut. At the entries the second stage reads they are those, so the second stage over them is `out`.
-/
import proofs.«109431_g2000702696857771_pallasbulk_1005_2_alg».proof.Proof.RefRegion0
import proofs.«109431_g2000702696857771_pallasbulk_1005_2_alg».proof.Proof.RefRegion1
import proofs.«109431_g2000702696857771_pallasbulk_1005_2_alg».proof.Proof.RefRun
import proofs.«109431_g2000702696857771_pallasbulk_1005_2_alg».proof.Proof.Spec
import proofs.«109431_g2000702696857771_pallasbulk_1005_2_alg».proof.Proof.SpecRead

set_option maxRecDepth 16384

noncomputable section

namespace Cert.ReferenceIdeal.RefValueAll

open Idealize.ShloMosaic Idealize.ShloMosaic.TcCoe Idealize.ShloMosaic.ValueIdx
open Idealize.SL Idealize.SL.Sem
open Cert.ReferenceIdeal Cert.ReferenceIdeal.Gen

/-- The second launch's output array, entry by entry: the residual block of image b at output position
    (oh, ow), channel co, over the arrays the first launch is entered with and the second launch's own weights. -/
theorem ref_array (m : (ℓ : Loc nD τ sig) → Buf (Elt Ideal) ℓ) (ρ : Dev nD → PrngReg) (c : Dev nD)
    (b : Fin 32) (oh ow : Fin 28) (co : Fin 128) :
    ((Gen.dat1 (F := Ideal) (Gen.V7 m ρ) c).arrAt 5 cfg1.N : S32x28x28x128.Idx → EReal) (ix4 b oh ow co)
      = Cert.Spec.out (fun p q ci => Cert.Spec.at4 (Gen.V3 m ρ c main_v32 : S32x116x29x64.Idx → EReal) b.val p q ci)
          (Cert.Spec.at2 (Gen.V3 m ρ c main_v33 : S576x128.Idx → EReal)) (Cert.Spec.at2 (Gen.V3 m ρ c main_v8 : S1x128.Idx → EReal) 0)
          (Cert.Spec.at2 (Gen.V3 m ρ c main_v9 : S1x128.Idx → EReal) 0)
          (Cert.Spec.at2 (Gen.V3 m ρ c main_v20 : S64x128.Idx → EReal)) (Cert.Spec.at2 (Gen.V3 m ρ c main_v27 : S1x128.Idx → EReal) 0)
          (Cert.Spec.at2 (Gen.V3 m ρ c main_v28 : S1x128.Idx → EReal) 0)
          (Cert.Spec.at2 (Gen.V7 m ρ c main_v36 : S1152x128.Idx → EReal)) (Cert.Spec.at2 (Gen.V7 m ρ c main_v17 : S1x128.Idx → EReal) 0)
          (Cert.Spec.at2 (Gen.V7 m ρ c main_v18 : S1x128.Idx → EReal) 0) (28 * oh.val + ow.val) co.val := by
  have hoh := oh.isLt
  have how := ow.isLt
  refine (RefValue1.arr1_5 (Gen.V7 m ρ) c b oh ow co).trans ?_
  unfold Cert.Spec.out
  refine RefValue1.out2_congr _ _ (fun k => rfl) rfl rfl (fun k => ?_) ?_
  · -- the bordered input at an entry the second stage reads
    have hk := k.isLt
    have hp : k.val / 128 / 3 + (28 * oh.val + ow.val) / 28 < 30 := by omega
    have hq : k.val / 128 % 3 + (28 * oh.val + ow.val) % 28 < 30 := by omega
    have hch : k.val % 128 < 128 := Nat.mod_lt _ (by decide)
    show Cert.Spec.at4 (Gen.V7 m ρ c main_v35 : S32x30x30x128.Idx → EReal) b.val _ _ _ = _
    rw [Cert.Spec.at4_of_lt _ b.isLt hp hq hch]
    refine (RefValueRun.V7_v35_apply_out m ρ c b ⟨_, hp⟩ ⟨_, hq⟩ ⟨_, hch⟩).trans ?_
    unfold Cert.Spec.bordered
    by_cases h : 1 ≤ k.val / 128 / 3 + (28 * oh.val + ow.val) / 28 ∧ k.val / 128 / 3 + (28 * oh.val + ow.val) / 28 ≤ 28
        ∧ 1 ≤ k.val / 128 % 3 + (28 * oh.val + ow.val) % 28 ∧ k.val / 128 % 3 + (28 * oh.val + ow.val) % 28 ≤ 28
    · refine (dif_pos h).trans (Eq.trans ?_ (if_pos h).symm)
      exact RefValue0.arr0_7 (Gen.V3 m ρ) c b ⟨k.val / 128 / 3 + (28 * oh.val + ow.val) / 28 - 1, by omega⟩
        ⟨k.val / 128 % 3 + (28 * oh.val + ow.val) % 28 - 1, by omega⟩ ⟨k.val % 128, hch⟩
    · exact (dif_neg h).trans (if_neg h).symm
  · -- the residual at the output position
    show Cert.Spec.at4 (Gen.V7 m ρ c main_v34_1 : S32x28x28x128.Idx → EReal) b.val ((28 * oh.val + ow.val) / 28) ((28 * oh.val + ow.val) % 28) co.val = _
    rw [show (28 * oh.val + ow.val) / 28 = oh.val by omega, show (28 * oh.val + ow.val) % 28 = ow.val by omega,
      Cert.Spec.at4_ix, RefValueRun.V7_v34_1_out m ρ c]
    exact RefValue0.arr0_8 (Gen.V3 m ρ) c b oh ow co

end Cert.ReferenceIdeal.RefValueAll

end
-- ==== Proof.Bridge.lean ====
/-
  The two result arrays are one array.

  Entry (b, oh, ow, co) of the tiled program's second launch and of the fused program's one launch are both the
  residual block of image b at position 28 oh + ow, channel co, over the same ten arrays — the image's phase
  stack, the two convolutions' weight matrices, the projection's, and the six folded scale and shift rows —, each
  the same function of argument arrays that agree.
-/
import proofs.«109431_g2000702696857771_pallasbulk_1005_2_alg».proof.Defs
import proofs.«109431_g2000702696857771_pallasbulk_1005_2_alg».proof.Proof.KernelFinal
import proofs.«109431_g2000702696857771_pallasbulk_1005_2_alg».proof.Proof.KernelHost
import proofs.«109431_g2000702696857771_pallasbulk_1005_2_alg».proof.Proof.RefArray

set_option maxRecDepth 16384

noncomputable section

namespace Cert.Proof.Bridge

open Idealize.ShloMosaic Idealize.ShloMosaic.TcCoe Idealize.ShloMosaic.ValueIdx Idealize.SL.Sem

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (ρ' : Dev Cert.ReferenceIdeal.nD → PrngReg) (c : Dev Cert.KernelIdeal.nD)

set_option maxHeartbeats 3200000 in
/-- The tiled program's last array and the fused program's are equal when the arguments agree. -/
theorem arrays_eq
    (hag : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) :
    ((Cert.ReferenceIdeal.Gen.dat1 (F := Ideal) (Cert.ReferenceIdeal.Gen.V7 m' ρ') c).arrAt 5 Cert.ReferenceIdeal.cfg1.N : Cert.ReferenceIdeal.S32x28x28x128.Idx → EReal)
      = ((Cert.KernelIdeal.Body.dats (F := Ideal) m 0 c).arrAt 7 Cert.KernelIdeal.cfg0.N : Cert.KernelIdeal.S32x28x28x128.Idx → EReal) := by
  obtain ⟨g0, g1, g2, g3, g4, g5, g6, g7, g8, g9, g10, g11, g12, g13, g14, g15⟩ := hag
  funext idx
  obtain ⟨b, oh, ow, co, rfl⟩ : ∃ (b : Fin 32) (oh ow : Fin 28) (co : Fin 128), idx = ix4 b oh ow co :=
    ⟨idx 0, idx 1, idx 2, idx 3, eq_ix4 idx⟩
  refine (Cert.ReferenceIdeal.RefValueAll.ref_array m' ρ' c b oh ow co).trans ?_
  have hk := Cert.KernelIdeal.Final.kernel_array_of m c (Cert.KernelIdeal.HostValue.V_v5 m c) (Cert.KernelIdeal.HostValue.V_v38 m c) (Cert.KernelIdeal.HostValue.V_v43 m c) (Cert.KernelIdeal.HostValue.V_v44 m c)
    (Cert.KernelIdeal.HostValue.V_v37_apply m c) (Cert.KernelIdeal.HostValue.V_v40_apply m c) (Cert.KernelIdeal.HostValue.V_v42_apply m c) b oh ow co
  refine Eq.trans ?_ ((congrFun (Cert.KernelIdeal.BodyValue.arr7 m c) (ix4 b oh ow co)).trans hk).symm
  have e32 : (Cert.ReferenceIdeal.Gen.V3 m' ρ' c Cert.ReferenceIdeal.main_v32 : (⟨Cert.ReferenceIdeal.S32x116x29x64, .f32⟩ : BufTy).Contents (Elt Ideal)) = Cert.ReferenceIdeal.RefValueRun.xPhases (F := Ideal) (m ((c.tc : Thread Cert.KernelIdeal.nD Cert.KernelIdeal.τ).loc Cert.KernelIdeal.main_arg0)) :=
    (Cert.ReferenceIdeal.RefValueRun.V3_v32 m' ρ' c).trans (show Cert.ReferenceIdeal.RefValueRun.xPhases (F := Ideal) (m' ((c.tc : Thread Cert.ReferenceIdeal.nD Cert.ReferenceIdeal.τ).loc Cert.ReferenceIdeal.main_arg0)) = Cert.ReferenceIdeal.RefValueRun.xPhases (F := Ideal) (m ((c.tc : Thread Cert.KernelIdeal.nD Cert.KernelIdeal.τ).loc Cert.KernelIdeal.main_arg0)) by rw [g0])
  have e33 : (Cert.ReferenceIdeal.Gen.V3 m' ρ' c Cert.ReferenceIdeal.main_v33 : (⟨Cert.ReferenceIdeal.S576x128, .f32⟩ : BufTy).Contents (Elt Ideal)) = Cert.ReferenceIdeal.RefValueRun.w1Mat (F := Ideal) (m ((c.tc : Thread Cert.KernelIdeal.nD Cert.KernelIdeal.τ).loc Cert.KernelIdeal.main_arg1)) :=
    (Cert.ReferenceIdeal.RefValueRun.V3_v33 m' ρ' c).trans (show Cert.ReferenceIdeal.RefValueRun.w1Mat (F := Ideal) (m' ((c.tc : Thread Cert.ReferenceIdeal.nD Cert.ReferenceIdeal.τ).loc Cert.ReferenceIdeal.main_arg1)) = Cert.ReferenceIdeal.RefValueRun.w1Mat (F := Ideal) (m ((c.tc : Thread Cert.KernelIdeal.nD Cert.KernelIdeal.τ).loc Cert.KernelIdeal.main_arg1)) by rw [g1])
  have e8 : (Cert.ReferenceIdeal.Gen.V3 m' ρ' c Cert.ReferenceIdeal.main_v8 : (⟨Cert.ReferenceIdeal.S1x128, .f32⟩ : BufTy).Contents (Elt Ideal)) = Cert.ReferenceIdeal.RefValueRun.scaleRow (F := Ideal) (m ((c.tc : Thread Cert.KernelIdeal.nD Cert.KernelIdeal.τ).loc Cert.KernelIdeal.main_arg2)) (m ((c.tc : Thread Cert.KernelIdeal.nD Cert.KernelIdeal.τ).loc Cert.KernelIdeal.main_arg5)) :=
    (Cert.ReferenceIdeal.RefValueRun.V3_v8 m' ρ' c).trans (show Cert.ReferenceIdeal.RefValueRun.scaleRow (F := Ideal) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg5)) = Cert.ReferenceIdeal.RefValueRun.scaleRow (F := Ideal) (m ((c.tc : Thread Cert.KernelIdeal.nD Cert.KernelIdeal.τ).loc Cert.KernelIdeal.main_arg2)) (m ((c.tc : Thread Cert.KernelIdeal.nD Cert.KernelIdeal.τ).loc Cert.KernelIdeal.main_arg5)) by rw [g2, g5])
  have e9 : (Cert.ReferenceIdeal.Gen.V3 m' ρ' c Cert.ReferenceIdeal.main_v9 : (⟨Cert.ReferenceIdeal.S1x128, .f32⟩ : BufTy).Contents (Elt Ideal)) = Cert.ReferenceIdeal.RefValueRun.shiftRow (F := Ideal) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg2)) (m ((c.tc : Thread Cert.KernelIdeal.nD Cert.KernelIdeal.τ).loc Cert.KernelIdeal.main_arg5)) :=
    (Cert.ReferenceIdeal.RefValueRun.V3_v9 m' ρ' c).trans (show Cert.ReferenceIdeal.RefValueRun.shiftRow (F := Ideal) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg5)) = Cert.ReferenceIdeal.RefValueRun.shiftRow (F := Ideal) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg2)) (m ((c.tc : Thread Cert.KernelIdeal.nD Cert.KernelIdeal.τ).loc Cert.KernelIdeal.main_arg5)) by rw [g3, g4, g2, g5])
  have e20 : (Cert.ReferenceIdeal.Gen.V3 m' ρ' c Cert.ReferenceIdeal.main_v20 : (⟨Cert.ReferenceIdeal.S64x128, .f32⟩ : BufTy).Contents (Elt Ideal)) = Cert.ReferenceIdeal.RefValueRun.wdMat (F := Ideal) (m ((c.tc : Thread Cert.KernelIdeal.nD Cert.KernelIdeal.τ).loc Cert.KernelIdeal.main_arg11)) :=
    (Cert.ReferenceIdeal.RefValueRun.V3_v20 m' ρ' c).trans (show Cert.ReferenceIdeal.RefValueRun.wdMat (F := Ideal) (m' ((c.tc : Thread Cert.ReferenceIdeal.nD Cert.ReferenceIdeal.τ).loc Cert.ReferenceIdeal.main_arg11)) = Cert.ReferenceIdeal.RefValueRun.wdMat (F := Ideal) (m ((c.tc : Thread Cert.KernelIdeal.nD Cert.KernelIdeal.τ).loc Cert.KernelIdeal.main_arg11)) by rw [g11])
  have e27 : (Cert.ReferenceIdeal.Gen.V3 m' ρ' c Cert.ReferenceIdeal.main_v27 : (⟨Cert.ReferenceIdeal.S1x128, .f32⟩ : BufTy).Contents (Elt Ideal)) = Cert.ReferenceIdeal.RefValueRun.scaleRow (F := Ideal) (m ((c.tc : Thread Cert.KernelIdeal.nD Cert.KernelIdeal.τ).loc Cert.KernelIdeal.main_arg12)) (m ((c.tc : Thread Cert.KernelIdeal.nD Cert.KernelIdeal.τ).loc Cert.KernelIdeal.main_arg15)) :=
    (Cert.ReferenceIdeal.RefValueRun.V3_v27 m' ρ' c).trans (show Cert.ReferenceIdeal.RefValueRun.scaleRow (F := Ideal) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg15)) = Cert.ReferenceIdeal.RefValueRun.scaleRow (F := Ideal) (m ((c.tc : Thread Cert.KernelIdeal.nD Cert.KernelIdeal.τ).loc Cert.KernelIdeal.main_arg12)) (m ((c.tc : Thread Cert.KernelIdeal.nD Cert.KernelIdeal.τ).loc Cert.KernelIdeal.main_arg15)) by rw [g12, g15])
  have e28 : (Cert.ReferenceIdeal.Gen.V3 m' ρ' c Cert.ReferenceIdeal.main_v28 : (⟨Cert.ReferenceIdeal.S1x128, .f32⟩ : BufTy).Contents (Elt Ideal)) = Cert.ReferenceIdeal.RefValueRun.shiftRow (F := Ideal) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg12)) (m ((c.tc : Thread Cert.KernelIdeal.nD Cert.KernelIdeal.τ).loc Cert.KernelIdeal.main_arg15)) :=
    (Cert.ReferenceIdeal.RefValueRun.V3_v28 m' ρ' c).trans (show Cert.ReferenceIdeal.RefValueRun.shiftRow (F := Ideal) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg15)) = Cert.ReferenceIdeal.RefValueRun.shiftRow (F := Ideal) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg12)) (m ((c.tc : Thread Cert.KernelIdeal.nD Cert.KernelIdeal.τ).loc Cert.KernelIdeal.main_arg15)) by rw [g13, g14, g12, g15])
  have e36 : (Cert.ReferenceIdeal.Gen.V7 m' ρ' c Cert.ReferenceIdeal.main_v36 : (⟨Cert.ReferenceIdeal.S1152x128, .f32⟩ : BufTy).Contents (Elt Ideal)) = Cert.ReferenceIdeal.RefValueRun.w2Mat (F := Ideal) (m ((c.tc : Thread Cert.KernelIdeal.nD Cert.KernelIdeal.τ).loc Cert.KernelIdeal.main_arg6)) :=
    (Cert.ReferenceIdeal.RefValueRun.V7_v36_args m' ρ' c).trans (show Cert.ReferenceIdeal.RefValueRun.w2Mat (F := Ideal) (m' ((c.tc : Thread Cert.ReferenceIdeal.nD Cert.ReferenceIdeal.τ).loc Cert.ReferenceIdeal.main_arg6)) = Cert.ReferenceIdeal.RefValueRun.w2Mat (F := Ideal) (m ((c.tc : Thread Cert.KernelIdeal.nD Cert.KernelIdeal.τ).loc Cert.KernelIdeal.main_arg6)) by rw [g6])
  have e17 : (Cert.ReferenceIdeal.Gen.V7 m' ρ' c Cert.ReferenceIdeal.main_v17 : (⟨Cert.ReferenceIdeal.S1x128, .f32⟩ : BufTy).Contents (Elt Ideal)) = Cert.ReferenceIdeal.RefValueRun.scaleRow (F := Ideal) (m ((c.tc : Thread Cert.KernelIdeal.nD Cert.KernelIdeal.τ).loc Cert.KernelIdeal.main_arg7)) (m ((c.tc : Thread Cert.KernelIdeal.nD Cert.KernelIdeal.τ).loc Cert.KernelIdeal.main_arg10)) :=
    (Cert.ReferenceIdeal.RefValueRun.V7_v17_args m' ρ' c).trans (show Cert.ReferenceIdeal.RefValueRun.scaleRow (F := Ideal) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg10)) = Cert.ReferenceIdeal.RefValueRun.scaleRow (F := Ideal) (m ((c.tc : Thread Cert.KernelIdeal.nD Cert.KernelIdeal.τ).loc Cert.KernelIdeal.main_arg7)) (m ((c.tc : Thread Cert.KernelIdeal.nD Cert.KernelIdeal.τ).loc Cert.KernelIdeal.main_arg10)) by rw [g7, g10])
  have e18 : (Cert.ReferenceIdeal.Gen.V7 m' ρ' c Cert.ReferenceIdeal.main_v18 : (⟨Cert.ReferenceIdeal.S1x128, .f32⟩ : BufTy).Contents (Elt Ideal)) = Cert.ReferenceIdeal.RefValueRun.shiftRow (F := Ideal) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg7)) (m ((c.tc : Thread Cert.KernelIdeal.nD Cert.KernelIdeal.τ).loc Cert.KernelIdeal.main_arg10)) :=
    (Cert.ReferenceIdeal.RefValueRun.V7_v18_args m' ρ' c).trans (show Cert.ReferenceIdeal.RefValueRun.shiftRow (F := Ideal) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg10)) = Cert.ReferenceIdeal.RefValueRun.shiftRow (F := Ideal) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg7)) (m ((c.tc : Thread Cert.KernelIdeal.nD Cert.KernelIdeal.τ).loc Cert.KernelIdeal.main_arg10)) by rw [g8, g9, g7, g10])
  rw [e32, e33, e8, e9, e20, e27, e28, e36, e17, e18]

end Cert.Proof.Bridge

end
-- ==== Proof.lean ====
/-
  A stride-two residual block — a 3 x 3 convolution of stride two with its batch normalisation and
  rectifier, a second 3 x 3 convolution with its batch normalisation, a 1 x 1 stride-two projection of the
  input with its batch normalisation on the shortcut, the sum of the two branches, a last rectifier — computed
  by one launch per image (both convolutions as products of a patch matrix with a weight matrix, the projection
  folded into the first product as extra columns that are zero off the centre tap) against the same block
  computed by two launches over tiles of seven output rows with the padding between them done on the host.

  Each batch normalisation is folded on both sides into one scale gamma / sqrt(var + eps) and one shift
  beta - mean * scale per channel, by the same operations in the same order, so on the extended reals the two
  programs differ only in how the sums are laid out: a product with a zero weight contributes nothing, and a
  row of the whole image is a row of one of its tiles.
-/
import proofs.«109431_g2000702696857771_pallasbulk_1005_2_alg».proof.Defs
import proofs.«109431_g2000702696857771_pallasbulk_1005_2_alg».proof.Proof.KernelFrame
import proofs.«109431_g2000702696857771_pallasbulk_1005_2_alg».proof.Proof.KernelIdealFrame
import proofs.«109431_g2000702696857771_pallasbulk_1005_2_alg».proof.Proof.Bridge
import proofs.«109431_g2000702696857771_pallasbulk_1005_2_alg».proof.Proof.Gen.ReferenceIdeal
import proofs.«109431_g2000702696857771_pallasbulk_1005_2_alg».proof.Proof.Gen.ReferenceIdeal.Frame
import proofs.«109431_g2000702696857771_pallasbulk_1005_2_alg».proof.Proof.Gen.Pre_finite_inputs
import Idealize.ShloMosaic.Adequacy
import Idealize.ShloMosaic.Init

noncomputable section

namespace Cert.Proof

open Idealize.ShloMosaic Idealize.SL.Sem

/-- The word-level program runs and leaves its arguments as launched. -/
theorem frame_k : Cert.frame_Kernel := fun m ρ _ =>
  Cert.Kernel.Gen.frame_of m ρ (Cert.Kernel.Body.dats m) (fun _ _ => rfl) (Cert.Kernel.Body.run_main (F := Bits) m ρ)

/-- So does its reading on the extended reals. -/
theorem frame_ki : Cert.frame_KernelIdeal := fun m ρ _ =>
  Cert.KernelIdeal.Gen.frame_of m ρ (Cert.KernelIdeal.Body.dats m) (fun _ _ => rfl) (Cert.KernelIdeal.Body.run_main (F := Ideal) m ρ)

/-- And the two-launch reference. -/
theorem frame_ri : Cert.frame_ReferenceIdeal := fun m ρ _ => Cert.ReferenceIdeal.Gen.frame m ρ

/-- No operation was rewritten between the word-level program and its reading on the extended reals. -/
theorem preserves : Cert.preserves_Kernel_KernelIdeal := trivial

/-- On the extended reals both programs end with the same result: the fused program's result buffer is its launch's
    output array with the channel axis moved to the second place, the tiled program's is its second launch's output
    array moved the same way, and the two arrays are equal entry by entry. -/
theorem algebraic : Cert.algebraic_KernelIdeal_ReferenceIdeal := by
  intro m ρ m' ρ' _ hagree
  refine ⟨fun c => (transpose Cert.KernelIdeal.S32x128x28x28 [0, 3, 1, 2]
      ((Cert.KernelIdeal.Body.dats (F := Ideal) m 0 c).arrAt 7 Cert.KernelIdeal.cfg0.N : (⟨Cert.KernelIdeal.S32x28x28x128, .f32⟩ : BufTy).Contents (Elt Ideal))
      Cert.KernelIdeal.Gen.transposes_S32x28x28x128_S32x128x28x28_0_3_1_2 : (⟨Cert.KernelIdeal.S32x128x28x28, .f32⟩ : BufTy).Contents (Elt Ideal)), ?_, ?_⟩
  · exact (θ_run Cert.KernelIdeal.defs _ _).mono (fun r h c =>
      ⟨((h c).2 Cert.KernelIdeal.main_v46 (Pipeline.mem_restRefs_of Cert.KernelIdeal.main_v46 (by decide) (by decide))).trans
          (Cert.KernelIdeal.HostValue.tail_result m (Cert.KernelIdeal.Body.dats m) c),
        ((h c).2 Cert.KernelIdeal.main_arg0 (Pipeline.mem_restRefs_of Cert.KernelIdeal.main_arg0 (by decide) (by decide))).trans (Cert.KernelIdeal.Gen.W_main_arg0 m (Cert.KernelIdeal.Body.dats m) c),
        ((h c).2 Cert.KernelIdeal.main_arg1 (Pipeline.mem_restRefs_of Cert.KernelIdeal.main_arg1 (by decide) (by decide))).trans (Cert.KernelIdeal.Gen.W_main_arg1 m (Cert.KernelIdeal.Body.dats m) c),
        ((h c).2 Cert.KernelIdeal.main_arg2 (Pipeline.mem_restRefs_of Cert.KernelIdeal.main_arg2 (by decide) (by decide))).trans (Cert.KernelIdeal.Gen.W_main_arg2 m (Cert.KernelIdeal.Body.dats m) c),
        ((h c).2 Cert.KernelIdeal.main_arg3 (Pipeline.mem_restRefs_of Cert.KernelIdeal.main_arg3 (by decide) (by decide))).trans (Cert.KernelIdeal.Gen.W_main_arg3 m (Cert.KernelIdeal.Body.dats m) c),
        ((h c).2 Cert.KernelIdeal.main_arg4 (Pipeline.mem_restRefs_of Cert.KernelIdeal.main_arg4 (by decide) (by decide))).trans (Cert.KernelIdeal.Gen.W_main_arg4 m (Cert.KernelIdeal.Body.dats m) c),
        ((h c).2 Cert.KernelIdeal.main_arg5 (Pipeline.mem_restRefs_of Cert.KernelIdeal.main_arg5 (by decide) (by decide))).trans (Cert.KernelIdeal.Gen.W_main_arg5 m (Cert.KernelIdeal.Body.dats m) c),
        ((h c).2 Cert.KernelIdeal.main_arg6 (Pipeline.mem_restRefs_of Cert.KernelIdeal.main_arg6 (by decide) (by decide))).trans (Cert.KernelIdeal.Gen.W_main_arg6 m (Cert.KernelIdeal.Body.dats m) c),
        ((h c).2 Cert.KernelIdeal.main_arg7 (Pipeline.mem_restRefs_of Cert.KernelIdeal.main_arg7 (by decide) (by decide))).trans (Cert.KernelIdeal.Gen.W_main_arg7 m (Cert.KernelIdeal.Body.dats m) c),
        ((h c).2 Cert.KernelIdeal.main_arg8 (Pipeline.mem_restRefs_of Cert.KernelIdeal.main_arg8 (by decide) (by decide))).trans (Cert.KernelIdeal.Gen.W_main_arg8 m (Cert.KernelIdeal.Body.dats m) c),
        ((h c).2 Cert.KernelIdeal.main_arg9 (Pipeline.mem_restRefs_of Cert.KernelIdeal.main_arg9 (by decide) (by decide))).trans (Cert.KernelIdeal.Gen.W_main_arg9 m (Cert.KernelIdeal.Body.dats m) c),
        ((h c).2 Cert.KernelIdeal.main_arg10 (Pipeline.mem_restRefs_of Cert.KernelIdeal.main_arg10 (by decide) (by decide))).trans (Cert.KernelIdeal.Gen.W_main_arg10 m (Cert.KernelIdeal.Body.dats m) c),
        ((h c).2 Cert.KernelIdeal.main_arg11 (Pipeline.mem_restRefs_of Cert.KernelIdeal.main_arg11 (by decide) (by decide))).trans (Cert.KernelIdeal.Gen.W_main_arg11 m (Cert.KernelIdeal.Body.dats m) c),
        ((h c).2 Cert.KernelIdeal.main_arg12 (Pipeline.mem_restRefs_of Cert.KernelIdeal.main_arg12 (by decide) (by decide))).trans (Cert.KernelIdeal.Gen.W_main_arg12 m (Cert.KernelIdeal.Body.dats m) c),
        ((h c).2 Cert.KernelIdeal.main_arg13 (Pipeline.mem_restRefs_of Cert.KernelIdeal.main_arg13 (by decide) (by decide))).trans (Cert.KernelIdeal.Gen.W_main_arg13 m (Cert.KernelIdeal.Body.dats m) c),
        ((h c).2 Cert.KernelIdeal.main_arg14 (Pipeline.mem_restRefs_of Cert.KernelIdeal.main_arg14 (by decide) (by decide))).trans (Cert.KernelIdeal.Gen.W_main_arg14 m (Cert.KernelIdeal.Body.dats m) c),
        ((h c).2 Cert.KernelIdeal.main_arg15 (Pipeline.mem_restRefs_of Cert.KernelIdeal.main_arg15 (by decide) (by decide))).trans (Cert.KernelIdeal.Gen.W_main_arg15 m (Cert.KernelIdeal.Body.dats m) c)⟩)
      (Cert.KernelIdeal.Body.run_main (F := Ideal) m ρ)
  · exact (θ_run Cert.ReferenceIdeal.defs _ _).mono (fun r h c =>
      ⟨(h c).1.trans (congrArg (fun x : (⟨Cert.ReferenceIdeal.S32x28x28x128, .f32⟩ : BufTy).Contents (Elt Ideal) =>
          (transpose Cert.ReferenceIdeal.S32x128x28x28 [0, 3, 1, 2] x Cert.ReferenceIdeal.Gen.transposes_S32x28x28x128_S32x128x28x28_0_3_1_2
            : (⟨Cert.ReferenceIdeal.S32x128x28x28, .f32⟩ : BufTy).Contents (Elt Ideal)))
          (Cert.Proof.Bridge.arrays_eq m m' ρ' c (hagree c))), (h c).2⟩)
      (Cert.ReferenceIdeal.RefValueRun.run_result (F := Ideal) m' ρ')

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
